-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg1 : FVec F S8192x8192 .f32) (main_arg4 : FVec F S512x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_cst_8 : FVec F S_ .f32 := constant S_ .f32 0x00000000#32
  let main_v24 : FVec F S8192x8192 .f32 := broadcastInDim S8192x8192 ![] bcast_S_S8192x8192 main_cst_8
  let main_v25 : IVec S8192x8192 1 := cmpf .oge main_arg1 main_v24
  let main_c_9 : IVec S_ 1 := constantI S_ 1 1#1
  let main_v26 : IVec S_ 1 := (fun x v => Host.reduce IntOp.andi x v reducesTo_S8192x8192_S_d0_1 h_S_) main_v25 main_c_9
  let main_v27 : IVec S_ 1 := andi main_v23 main_v26
  main_v27

def fn {F : FTy → Type} [FloatOps F] (main_arg0 : FVec F S8192x512 .f32) (main_arg1 : FVec F S8192x8192 .f32) (main_arg2 : FVec F S512x256 .f32) (main_arg3 : FVec F S512x256 .f32) (main_arg4 : FVec F S512x256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg1 main_arg4 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S512x768 : Shape := ⟨2, ![512, 768]⟩
abbrev S8192x256 : Shape := ⟨2, ![8192, 256]⟩
abbrev S1024x512 : Shape := ⟨2, ![1024, 512]⟩
abbrev S1024x256 : Shape := ⟨2, ![1024, 256]⟩
abbrev S1024x768 : Shape := ⟨2, ![1024, 768]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 10
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x768, .f32⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x768, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x1024, .f32⟩
  | .local _ .vmem, ⟨16, _⟩ => ⟨S1024x1024, .f32⟩
  | .local _ .vmem, ⟨17, _⟩ => ⟨S1024x256, .f32⟩
  | .local _ .vmem, ⟨18, _⟩ => ⟨S1024x256, .f32⟩
  | .local _ .vmem, ⟨19, _⟩ => ⟨S1024x1, .f32⟩
  | .local _ .vmem, ⟨20, _⟩ => ⟨S1024x1, .f32⟩
  | .local _ .vmem, ⟨21, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_26 : BitVec 32 := 0#32
  let v46 : BitVec 1 := Scalar.cmpi .ne v45 c0_i32_26
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  concatenates_S512x256_S512x256_S512x256_S512x768_d1 : Shape.Concatenates [S512x256, S512x256, S512x256] S512x768 1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  slices_S1024x768_o0_0_S1024x256 : S1024x768.Slices ![0, 0] S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  slices_S1024x768_o0_256_S1024x256 : S1024x768.Slices ![0, 256] S1024x256
  slices_S1024x768_o0_512_S1024x256 : S1024x768.Slices ![0, 512] S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  dot_S1024x512_S512x768_S1024x768_1_0_0_1_n_n_wf : DotDims.WF S1024x512 S512x768 S1024x768 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .f32 = 32 ∨ (Rect.block (s := S512x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .bf16 = 32 ∨ (Rect.block (s := S8192x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .bf16 = 32 ∨ (Rect.block (s := S8192x256) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S8192x256 : Shape := ⟨2, ![8192, 256]⟩
abbrev S_ : Shape := ⟨0, ![]⟩
abbrev S256x8192 : Shape := ⟨2, ![256, 8192]⟩
abbrev S8192 : Shape := ⟨1, ![8192]⟩
abbrev S8192x1 : Shape := ⟨2, ![8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S256x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S8192x256, .f32⟩
  | .hbm, ⟨32, _⟩ => ⟨S_, .f32⟩
  | .hbm, ⟨33, _⟩ => ⟨S8192x256, .f32⟩
  | .hbm, ⟨34, _⟩ => ⟨S8192x256, .i1⟩
  | .hbm, ⟨35, _⟩ => ⟨S_, .f32⟩
  | .hbm, ⟨36, _⟩ => ⟨S8192x256, .f32⟩
  | .hbm, ⟨37, _⟩ => ⟨S8192x256, .i1⟩
  | .hbm, ⟨38, _⟩ => ⟨S_, .f32⟩
  | .hbm, ⟨39, _⟩ => ⟨S_, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .f32⟩
  | .hbm, ⟨46, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_cst_1 : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_v4 : Ref sig .tc := ⟨.hbm, 41, rfl⟩
abbrev main_call0_v5 : Ref sig .tc := ⟨.hbm, 42, rfl⟩
abbrev main_call0_cst_2 : Ref sig .tc := ⟨.hbm, 43, rfl⟩
abbrev main_call0_v6 : Ref sig .tc := ⟨.hbm, 44, rfl⟩
abbrev main_call0_v7 : Ref sig .tc := ⟨.hbm, 45, rfl⟩
abbrev main_v22 : Ref sig .tc := ⟨.hbm, 46, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.B_R0.lean ====
/-
  The projection region, at any contents V of the buffers when it is entered: each window's block at a grid
  point, what the body leaves in the three output blocks (the slices of one product, as pieces over payloads),
  the body's triple, the proof data and the body obligation.
-/
import proofs.«132113_j39393440039434_1_alg».proof.Proof.Gen.Kernel.Launch
import proofs.«132113_j39393440039434_1_alg».proof.Proof.Gen.Kernel.Skeleton
import proofs.«132113_j39393440039434_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev r0_a : Rect S1024x512 := Rect.unit (s := S1024x512) ![0, 0] S1024x512.size inb_S1024x512_S1024x512_0_0
abbrev r0_b : Rect S512x768 := Rect.unit (s := S512x768) ![0, 0] S512x768.size inb_S512x768_S512x768_0_0
abbrev r0_o : Rect S1024x256 := Rect.unit (s := S1024x256) ![0, 0] S1024x256.size inb_S1024x256_S1024x256_0_0

/-- The query, key and value blocks the body leaves, from the feature block and the weights. -/
def out0_2 (x0 : Vec F S1024x512 .f32) (x1 : Vec F S512x768 .f32) : Vec F S1024x256 .bf16 :=
  View.canon [⟨r0_o, k0_pay2 (View.ld x0 r0_a) (View.ld x1 r0_b)⟩]
def out0_3 (x0 : Vec F S1024x512 .f32) (x1 : Vec F S512x768 .f32) : Vec F S1024x256 .bf16 :=
  View.canon [⟨r0_o, k0_pay3 (View.ld x0 r0_a) (View.ld x1 r0_b)⟩]
def out0_4 (x0 : Vec F S1024x512 .f32) (x1 : Vec F S512x768 .f32) : Vec F S1024x256 .bf16 :=
  View.canon [⟨r0_o, k0_pay4 (View.ld x0 r0_a) (View.ld x1 r0_b)⟩]

/-- One whole-block store covers the block. -/
theorem cover0 (p0 : Vec F S1024x256 .bf16) (y : S1024x256.Idx) :
    ∃ pc ∈ ([⟨r0_o, p0⟩] : List (View.Piece (Elt F) S1024x256 .bf16)), y ∈ pc.1.set :=
  View.cover_of_tiled [⟨r0_o, p0⟩] S1024x256.size (by rfl) y

/-! ## The body's triple -/

set_option maxHeartbeats 4000000 in
theorem sound_kernel0 (c : Dev nD) (i : grid0.Coords) (E : Set ℕ) (arg1 : Memref sig .tc .vmem S1024x512 .f32) (harg1 : arg1.IsWhole) (arg2 : Memref sig .tc .vmem S512x768 .f32) (harg2 : arg2.IsWhole)
    (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole)
    (x0 : Vec F S1024x512 .f32) (x1 : Vec F S512x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c _ Set.univ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.B_R1Shared.lean ====
/-
  The attention region's shared vocabulary: a window's block at a grid point, the two branch conditions of the
  body in closed form over the 64 points (the key-block coordinate is the point modulo 8), where the output
  window is idle, the staging and scratch memrefs, and the region's scoped rest spelled buffer by buffer.
-/
import proofs.«132113_j39393440039434_1_alg».proof.Proof.Gen.Kernel.Launch
import proofs.«132113_j39393440039434_1_alg».proof.Proof.Gen.Kernel.Skeleton
import proofs.«132113_j39393440039434_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions -/

/-- The first key block: the carried quantities are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The last key block: the output block is written. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last key block the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S1024x256 .f32 := (Memref.whole cc1_stg4_0 : Memref sig .tc .vmem S1024x256 .f32).view
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The three carried quantities' buffers: the running maximum, the weight sum, the value accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-- A scoped buffer the region does not use, whole at some contents. -/
abbrev anyBuf (c : Dev nD) (b : Ref sig .tc) : sProp 𝕄 :=
  iprop(∃ f : Buf (Elt F) ((c : Thread nD τ).loc b), ((c : Thread nD τ).loc b) ↦{fullShare} f)

/-- The projection region's nine staging buffers, which the attention region leaves alone. -/
abbrev others1 (c : Dev nD) (T : sProp 𝕄) : sProp 𝕄 :=
  iprop(anyBuf c cc0_stg0_0 ∗ anyBuf c cc0_stg0_1 ∗ anyBuf c cc0_stg1_0 ∗ anyBuf c cc0_stg2_0 ∗ anyBuf c cc0_stg2_1
    ∗ anyBuf c cc0_stg3_0 ∗ anyBuf c cc0_stg3_1 ∗ anyBuf c cc0_stg4_0 ∗ anyBuf c cc0_stg4_1 ∗ T)

/-- The region's invariant before its first point: the scoped rest, the three carried buffers at anything, and
    the generator register. -/
theorem PhiA1_eq (c : Dev nD) :
    (Pipeline.ΦA spec1 c : sProp 𝕄)
      = iprop(others1 c iprop((∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Fr

end
-- ==== Proof.B_R1RunB.lean ====
/-
  The attention body run whole, once per control case: which pieces its stores leave in the output block's buffer
  and in the three carried buffers, with the proof that the body runs to its end from whole memrefs.
-/
import proofs.«132113_j39393440039434_1_alg».proof.Proof.B_R1Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.B_R1RunA.lean ====
/-
  The attention body run whole, once per control case: which pieces its stores leave in the output block's buffer
  and in the three carried buffers, with the proof that the body runs to its end from whole memrefs.
-/
import proofs.«132113_j39393440039434_1_alg».proof.Proof.B_R1RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.B_R1RunC.lean ====
/-
  The attention body run whole, once per control case: which pieces its stores leave in the output block's buffer
  and in the three carried buffers, with the proof that the body runs to its end from whole memrefs.
-/
import proofs.«132113_j39393440039434_1_alg».proof.Proof.B_R1RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Fr

end
-- ==== Proof.B_R1Frame.lean ====
/-
  The attention region's proof data: what each control case leaves in the output block's buffer and in the three
  carried buffers (the pieces its run found, read back), the same point by point along the grid, the invariant that
  carries the three buffers from one point to the next, and the body obligation.
-/
import proofs.«132113_j39393440039434_1_alg».proof.Proof.B_R1RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def out1_A_4 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) : Vec F S1024x256 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

theorem scover1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

def sout1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

theorem scover1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

def sout1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

theorem scover1_A_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) (y : S1024x256.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x256.size (by sl_kernel_rfl) y

def sout1_A_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) : Vec F S1024x256 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

def out1_B_4 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x256 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

theorem scover1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

def sout1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

theorem scover1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

def sout1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

theorem scover1_B_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

def sout1_B_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

theorem cover1_C_4 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x256.size (by sl_kernel_rfl) y

def out1_C_4 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x256 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

theorem scover1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

def sout1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

theorem scover1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

def sout1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

theorem scover1_C_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

def sout1_C_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

section
variable (V : (c : Dev nD) → (b : Ref sig .tc) → Buf (Elt F) ((c : Thread nD τ).loc b))

/-- What a point of the first key block leaves: the output buffer (idle), the maximum, the weight sum, the accumulator. -/
def ptA (c : Dev nD) (t : Fin cfg1.N) (h0 : t.val % 8 = 0) : Vec F S1024x256 .f32 × Vec F S1024x1 .f32 × Vec F S1024x1 .f32 × Vec F S1024x256 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t))

/-- What a point of a middle key block leaves, over what the point before left in the carried buffers. -/
def ptB (c : Dev nD) (t : Fin cfg1.N) (h0 : ¬t.val % 8 = 0) (h1 : ¬t.val % 8 = 7) (prev : Vec F S1024x256 .f32 × Vec F S1024x1 .f32 × Vec F S1024x1 .f32 × Vec F S1024x256 .f32) : Vec F S1024x256 .f32 × Vec F S1024x1 .f32 × Vec F S1024x1 .f32 × Vec F S1024x256 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2)

/-- What a point of the last key block leaves: the output block too. -/
def ptC (c : Dev nD) (t : Fin cfg1.N) (h0 : ¬t.val % 8 = 0) (h1 : t.val % 8 = 7) (prev : Vec F S1024x256 .f32 × Vec F S1024x1 .f32 × Vec F S1024x1 .f32 × Vec F S1024x256 .f32) : Vec F S1024x256 .f32 × Vec F S1024x1 .f32 × Vec F S1024x1 .f32 × Vec F S1024x256 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2)

/-- THE ACCUMULATION: what the output's staging buffer and the three carried buffers hold after the body at position `n`. -/
def outsAt1 (c : Dev nD) : (n : ℕ) → n < cfg1.N → Vec F S1024x256 .f32 × Vec F S1024x1 .f32 × Vec F S1024x1 .f32 × Vec F S1024x256 .f32
  | 0, hn => ptA V c ⟨0, hn⟩ (Nat.zero_mod _)
  | n + 1, hn =>
    if h0 : (n + 1) % 8 = 0 then ptA V c ⟨n + 1, hn⟩ h0
    else if h1 : (n + 1) % 8 = 7 then ptC V c ⟨n + 1, hn⟩ h0 h1 (outsAt1 c n (Nat.lt_of_succ_lt hn))
    else ptB V c ⟨n + 1, hn⟩ h0 h1 (outsAt1 c n (Nat.lt_of_succ_lt hn))

theorem outsAt1_A (c : Dev nD) (t : Fin cfg1.N) (h0 : t.val % 8 = 0) :
    outsAt1 V c t.val t.isLt = ptA V c t h0 := by
  obtain ⟨n, hn⟩ := t
  cases n with
  | zero => exact rfl
  | succ n => exact dif_pos h0

theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The three carried buffers at given contents, beside the buffers the region leaves alone. -/
abbrev carried (c : Dev nD) (y0 : Vec F S1024x1 .f32) (y1 : Vec F S1024x1 .f32) (y2 : Vec F S1024x256 .f32) : sProp 𝕄 :=
  iprop(others1 c iprop(owns (c : Thread nD τ) scM1_0 fullShare y0 ∗ owns (c : Thread nD τ) scM1_1 fullShare y1
      ∗ owns (c : Thread nD τ) scM1_2 fullShare y2) ∗ (∃ r, prngReg c r))

/-- The region invariant before position `n`: before the first point every scoped buffer at anything; afterwards the
    three carried buffers at what the point before left in them. -/
def PhiS1 (c : Dev nD) : (n : ℕ) → n ≤ cfg1.N → sProp 𝕄
  | 0, _ => Pipeline.ΦA spec1 c
  | n + 1, hn => carried c (outsAt1 V c n hn).2.1 (outsAt1 V c n hn).2.2.1 (outsAt1 V c n hn).2.2.2

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = carried c (outsAt1 V c n hn).2.1 (outsAt1 V c n hn).2.2.1 (outsAt1 V c n hn).2.2.2 := rfl

theorem PhiS1_pos (c : Dev nD) (n : ℕ) (h : n ≤ cfg1.N) (hz : n ≠ 0) :
    PhiS1 V c n h = carried c (outsAt1 V c (n - 1) (by omega)).2.1 (outsAt1 V c (n - 1) (by omega)).2.2.1 (outsAt1 V c (n - 1) (by omega)).2.2.2 := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.Kernel.Fr

end
-- ==== Proof.B_Bounds.lean ====
/-
  The buffers' contents at each boundary of the kernel's program: at the launch; after the three weight matrices are
  laid side by side; after the projection region; after the attention region. Each argument array reaches the end as
  launched.
-/
import proofs.«132113_j39393440039434_1_alg».proof.Proof.B_R0
import proofs.«132113_j39393440039434_1_alg».proof.Proof.B_R1Frame
import Idealize.ShloMosaic.Lib.Pipeline.RegionsLoop
import Idealize.ShloMosaic.Lib.Pipeline.FrameSuffix

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.nary_writes, Finset.singleton_subset_iff, List.mem_toFinset]; exact List.mem_map_of_mem (by decide))

/-- Laying the weights side by side writes only the buffer of the joint weights. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

end Cert.Kernel.Fr

end
-- ==== Proof.B_R1BodyDefs.lean ====
/-
  What the attention body is called with at a grid point, and what it returns.
-/
import proofs.«132113_j39393440039434_1_alg».proof.Proof.B_R1Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

end Cert.Kernel.Fr

end
-- ==== Proof.B_R1BodyA.lean ====
/-
  The attention body's obligation at a point of the first key block.
-/
import proofs.«132113_j39393440039434_1_alg».proof.Proof.B_R1BodyDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_body1_A0 (c : Dev nD) (t : Fin cfg1.N) (h0 : t.val % 8 = 0) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hc0 : cond1_0 (grid1.coords t) := (hcond1_0 t).mpr h0
  have hc1 : ¬cond1_1 (grid1.coords t) := fun h => by have := (hcond1_1 t).mp h; omega
  rw [Dat.leavesExact_idle (dat1 V c) 4 t (idleAt1_4 t hc1) (noFlush1_4 t hc1)]
  rw [outsAt1_A V c t h0]
  unfold ptA sout1_A_0 sout1_A_1 sout1_A_2; (try dsimp only)
  rw [PhiS1_castSucc V c t, PhiS1_zero V c _ _ hz, PhiA1_eq]
  iintro ⟨⟨⟨Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩, ⟨%d4, H4⟩⟩
  iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t)).2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%es0, HS0⟩, ⟨%es1, HS1⟩, ⟨%es2, HS2⟩⟩
  isplitl [Ha1 Ha2 Ha3 Ha4 Ha5 Ha6 Ha7 Ha8 Ha9 HS0 HS1 HS2 Hg]
  · isplitl [Ha1 Ha2 Ha3 Ha4 Ha5 Ha6 Ha7 Ha8 Ha9 HS0 HS1 HS2]
    ·
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      isplitl [HS0]
      · unfold owns; iexists _; isplitr
        swap; · iexact HS0
        ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
      isplitl [HS1]
      · unfold owns; iexists _; isplitr
        swap; · iexact HS1
        ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
      unfold owns; iexists _; isplitr
      swap; · iexact HS2
      ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
    iexact Hg
  isplitl [Ho]; · iexact Ho
  isplitl [H0]; · iexact H0
  isplitl [H1]; · iexact H1
  isplitl [H2]; · iexact H2
  isplitl [H3]; · iexact H3
  iexists _; iexact H4

set_option maxHeartbeats 8000000 in
theorem sound_body1_A1 (c : Dev nD) (t : Fin cfg1.N) (h0 : t.val % 8 = 0) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hc0 : cond1_0 (grid1.coords t) := (hcond1_0 t).mpr h0
  have hc1 : ¬cond1_1 (grid1.coords t) := fun h => by have := (hcond1_1 t).mp h; omega
  rw [Dat.leavesExact_idle (dat1 V c) 4 t (idleAt1_4 t hc1) (noFlush1_4 t hc1)]
  rw [outsAt1_A V c t h0]
  unfold ptA sout1_A_0 sout1_A_1 sout1_A_2; (try dsimp only)
  rw [PhiS1_castSucc V c t, PhiS1_pos V c _ _ hz]
  iintro ⟨⟨⟨Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩, ⟨%d4, H4⟩⟩
  iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t)).2.2.2.2 _ Set.univ _)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexists _; iexact HS1
  isplitl [HS2]; · iexists _; iexact HS2
  iintro ⟨H0, H1, H2, H3, H4, ⟨%es0, HS0⟩, ⟨%es1, HS1⟩, ⟨%es2, HS2⟩⟩
  isplitl [Ha1 Ha2 Ha3 Ha4 Ha5 Ha6 Ha7 Ha8 Ha9 HS0 HS1 HS2 Hg]
  · isplitl [Ha1 Ha2 Ha3 Ha4 Ha5 Ha6 Ha7 Ha8 Ha9 HS0 HS1 HS2]
    ·
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      isplitl [HS0]
      · unfold owns; iexists _; isplitr
        swap; · iexact HS0
        ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
      isplitl [HS1]
      · unfold owns; iexists _; isplitr
        swap; · iexact HS1
        ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
      unfold owns; iexists _; isplitr
      swap; · iexact HS2
      ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
    iexact Hg
  isplitl [Ho]; · iexact Ho
  isplitl [H0]; · iexact H0
  isplitl [H1]; · iexact H1
  isplitl [H2]; · iexact H2
  isplitl [H3]; · iexact H3
  iexists _; iexact H4

end Cert.Kernel.Fr

end
-- ==== Proof.B_R1BodyB.lean ====
/-
  The attention body's obligation at a point of a middle key block.
-/
import proofs.«132113_j39393440039434_1_alg».proof.Proof.B_R1BodyDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hc0 : ¬cond1_0 (grid1.coords t) := fun h => h0 ((hcond1_0 t).mp h)
  have hc1 : ¬cond1_1 (grid1.coords t) := fun h => h1 ((hcond1_1 t).mp h)
  have hz : t.val ≠ 0 := by omega
  rw [Dat.leavesExact_idle (dat1 V c) 4 t (idleAt1_4 t hc1) (noFlush1_4 t hc1)]
  rw [outsAt1_B V c t h0 h1]
  unfold ptB sout1_B_0 sout1_B_1 sout1_B_2; (try dsimp only)
  rw [PhiS1_castSucc V c t, PhiS1_pos V c _ _ hz]
  iintro ⟨⟨⟨Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩, ⟨%d4, H4⟩⟩
  iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%es0, HS0⟩, ⟨%es1, HS1⟩, ⟨%es2, HS2⟩⟩
  isplitl [Ha1 Ha2 Ha3 Ha4 Ha5 Ha6 Ha7 Ha8 Ha9 HS0 HS1 HS2 Hg]
  · isplitl [Ha1 Ha2 Ha3 Ha4 Ha5 Ha6 Ha7 Ha8 Ha9 HS0 HS1 HS2]
    ·
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      isplitl [HS0]
      · unfold owns; iexists _; isplitr
        swap; · iexact HS0
        ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      isplitl [HS1]
      · unfold owns; iexists _; isplitr
        swap; · iexact HS1
        ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      unfold owns; iexists _; isplitr
      swap; · iexact HS2
      ipureintro; exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    iexact Hg
  isplitl [Ho]; · iexact Ho
  isplitl [H0]; · iexact H0
  isplitl [H1]; · iexact H1
  isplitl [H2]; · iexact H2
  isplitl [H3]; · iexact H3
  iexists _; iexact H4

end Cert.Kernel.Fr

end
-- ==== Proof.B_R1BodyC.lean ====
/-
  The attention body's obligation at a point of the last key block.
-/
import proofs.«132113_j39393440039434_1_alg».proof.Proof.B_R1BodyDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hc0 : ¬cond1_0 (grid1.coords t) := fun h => h0 ((hcond1_0 t).mp h)
  have hc1 : cond1_1 (grid1.coords t) := (hcond1_1 t).mpr h1
  have hz : t.val ≠ 0 := by omega
  rw [show (dat1 V c).leavesExact 4 t = owns (c : Thread nD τ) (ms1_4 t) fullShare ((dat1 V c).after 4 t) from by
    unfold Dat.leavesExact; rw [liveAt1_4 t hc1], after1_4]
  rw [outsAt1_C V c t h0 h1]
  unfold ptC out1_C_4 sout1_C_0 sout1_C_1 sout1_C_2; (try dsimp only)
  rw [PhiS1_castSucc V c t, PhiS1_pos V c _ _ hz]
  iintro ⟨⟨⟨Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩, ⟨%d4, H4⟩⟩
  iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%e4, H4⟩, ⟨%es0, HS0⟩, ⟨%es1, HS1⟩, ⟨%es2, HS2⟩⟩
  isplitl [Ha1 Ha2 Ha3 Ha4 Ha5 Ha6 Ha7 Ha8 Ha9 HS0 HS1 HS2 Hg]
  · isplitl [Ha1 Ha2 Ha3 Ha4 Ha5 Ha6 Ha7 Ha8 Ha9 HS0 HS1 HS2]
    ·
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      isplitl [HS0]
      · unfold owns; iexists _; isplitr
        swap; · iexact HS0
        ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      isplitl [HS1]
      · unfold owns; iexists _; isplitr
        swap; · iexact HS1
        ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      unfold owns; iexists _; isplitr
      swap; · iexact HS2
      ipureintro; exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)

end Cert.Kernel.Fr

end
-- ==== Proof.B_R1BodyNew.lean ====
/-
  The attention body's obligation at every grid point, from the three control cases; and the region invariant's
  two ends: what the launch hands over, and that after any point the first form is given back.
-/
import proofs.«132113_j39393440039434_1_alg».proof.Proof.B_R1BodyA
import proofs.«132113_j39393440039434_1_alg».proof.Proof.B_R1BodyB
import proofs.«132113_j39393440039434_1_alg».proof.Proof.B_R1BodyC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · by_cases hz : t.val = 0
    · exact sound_body1_A0 V c t h0 hz
    · exact sound_body1_A1 V c t h0 hz
  · by_cases h1 : t.val % 8 = 7
    · exact sound_body1_C V c t h0 h1
    · exact sound_body1_B V c t h0 h1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha1, Ha2, Ha3, Ha4, Ha5, Ha6, Ha7, Ha8, Ha9, HS0, HS1, HS2⟩, Hg⟩
  isplitl [Ha1 Ha2 Ha3 Ha4 Ha5 Ha6 Ha7 Ha8 Ha9 HS0 HS1 HS2]
  ·
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.B_Asm.lean ====
/-
  The whole run of the kernel's program: the two regions as segments over the boundary contents, and the run itself,
  ending with every unscoped buffer at the last boundary's contents; the frame is its reading at the argument arrays.
-/
import proofs.«132113_j39393440039434_1_alg».proof.Proof.B_Bounds
import proofs.«132113_j39393440039434_1_alg».proof.Proof.B_R1BodyNew
import Idealize.ShloMosaic.Lib.Pipeline.RegionsLoop
import Idealize.ShloMosaic.Lib.Pipeline.FrameSuffix

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Fr

end
-- ==== Proof.I_R0.lean ====
/-
  The projection region, at any contents V of the buffers when it is entered: each window's block at a grid
  point, what the body leaves in the three output blocks (the slices of one product, as pieces over payloads),
  the body's triple, the proof data and the body obligation.
-/
import proofs.«132113_j39393440039434_1_alg».proof.Proof.Gen.KernelIdeal.Launch
import proofs.«132113_j39393440039434_1_alg».proof.Proof.Gen.KernelIdeal.Skeleton
import proofs.«132113_j39393440039434_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev r0_a : Rect S1024x512 := Rect.unit (s := S1024x512) ![0, 0] S1024x512.size inb_S1024x512_S1024x512_0_0
abbrev r0_b : Rect S512x768 := Rect.unit (s := S512x768) ![0, 0] S512x768.size inb_S512x768_S512x768_0_0
abbrev r0_o : Rect S1024x256 := Rect.unit (s := S1024x256) ![0, 0] S1024x256.size inb_S1024x256_S1024x256_0_0

/-- The query, key and value blocks the body leaves, from the feature block and the weights. -/
def out0_2 (x0 : Vec F S1024x512 .f32) (x1 : Vec F S512x768 .f32) : Vec F S1024x256 .bf16 :=
  View.canon [⟨r0_o, k0_pay2 (View.ld x0 r0_a) (View.ld x1 r0_b)⟩]
def out0_3 (x0 : Vec F S1024x512 .f32) (x1 : Vec F S512x768 .f32) : Vec F S1024x256 .bf16 :=
  View.canon [⟨r0_o, k0_pay3 (View.ld x0 r0_a) (View.ld x1 r0_b)⟩]
def out0_4 (x0 : Vec F S1024x512 .f32) (x1 : Vec F S512x768 .f32) : Vec F S1024x256 .bf16 :=
  View.canon [⟨r0_o, k0_pay4 (View.ld x0 r0_a) (View.ld x1 r0_b)⟩]

/-- One whole-block store covers the block. -/
theorem cover0 (p0 : Vec F S1024x256 .bf16) (y : S1024x256.Idx) :
    ∃ pc ∈ ([⟨r0_o, p0⟩] : List (View.Piece (Elt F) S1024x256 .bf16)), y ∈ pc.1.set :=
  View.cover_of_tiled [⟨r0_o, p0⟩] S1024x256.size (by rfl) y

/-! ## The body's triple -/

set_option maxHeartbeats 4000000 in
theorem sound_kernel0 (c : Dev nD) (i : grid0.Coords) (E : Set ℕ) (arg1 : Memref sig .tc .vmem S1024x512 .f32) (harg1 : arg1.IsWhole) (arg2 : Memref sig .tc .vmem S512x768 .f32) (harg2 : arg2.IsWhole)
    (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole)
    (x0 : Vec F S1024x512 .f32) (x1 : Vec F S512x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c _ Set.univ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.I_R1Shared.lean ====
/-
  The attention region's shared vocabulary: a window's block at a grid point, the two branch conditions of the
  body in closed form over the 64 points (the key-block coordinate is the point modulo 8), where the output
  window is idle, the staging and scratch memrefs, and the region's scoped rest spelled buffer by buffer.
-/
import proofs.«132113_j39393440039434_1_alg».proof.Proof.Gen.KernelIdeal.Launch
import proofs.«132113_j39393440039434_1_alg».proof.Proof.Gen.KernelIdeal.Skeleton
import proofs.«132113_j39393440039434_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions -/

/-- The first key block: the carried quantities are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The last key block: the output block is written. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last key block the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S1024x256 .f32 := (Memref.whole cc1_stg4_0 : Memref sig .tc .vmem S1024x256 .f32).view
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The three carried quantities' buffers: the running maximum, the weight sum, the value accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-- A scoped buffer the region does not use, whole at some contents. -/
abbrev anyBuf (c : Dev nD) (b : Ref sig .tc) : sProp 𝕄 :=
  iprop(∃ f : Buf (Elt F) ((c : Thread nD τ).loc b), ((c : Thread nD τ).loc b) ↦{fullShare} f)

/-- The projection region's nine staging buffers, which the attention region leaves alone. -/
abbrev others1 (c : Dev nD) (T : sProp 𝕄) : sProp 𝕄 :=
  iprop(anyBuf c cc0_stg0_0 ∗ anyBuf c cc0_stg0_1 ∗ anyBuf c cc0_stg1_0 ∗ anyBuf c cc0_stg2_0 ∗ anyBuf c cc0_stg2_1
    ∗ anyBuf c cc0_stg3_0 ∗ anyBuf c cc0_stg3_1 ∗ anyBuf c cc0_stg4_0 ∗ anyBuf c cc0_stg4_1 ∗ T)

/-- The region's invariant before its first point: the scoped rest, the three carried buffers at anything, and
    the generator register. -/
theorem PhiA1_eq (c : Dev nD) :
    (Pipeline.ΦA spec1 c : sProp 𝕄)
      = iprop(others1 c iprop((∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Fr

end
-- ==== Proof.I_R1RunB.lean ====
/-
  The attention body run whole, once per control case: which pieces its stores leave in the output block's buffer
  and in the three carried buffers, with the proof that the body runs to its end from whole memrefs.
-/
import proofs.«132113_j39393440039434_1_alg».proof.Proof.I_R1Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.I_R1RunA.lean ====
/-
  The attention body run whole, once per control case: which pieces its stores leave in the output block's buffer
  and in the three carried buffers, with the proof that the body runs to its end from whole memrefs.
-/
import proofs.«132113_j39393440039434_1_alg».proof.Proof.I_R1RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.I_R1RunC.lean ====
/-
  The attention body run whole, once per control case: which pieces its stores leave in the output block's buffer
  and in the three carried buffers, with the proof that the body runs to its end from whole memrefs.
-/
import proofs.«132113_j39393440039434_1_alg».proof.Proof.I_R1RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Fr

end
-- ==== Proof.I_R1Frame.lean ====
/-
  The attention region's proof data: what each control case leaves in the output block's buffer and in the three
  carried buffers (the pieces its run found, read back), the same point by point along the grid, the invariant that
  carries the three buffers from one point to the next, and the body obligation.
-/
import proofs.«132113_j39393440039434_1_alg».proof.Proof.I_R1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def out1_A_4 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) : Vec F S1024x256 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

theorem scover1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

def sout1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

theorem scover1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

def sout1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

theorem scover1_A_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) (y : S1024x256.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x256.size (by sl_kernel_rfl) y

def sout1_A_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) : Vec F S1024x256 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

def out1_B_4 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x256 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

theorem scover1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

def sout1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

theorem scover1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

def sout1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

theorem scover1_B_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

def sout1_B_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

theorem cover1_C_4 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x256.size (by sl_kernel_rfl) y

def out1_C_4 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x256 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

theorem scover1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

def sout1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

theorem scover1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

def sout1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

theorem scover1_C_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x256.size (by sl_kernel_rfl) y

def sout1_C_2 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

section
variable (V : (c : Dev nD) → (b : Ref sig .tc) → Buf (Elt F) ((c : Thread nD τ).loc b))

/-- What a point of the first key block leaves: the output buffer (idle), the maximum, the weight sum, the accumulator. -/
def ptA (c : Dev nD) (t : Fin cfg1.N) (h0 : t.val % 8 = 0) : Vec F S1024x256 .f32 × Vec F S1024x1 .f32 × Vec F S1024x1 .f32 × Vec F S1024x256 .f32 :=
  (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t))

/-- What a point of a middle key block leaves, over what the point before left in the carried buffers. -/
def ptB (c : Dev nD) (t : Fin cfg1.N) (h0 : ¬t.val % 8 = 0) (h1 : ¬t.val % 8 = 7) (prev : Vec F S1024x256 .f32 × Vec F S1024x1 .f32 × Vec F S1024x1 .f32 × Vec F S1024x256 .f32) : Vec F S1024x256 .f32 × Vec F S1024x1 .f32 × Vec F S1024x1 .f32 × Vec F S1024x256 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2)

/-- What a point of the last key block leaves: the output block too. -/
def ptC (c : Dev nD) (t : Fin cfg1.N) (h0 : ¬t.val % 8 = 0) (h1 : t.val % 8 = 7) (prev : Vec F S1024x256 .f32 × Vec F S1024x1 .f32 × Vec F S1024x1 .f32 × Vec F S1024x256 .f32) : Vec F S1024x256 .f32 × Vec F S1024x1 .f32 × Vec F S1024x1 .f32 × Vec F S1024x256 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2)

/-- THE ACCUMULATION: what the output's staging buffer and the three carried buffers hold after the body at position `n`. -/
def outsAt1 (c : Dev nD) : (n : ℕ) → n < cfg1.N → Vec F S1024x256 .f32 × Vec F S1024x1 .f32 × Vec F S1024x1 .f32 × Vec F S1024x256 .f32
  | 0, hn => ptA V c ⟨0, hn⟩ (Nat.zero_mod _)
  | n + 1, hn =>
    if h0 : (n + 1) % 8 = 0 then ptA V c ⟨n + 1, hn⟩ h0
    else if h1 : (n + 1) % 8 = 7 then ptC V c ⟨n + 1, hn⟩ h0 h1 (outsAt1 c n (Nat.lt_of_succ_lt hn))
    else ptB V c ⟨n + 1, hn⟩ h0 h1 (outsAt1 c n (Nat.lt_of_succ_lt hn))

theorem outsAt1_A (c : Dev nD) (t : Fin cfg1.N) (h0 : t.val % 8 = 0) :
    outsAt1 V c t.val t.isLt = ptA V c t h0 := by
  obtain ⟨n, hn⟩ := t
  cases n with
  | zero => exact rfl
  | succ n => exact dif_pos h0

theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The three carried buffers at given contents, beside the buffers the region leaves alone. -/
abbrev carried (c : Dev nD) (y0 : Vec F S1024x1 .f32) (y1 : Vec F S1024x1 .f32) (y2 : Vec F S1024x256 .f32) : sProp 𝕄 :=
  iprop(others1 c iprop(owns (c : Thread nD τ) scM1_0 fullShare y0 ∗ owns (c : Thread nD τ) scM1_1 fullShare y1
      ∗ owns (c : Thread nD τ) scM1_2 fullShare y2) ∗ (∃ r, prngReg c r))

/-- The region invariant before position `n`: before the first point every scoped buffer at anything; afterwards the
    three carried buffers at what the point before left in them. -/
def PhiS1 (c : Dev nD) : (n : ℕ) → n ≤ cfg1.N → sProp 𝕄
  | 0, _ => Pipeline.ΦA spec1 c
  | n + 1, hn => carried c (outsAt1 V c n hn).2.1 (outsAt1 V c n hn).2.2.1 (outsAt1 V c n hn).2.2.2

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = carried c (outsAt1 V c n hn).2.1 (outsAt1 V c n hn).2.2.1 (outsAt1 V c n hn).2.2.2 := rfl

theorem PhiS1_pos (c : Dev nD) (n : ℕ) (h : n ≤ cfg1.N) (hz : n ≠ 0) :
    PhiS1 V c n h = carried c (outsAt1 V c (n - 1) (by omega)).2.1 (outsAt1 V c (n - 1) (by omega)).2.2.1 (outsAt1 V c (n - 1) (by omega)).2.2.2 := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.KernelIdeal.Fr

end
-- ==== Proof.I_Bounds.lean ====
/-
  The buffers' contents at each boundary of the kernel's program: at the launch; after the three weight matrices are
  laid side by side; after the projection region; after the attention region. Each argument array reaches the end as
  launched.
-/
import proofs.«132113_j39393440039434_1_alg».proof.Proof.I_R0
import proofs.«132113_j39393440039434_1_alg».proof.Proof.I_R1Frame
import Idealize.ShloMosaic.Lib.Pipeline.RegionsLoop
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.nary_writes, Finset.singleton_subset_iff, List.mem_toFinset]; exact List.mem_map_of_mem (by decide))

/-- Laying the weights side by side writes only the buffer of the joint weights. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

end Cert.KernelIdeal.Fr

end
-- ==== Proof.I_R1BodyDefs.lean ====
/-
  What the attention body is called with at a grid point, and what it returns.
-/
import proofs.«132113_j39393440039434_1_alg».proof.Proof.I_R1Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

end Cert.KernelIdeal.Fr

end
-- ==== Proof.I_R1BodyA.lean ====
/-
  The attention body's obligation at a point of the first key block.
-/
import proofs.«132113_j39393440039434_1_alg».proof.Proof.I_R1BodyDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_body1_A0 (c : Dev nD) (t : Fin cfg1.N) (h0 : t.val % 8 = 0) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hc0 : cond1_0 (grid1.coords t) := (hcond1_0 t).mpr h0
  have hc1 : ¬cond1_1 (grid1.coords t) := fun h => by have := (hcond1_1 t).mp h; omega
  rw [Dat.leavesExact_idle (dat1 V c) 4 t (idleAt1_4 t hc1) (noFlush1_4 t hc1)]
  rw [outsAt1_A V c t h0]
  unfold ptA sout1_A_0 sout1_A_1 sout1_A_2; (try dsimp only)
  rw [PhiS1_castSucc V c t, PhiS1_zero V c _ _ hz, PhiA1_eq]
  iintro ⟨⟨⟨Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩, ⟨%d4, H4⟩⟩
  iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t)).2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%es0, HS0⟩, ⟨%es1, HS1⟩, ⟨%es2, HS2⟩⟩
  isplitl [Ha1 Ha2 Ha3 Ha4 Ha5 Ha6 Ha7 Ha8 Ha9 HS0 HS1 HS2 Hg]
  · isplitl [Ha1 Ha2 Ha3 Ha4 Ha5 Ha6 Ha7 Ha8 Ha9 HS0 HS1 HS2]
    ·
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      isplitl [HS0]
      · unfold owns; iexists _; isplitr
        swap; · iexact HS0
        ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
      isplitl [HS1]
      · unfold owns; iexists _; isplitr
        swap; · iexact HS1
        ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
      unfold owns; iexists _; isplitr
      swap; · iexact HS2
      ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
    iexact Hg
  isplitl [Ho]; · iexact Ho
  isplitl [H0]; · iexact H0
  isplitl [H1]; · iexact H1
  isplitl [H2]; · iexact H2
  isplitl [H3]; · iexact H3
  iexists _; iexact H4

set_option maxHeartbeats 8000000 in
theorem sound_body1_A1 (c : Dev nD) (t : Fin cfg1.N) (h0 : t.val % 8 = 0) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hc0 : cond1_0 (grid1.coords t) := (hcond1_0 t).mpr h0
  have hc1 : ¬cond1_1 (grid1.coords t) := fun h => by have := (hcond1_1 t).mp h; omega
  rw [Dat.leavesExact_idle (dat1 V c) 4 t (idleAt1_4 t hc1) (noFlush1_4 t hc1)]
  rw [outsAt1_A V c t h0]
  unfold ptA sout1_A_0 sout1_A_1 sout1_A_2; (try dsimp only)
  rw [PhiS1_castSucc V c t, PhiS1_pos V c _ _ hz]
  iintro ⟨⟨⟨Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩, ⟨%d4, H4⟩⟩
  iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t)).2.2.2.2 _ Set.univ _)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexists _; iexact HS1
  isplitl [HS2]; · iexists _; iexact HS2
  iintro ⟨H0, H1, H2, H3, H4, ⟨%es0, HS0⟩, ⟨%es1, HS1⟩, ⟨%es2, HS2⟩⟩
  isplitl [Ha1 Ha2 Ha3 Ha4 Ha5 Ha6 Ha7 Ha8 Ha9 HS0 HS1 HS2 Hg]
  · isplitl [Ha1 Ha2 Ha3 Ha4 Ha5 Ha6 Ha7 Ha8 Ha9 HS0 HS1 HS2]
    ·
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      isplitl [HS0]
      · unfold owns; iexists _; isplitr
        swap; · iexact HS0
        ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
      isplitl [HS1]
      · unfold owns; iexists _; isplitr
        swap; · iexact HS1
        ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
      unfold owns; iexists _; isplitr
      swap; · iexact HS2
      ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t))
    iexact Hg
  isplitl [Ho]; · iexact Ho
  isplitl [H0]; · iexact H0
  isplitl [H1]; · iexact H1
  isplitl [H2]; · iexact H2
  isplitl [H3]; · iexact H3
  iexists _; iexact H4

end Cert.KernelIdeal.Fr

end
-- ==== Proof.I_R1BodyB.lean ====
/-
  The attention body's obligation at a point of a middle key block.
-/
import proofs.«132113_j39393440039434_1_alg».proof.Proof.I_R1BodyDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hc0 : ¬cond1_0 (grid1.coords t) := fun h => h0 ((hcond1_0 t).mp h)
  have hc1 : ¬cond1_1 (grid1.coords t) := fun h => h1 ((hcond1_1 t).mp h)
  have hz : t.val ≠ 0 := by omega
  rw [Dat.leavesExact_idle (dat1 V c) 4 t (idleAt1_4 t hc1) (noFlush1_4 t hc1)]
  rw [outsAt1_B V c t h0 h1]
  unfold ptB sout1_B_0 sout1_B_1 sout1_B_2; (try dsimp only)
  rw [PhiS1_castSucc V c t, PhiS1_pos V c _ _ hz]
  iintro ⟨⟨⟨Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩, ⟨%d4, H4⟩⟩
  iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%es0, HS0⟩, ⟨%es1, HS1⟩, ⟨%es2, HS2⟩⟩
  isplitl [Ha1 Ha2 Ha3 Ha4 Ha5 Ha6 Ha7 Ha8 Ha9 HS0 HS1 HS2 Hg]
  · isplitl [Ha1 Ha2 Ha3 Ha4 Ha5 Ha6 Ha7 Ha8 Ha9 HS0 HS1 HS2]
    ·
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      isplitl [HS0]
      · unfold owns; iexists _; isplitr
        swap; · iexact HS0
        ipureintro; exact View.read_writes_of_cover _ _ _ _ _ (scover1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      isplitl [HS1]
      · unfold owns; iexists _; isplitr
        swap; · iexact HS1
        ipureintro; exact View.read_writes_of_cover _ _ _ _ _ (scover1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      unfold owns; iexists _; isplitr
      swap; · iexact HS2
      ipureintro; exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    iexact Hg
  isplitl [Ho]; · iexact Ho
  isplitl [H0]; · iexact H0
  isplitl [H1]; · iexact H1
  isplitl [H2]; · iexact H2
  isplitl [H3]; · iexact H3
  iexists _; iexact H4

end Cert.KernelIdeal.Fr

end
-- ==== Proof.I_R1BodyC.lean ====
/-
  The attention body's obligation at a point of the last key block.
-/
import proofs.«132113_j39393440039434_1_alg».proof.Proof.I_R1BodyDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hc0 : ¬cond1_0 (grid1.coords t) := fun h => h0 ((hcond1_0 t).mp h)
  have hc1 : cond1_1 (grid1.coords t) := (hcond1_1 t).mpr h1
  have hz : t.val ≠ 0 := by omega
  rw [show (dat1 V c).leavesExact 4 t = owns (c : Thread nD τ) (ms1_4 t) fullShare ((dat1 V c).after 4 t) from by
    unfold Dat.leavesExact; rw [liveAt1_4 t hc1], after1_4]
  rw [outsAt1_C V c t h0 h1]
  unfold ptC out1_C_4 sout1_C_0 sout1_C_1 sout1_C_2; (try dsimp only)
  rw [PhiS1_castSucc V c t, PhiS1_pos V c _ _ hz]
  iintro ⟨⟨⟨Ha1, Ha2, Ha3, Ha4, Ha5, Ha6, Ha7, Ha8, Ha9, HS0, HS1, HS2⟩, Hg⟩, Ho, ⟨%d0, H0⟩, ⟨%d1, H1⟩, ⟨%d2, H2⟩, ⟨%d3, H3⟩, ⟨%d4, H4⟩⟩
  iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%e4, H4⟩, ⟨%es0, HS0⟩, ⟨%es1, HS1⟩, ⟨%es2, HS2⟩⟩
  isplitl [Ha1 Ha2 Ha3 Ha4 Ha5 Ha6 Ha7 Ha8 Ha9 HS0 HS1 HS2 Hg]
  · isplitl [Ha1 Ha2 Ha3 Ha4 Ha5 Ha6 Ha7 Ha8 Ha9 HS0 HS1 HS2]
    ·
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Ha7]; · iexact Ha7
      isplitl [Ha8]; · iexact Ha8
      isplitl [Ha9]; · iexact Ha9
      isplitl [HS0]
      · unfold owns; iexists _; isplitr
        swap; · iexact HS0
        ipureintro; exact View.read_writes_of_cover _ _ _ _ _ (scover1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      isplitl [HS1]
      · unfold owns; iexists _; isplitr
        swap; · iexact HS1
        ipureintro; exact View.read_writes_of_cover _ _ _ _ _ (scover1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      unfold owns; iexists _; isplitr
      swap; · iexact HS2
      ipureintro; exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)

end Cert.KernelIdeal.Fr

end
-- ==== Proof.I_R1BodyNew.lean ====
/-
  The attention body's obligation at every grid point, from the three control cases; and the region invariant's
  two ends: what the launch hands over, and that after any point the first form is given back.
-/
import proofs.«132113_j39393440039434_1_alg».proof.Proof.I_R1BodyA
import proofs.«132113_j39393440039434_1_alg».proof.Proof.I_R1BodyB
import proofs.«132113_j39393440039434_1_alg».proof.Proof.I_R1BodyC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · by_cases hz : t.val = 0
    · exact sound_body1_A0 V c t h0 hz
    · exact sound_body1_A1 V c t h0 hz
  · by_cases h1 : t.val % 8 = 7
    · exact sound_body1_C V c t h0 h1
    · exact sound_body1_B V c t h0 h1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha1, Ha2, Ha3, Ha4, Ha5, Ha6, Ha7, Ha8, Ha9, HS0, HS1, HS2⟩, Hg⟩
  isplitl [Ha1 Ha2 Ha3 Ha4 Ha5 Ha6 Ha7 Ha8 Ha9 HS0 HS1 HS2]
  ·
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.I_Asm.lean ====
/-
  The whole run of the kernel's program: the two regions as segments over the boundary contents, and the run itself,
  ending with every unscoped buffer at the last boundary's contents; the frame is its reading at the argument arrays.
-/
import proofs.«132113_j39393440039434_1_alg».proof.Proof.I_Bounds
import proofs.«132113_j39393440039434_1_alg».proof.Proof.I_R1BodyNew
import Idealize.ShloMosaic.Lib.Pipeline.RegionsLoop
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Fr

end
-- ==== Proof.KPieces.lean ====
/-
  What the attention body's stores leave, case by case, as the payload functions of the body's skeleton. In each
  control case the run of the body found, for the output block's buffer and for the three carried buffers (running
  maximum, weight sum, value accumulator), the list of stores made; every store writes the whole buffer, so the
  buffer ends holding the last store's payload, and every load reads a whole buffer: either one the run has not
  written (then it reads the block or the carried contents the run started from) or one an earlier store of the
  same run covers (then it reads that store's payload). Nothing here opens a payload's arithmetic.
-/
import proofs.«132113_j39393440039434_1_alg».proof.Proof.I_R1Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-buffer rectangle, in the spelling the body prints. -/
theorem kp_hz : (![0, 0] : Fin 2 → Nat) = fun _ => 0 := funext fun a => by fin_cases a <;> rfl

/-! ## A middle key block -/

/-- A middle key block leaves, in the running-maximum buffer, the larger of the carried maximum and this block's row maxima of the scaled scores. -/
theorem sout1_B_0_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    sout1_B_0 c i arg2 harg2 arg3 harg3 arg4 harg4 arg5 harg5 arg6 harg6 arg7 harg7 arg8 harg8 arg9 harg9 hc0 hc1 x0 x1 x2 x3 xs0 xs1 xs2 = k1_pay2 (k1_pay9 x0 x1 xs0) := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_cons_unit_zero (S := S1024x1) kp_hz]
  simp only [View.readCov_unit_zero (S := S1024x1) _ kp_hz, View.readCov_unit_zero (S := S1024x256) _ kp_hz,
    View.readAt_eq_ld, harg2.read_unread, harg3.read_unread, harg4.read_unread, harg5.read_unread, harg7.read_unread,
    harg8.read_unread, harg9.read_unread, View.ld_unit_zero (S := S1024x256) kp_hz, View.ld_unit_zero (S := S1024x1024) kp_hz,
    View.ld_unit_zero (S := S1024x1) kp_hz]

/-- A middle key block leaves, in the weight-sum buffer, the carried sum rescaled to the new maximum plus this block's row sums of the weighted exponentials. -/
theorem sout1_B_1_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    sout1_B_1 c i arg2 harg2 arg3 harg3 arg4 harg4 arg5 harg5 arg6 harg6 arg7 harg7 arg8 harg8 arg9 harg9 hc0 hc1 x0 x1 x2 x3 xs0 xs1 xs2 = k1_pay12 x0 x1 x3 xs0 xs0 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_cons_unit_zero (S := S1024x1) kp_hz]
  simp only [View.readCov_unit_zero (S := S1024x1) _ kp_hz, View.readCov_unit_zero (S := S1024x256) _ kp_hz,
    View.readAt_eq_ld, harg2.read_unread, harg3.read_unread, harg4.read_unread, harg5.read_unread, harg7.read_unread,
    harg8.read_unread, harg9.read_unread, View.ld_unit_zero (S := S1024x256) kp_hz, View.ld_unit_zero (S := S1024x1024) kp_hz,
    View.ld_unit_zero (S := S1024x1) kp_hz]

/-- A middle key block leaves, in the accumulator, the carried accumulator rescaled to the new maximum plus this block's weighted exponentials times the value block. -/
theorem sout1_B_2_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    sout1_B_2 c i arg2 harg2 arg3 harg3 arg4 harg4 arg5 harg5 arg6 harg6 arg7 harg7 arg8 harg8 arg9 harg9 hc0 hc1 x0 x1 x2 x3 xs0 xs1 xs2 = k1_pay1 (k1_pay7 x2) (k1_pay10 x0 x1 xs0 xs0) (k1_pay11 x0 x1 x3 xs0) xs2 := by
  unfold sout1_B_2
  rw [View.read_writes_eq_canon _ _ _ (scover1_B_2 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_cons_unit_zero (S := S1024x256) kp_hz]
  simp only [View.readCov_unit_zero (S := S1024x1) _ kp_hz, View.readCov_unit_zero (S := S1024x256) _ kp_hz,
    View.readAt_eq_ld, harg2.read_unread, harg3.read_unread, harg4.read_unread, harg5.read_unread, harg7.read_unread,
    harg8.read_unread, harg9.read_unread, View.ld_unit_zero (S := S1024x256) kp_hz, View.ld_unit_zero (S := S1024x1024) kp_hz,
    View.ld_unit_zero (S := S1024x1) kp_hz]

/-! ## The last key block -/

/-- The last key block leaves the running maximum exactly as a middle block does. -/
theorem sout1_C_0_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    sout1_C_0 c i arg2 harg2 arg3 harg3 arg4 harg4 arg5 harg5 arg6 harg6 arg7 harg7 arg8 harg8 arg9 harg9 hc0 hc1 x0 x1 x2 x3 xs0 xs1 xs2 = k1_pay2 (k1_pay9 x0 x1 xs0) := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x1) kp_hz]
  simp only [View.readCov_unit_zero (S := S1024x1) _ kp_hz, View.readCov_unit_zero (S := S1024x256) _ kp_hz,
    View.readAt_eq_ld, harg2.read_unread, harg3.read_unread, harg4.read_unread, harg5.read_unread, harg7.read_unread,
    harg8.read_unread, harg9.read_unread, View.ld_unit_zero (S := S1024x256) kp_hz, View.ld_unit_zero (S := S1024x1024) kp_hz,
    View.ld_unit_zero (S := S1024x1) kp_hz]

/-- The last key block leaves the weight sum exactly as a middle block does. -/
theorem sout1_C_1_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    sout1_C_1 c i arg2 harg2 arg3 harg3 arg4 harg4 arg5 harg5 arg6 harg6 arg7 harg7 arg8 harg8 arg9 harg9 hc0 hc1 x0 x1 x2 x3 xs0 xs1 xs2 = k1_pay12 x0 x1 x3 xs0 xs0 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x1) kp_hz]
  simp only [View.readCov_unit_zero (S := S1024x1) _ kp_hz, View.readCov_unit_zero (S := S1024x256) _ kp_hz,
    View.readAt_eq_ld, harg2.read_unread, harg3.read_unread, harg4.read_unread, harg5.read_unread, harg7.read_unread,
    harg8.read_unread, harg9.read_unread, View.ld_unit_zero (S := S1024x256) kp_hz, View.ld_unit_zero (S := S1024x1024) kp_hz,
    View.ld_unit_zero (S := S1024x1) kp_hz]

/-- The last key block leaves the accumulator exactly as a middle block does. -/
theorem sout1_C_2_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    sout1_C_2 c i arg2 harg2 arg3 harg3 arg4 harg4 arg5 harg5 arg6 harg6 arg7 harg7 arg8 harg8 arg9 harg9 hc0 hc1 x0 x1 x2 x3 xs0 xs1 xs2 = k1_pay1 (k1_pay7 x2) (k1_pay10 x0 x1 xs0 xs0) (k1_pay11 x0 x1 x3 xs0) xs2 := by
  unfold sout1_C_2
  rw [View.read_writes_eq_canon _ _ _ (scover1_C_2 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x256) kp_hz]
  simp only [View.readCov_unit_zero (S := S1024x1) _ kp_hz, View.readCov_unit_zero (S := S1024x256) _ kp_hz,
    View.readAt_eq_ld, harg2.read_unread, harg3.read_unread, harg4.read_unread, harg5.read_unread, harg7.read_unread,
    harg8.read_unread, harg9.read_unread, View.ld_unit_zero (S := S1024x256) kp_hz, View.ld_unit_zero (S := S1024x1024) kp_hz,
    View.ld_unit_zero (S := S1024x1) kp_hz]

/-- The last key block also writes the output block: the updated accumulator divided by the updated weight sum (plus a small constant), passed through the activation; both operands are read back from the stores this same run made. -/
theorem out1_C_4_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x256 .bf16) (x1 : Vec F S1024x256 .bf16) (x2 : Vec F S1024x256 .bf16) (x3 : Vec F S1024x1024 .f32) (xs0 : Vec F S1024x1 .f32) (xs1 : Vec F S1024x1 .f32) (xs2 : Vec F S1024x256 .f32) :
    out1_C_4 c i arg2 harg2 arg3 harg3 arg4 harg4 arg5 harg5 arg6 harg6 arg7 harg7 arg8 harg8 arg9 harg9 hc0 hc1 x0 x1 x2 x3 xs0 xs1 xs2 = k1_pay3 (k1_pay1 (k1_pay7 x2) (k1_pay10 x0 x1 xs0 xs0) (k1_pay11 x0 x1 x3 xs0) xs2) (k1_pay12 x0 x1 x3 xs0 xs0 xs1) := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x256) kp_hz]
  simp only [View.readCov_unit_zero (S := S1024x1) _ kp_hz, View.readCov_unit_zero (S := S1024x256) _ kp_hz,
    View.readAt_eq_ld, harg2.read_unread, harg3.read_unread, harg4.read_unread, harg5.read_unread, harg7.read_unread,
    harg8.read_unread, harg9.read_unread, View.ld_unit_zero (S := S1024x256) kp_hz, View.ld_unit_zero (S := S1024x1024) kp_hz,
    View.ld_unit_zero (S := S1024x1) kp_hz]

/-! ## The first key block -/

/-- The first key block resets the running maximum to -∞ and then updates it: the update reads back the reset value. -/
theorem sout1_A_0_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) :
    sout1_A_0 c i arg2 harg2 arg3 harg3 arg4 harg4 arg5 harg5 arg6 harg6 arg7 harg7 arg8 harg8 arg9 harg9 hc0 hc1 x0 x1 x2 x3 = k1_pay2 (k1_pay9 x0 x1 (k1_pay4 (F := F))) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) kp_hz]
  simp only [View.readCov_unit_zero (S := S1024x1) _ kp_hz, View.readCov_unit_zero (S := S1024x256) _ kp_hz,
    View.readAt_eq_ld, harg2.read_unread, harg3.read_unread, harg4.read_unread, harg5.read_unread, harg7.read_unread,
    harg8.read_unread, harg9.read_unread, View.ld_unit_zero (S := S1024x256) kp_hz, View.ld_unit_zero (S := S1024x1024) kp_hz,
    View.ld_unit_zero (S := S1024x1) kp_hz]

/-- The first key block resets the weight sum to zero and then updates it: the update reads back the reset values. -/
theorem sout1_A_1_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) :
    sout1_A_1 c i arg2 harg2 arg3 harg3 arg4 harg4 arg5 harg5 arg6 harg6 arg7 harg7 arg8 harg8 arg9 harg9 hc0 hc1 x0 x1 x2 x3 = k1_pay12 x0 x1 x3 (k1_pay4 (F := F)) (k1_pay4 (F := F)) (k1_pay5 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) kp_hz]
  simp only [View.readCov_unit_zero (S := S1024x1) _ kp_hz, View.readCov_unit_zero (S := S1024x256) _ kp_hz,
    View.readAt_eq_ld, harg2.read_unread, harg3.read_unread, harg4.read_unread, harg5.read_unread, harg7.read_unread,
    harg8.read_unread, harg9.read_unread, View.ld_unit_zero (S := S1024x256) kp_hz, View.ld_unit_zero (S := S1024x1024) kp_hz,
    View.ld_unit_zero (S := S1024x1) kp_hz]

/-- The first key block resets the accumulator to zero and then updates it: the update reads back the reset values. -/
theorem sout1_A_2_eq (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x256 .bf16) (x1 : Vec F S1024x256 .bf16) (x2 : Vec F S1024x256 .bf16) (x3 : Vec F S1024x1024 .f32) :
    sout1_A_2 c i arg2 harg2 arg3 harg3 arg4 harg4 arg5 harg5 arg6 harg6 arg7 harg7 arg8 harg8 arg9 harg9 hc0 hc1 x0 x1 x2 x3 = k1_pay1 (k1_pay7 x2) (k1_pay10 x0 x1 (k1_pay4 (F := F)) (k1_pay4 (F := F))) (k1_pay11 x0 x1 x3 (k1_pay4 (F := F))) (k1_pay6 (F := F)) := by
  unfold sout1_A_2
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x256) kp_hz]
  simp only [View.readCov_unit_zero (S := S1024x1) _ kp_hz, View.readCov_unit_zero (S := S1024x256) _ kp_hz,
    View.readAt_eq_ld, harg2.read_unread, harg3.read_unread, harg4.read_unread, harg5.read_unread, harg7.read_unread,
    harg8.read_unread, harg9.read_unread, View.ld_unit_zero (S := S1024x256) kp_hz, View.ld_unit_zero (S := S1024x1024) kp_hz,
    View.ld_unit_zero (S := S1024x1) kp_hz]

end Cert.KernelIdeal.Fr

end
-- ==== Proof.LibOnlineSoftmax.lean ====
import Idealize.ShloMosaic.PureOps.Ideal

/-!
# The online (blockwise) softmax recurrence on the extended reals

A row of scores `s j`, weights `w j` and values `v j` (all real) is consumed block by block.  The running
maximum starts at `-∞`; after a block `T` it becomes `m' = max m (sup_T s)`, and a running weighted mass
`l` is rescaled and extended:

  `l' = exp (m - m') * l + ∑_{j ∈ T} exp (s j - m') * w j`.

This file shows that after the blocks seen so far make up the finite set `S`, the mass is the real number
`∑_{j ∈ S} exp (s j - max_S s) * w j` (`step`), whatever the order and sizes of the blocks, including the
first block, where `m = -∞` and the rescaling factor is `exp (-∞) = 0`.  With the weights `w j * v j` the
same statement is the recurrence of the weighted value accumulator (`step_val`).  Finally a quotient of
sums by a common nonzero real denominator may be taken term by term (`quotient_sum`), which is how a
normalisation applied after the accumulation meets one applied to every weight before it.
-/

noncomputable section

namespace OnlineSoftmax

open Idealize.ShloMosaic

variable {ι : Type*} [DecidableEq ι]

/-- The coercion of a finite real sum is the sum of the coercions. -/
theorem coe_sum (S : Finset ι) (f : ι → ℝ) :
    ((∑ j ∈ S, f j : ℝ) : EReal) = ∑ j ∈ S, (f j : EReal) := by
  induction S using Finset.induction_on with
  | empty => simp
  | insert a S ha ih => rw [Finset.sum_insert ha, Finset.sum_insert ha, EReal.coe_add, ih]

/-- The running maximum over the scores seen, as an extended real: `-∞` when nothing was seen. -/
def rmax (S : Finset ι) (s : ι → ℝ) : EReal := S.sup fun j => (s j : EReal)

/-- The largest score over a nonempty finite set, as a real (`0` by convention on the empty set, where
    no formula below reads it). -/
def top (S : Finset ι) (s : ι → ℝ) : ℝ := if h : S.Nonempty then S.sup' h s else 0

/-- The mass of the scores of `S` relative to the level `c`: `∑_{j ∈ S} exp (s j - c) * w j`. -/
def mass (S : Finset ι) (s w : ι → ℝ) (c : ℝ) : ℝ := ∑ j ∈ S, Real.exp (s j - c) * w j

theorem rmax_empty (s : ι → ℝ) : rmax (∅ : Finset ι) s = ⊥ := Finset.sup_empty

/-- Over a nonempty set the running maximum is the real maximum. -/
theorem rmax_coe {S : Finset ι} (h : S.Nonempty) (s : ι → ℝ) : rmax S s = ((top S s : ℝ) : EReal) := by
  unfold rmax top
  rw [dif_pos h, ← Finset.sup'_eq_sup h]
  exact (Finset.comp_sup'_eq_sup'_comp h (fun x : ℝ => (x : EReal))
    (fun a b => EReal.coe_strictMono.monotone.map_sup a b)).symm

/-- Taking in a further block replaces the running maximum by the maximum over the union. -/
theorem rmax_union (S T : Finset ι) (s : ι → ℝ) : max (rmax S s) (rmax T s) = rmax (S ∪ T) s := by
  unfold rmax
  rw [Finset.sup_union]

/-- Every score seen is at most the largest one. -/
theorem le_top {S : Finset ι} {j : ι} (hj : j ∈ S) (s : ι → ℝ) : s j ≤ top S s := by
  unfold top
  rw [dif_pos ⟨j, hj⟩]
  exact Finset.le_sup' s hj

/-- Changing the level from `c` to `c'` multiplies the mass by `exp (c - c')`. -/
theorem mass_shift (S : Finset ι) (s w : ι → ℝ) (c c' : ℝ) :
    Real.exp (c - c') * mass S s w c = mass S s w c' := by
  unfold mass
  rw [Finset.mul_sum]
  refine Finset.sum_congr rfl fun j _ => ?_
  rw [← mul_assoc, ← Real.exp_add]
  congr 2
  ring

theorem mass_empty (s w : ι → ℝ) (c : ℝ) : mass (∅ : Finset ι) s w c = 0 := Finset.sum_empty

/-- The exponentials of real scores relative to a real level, each times its weight, sum to the mass. -/
theorem sum_exp_coe (S : Finset ι) (s w : ι → ℝ) (c : ℝ) :
    ∑ j ∈ S, Ideal.exp ((s j : EReal) - (c : EReal)) * (w j : EReal) = ((mass S s w c : ℝ) : EReal) := by
  unfold mass
  rw [coe_sum]
  refine Finset.sum_congr rfl fun j _ => ?_
  rw [← EReal.coe_sub, Ideal.exp_coe, ← EReal.coe_mul]

/-- A finite sum of products of reals, formed in the extended reals, is the real sum of products: a
    contraction of real operands is real. -/
theorem sum_mul_coe (S : Finset ι) (a b : ι → ℝ) :
    ∑ k ∈ S, (a k : EReal) * (b k : EReal) = ((∑ k ∈ S, a k * b k : ℝ) : EReal) := by
  rw [coe_sum]
  exact Finset.sum_congr rfl fun k _ => (EReal.coe_mul _ _).symm

/-- ONE STEP of the recurrence.  If the mass carried so far is that of `S` at the level `max_S s`, then
    after rescaling by `exp (m - m')` and adding the new block's terms at the new level the mass is that of
    `S ∪ T` at the level `max_{S ∪ T} s`.  All arithmetic is that of the extended reals; `S = ∅` is the first
    block, where `m = -∞`. -/
theorem step (S T : Finset ι) (hST : Disjoint S T) (hT : T.Nonempty) (s w : ι → ℝ) :
    Ideal.exp (rmax S s - max (rmax S s) (rmax T s)) * ((mass S s w (top S s) : ℝ) : EReal)
        + ∑ j ∈ T, Ideal.exp ((s j : EReal) - max (rmax S s) (rmax T s)) * (w j : EReal)
      = ((mass (S ∪ T) s w (top (S ∪ T) s) : ℝ) : EReal) := by
  have hU : (S ∪ T).Nonempty := hT.mono Finset.subset_union_right
  rw [rmax_union, rmax_coe hU]
  have hsplit : mass (S ∪ T) s w (top (S ∪ T) s)
      = mass S s w (top (S ∪ T) s) + mass T s w (top (S ∪ T) s) := by
    unfold mass
    exact Finset.sum_union hST
  rw [sum_exp_coe, hsplit, EReal.coe_add]
  congr 1
  rcases S.eq_empty_or_nonempty with rfl | hS
  · rw [rmax_empty, sub_eq_add_neg, EReal.bot_add, Ideal.exp_bot, zero_mul, mass_empty, EReal.coe_zero]
  · rw [rmax_coe hS, ← EReal.coe_sub, Ideal.exp_coe, ← EReal.coe_mul, mass_shift]

/-- The same step for the accumulator of weighted values: its new terms are `(exp (s j - m') * w j) * v j`,
    so it is the mass for the weights `w j * v j`. -/
theorem step_val (S T : Finset ι) (hST : Disjoint S T) (hT : T.Nonempty) (s w v : ι → ℝ) :
    Ideal.exp (rmax S s - max (rmax S s) (rmax T s))
          * ((mass S s (fun j => w j * v j) (top S s) : ℝ) : EReal)
        + ∑ j ∈ T, (Ideal.exp ((s j : EReal) - max (rmax S s) (rmax T s)) * (w j : EReal)) * (v j : EReal)
      = ((mass (S ∪ T) s (fun j => w j * v j) (top (S ∪ T) s) : ℝ) : EReal) := by
  rw [← step S T hST hT s (fun j => w j * v j)]
  congr 1
  refine Finset.sum_congr rfl fun j _ => ?_
  rw [EReal.coe_mul, mul_assoc]

/-- A quotient by a common nonzero real denominator, taken term by term under a sum of products, is the
    quotient of the sum of products. -/
theorem quotient_sum (S : Finset ι) (a v : ι → ℝ) {d : ℝ} (hd : d ≠ 0) :
    ∑ j ∈ S, Ideal.div (a j : EReal) (d : EReal) * (v j : EReal)
      = Ideal.div ((∑ j ∈ S, a j * v j : ℝ) : EReal) (d : EReal) := by
  rw [Ideal.div_coe hd, ← EReal.coe_mul, Finset.sum_mul, coe_sum]
  refine Finset.sum_congr rfl fun j _ => ?_
  rw [Ideal.div_coe hd, ← EReal.coe_mul, ← EReal.coe_mul]
  congr 1
  ring

/-- THE TWO-PASS ROW.  A reference that first takes the maximum of the whole row, then normalises every
    weight `exp (s j - max) * w j` by the row's mass plus `e`, and only then contracts with the values, computes
    the quotient of the value mass by the mass plus `e` — provided that denominator is not zero. -/
theorem two_pass_row (S : Finset ι) (hS : S.Nonempty) (s w v : ι → ℝ) (e : ℝ)
    (hd : mass S s w (top S s) + e ≠ 0) :
    ∑ j ∈ S, Ideal.div (Ideal.exp ((s j : EReal) - rmax S s) * (w j : EReal))
        ((∑ i ∈ S, Ideal.exp ((s i : EReal) - rmax S s) * (w i : EReal)) + (e : EReal)) * (v j : EReal)
      = Ideal.div ((mass S s (fun j => w j * v j) (top S s) : ℝ) : EReal)
          (((mass S s w (top S s) : ℝ) : EReal) + (e : EReal)) := by
  rw [rmax_coe hS, sum_exp_coe, ← EReal.coe_add]
  have hterm : ∀ j ∈ S,
      Ideal.div (Ideal.exp ((s j : EReal) - ((top S s : ℝ) : EReal)) * (w j : EReal))
          ((mass S s w (top S s) + e : ℝ) : EReal) * (v j : EReal)
        = Ideal.div ((Real.exp (s j - top S s) * w j : ℝ) : EReal)
          ((mass S s w (top S s) + e : ℝ) : EReal) * (v j : EReal) := by
    intro j _
    rw [← EReal.coe_sub, Ideal.exp_coe, ← EReal.coe_mul]
  rw [Finset.sum_congr rfl hterm, quotient_sum S _ v hd]
  have hval : (∑ j ∈ S, Real.exp (s j - top S s) * w j * v j)
      = mass S s (fun j => w j * v j) (top S s) := by
    unfold mass
    exact Finset.sum_congr rfl fun j _ => mul_assoc _ _ _
  rw [hval]

/-! ## Blocks of a row

The keys `(b, k)`, `b` the block and `k` the position inside it: what has been seen before block `b`, the block
itself, and sums and suprema over a block as sums and suprema over the positions. -/

section Blocks

variable {B n : ℕ}

/-- The keys of the blocks before the `b`-th. -/
def seen (b : ℕ) : Finset (Fin B × Fin n) := Finset.univ.filter fun j => j.1.val < b

/-- The keys of block `b`. -/
def blk (b : Fin B) : Finset (Fin B × Fin n) := Finset.univ.filter fun j => j.1 = b

theorem seen_zero : seen (B := B) (n := n) 0 = ∅ :=
  Finset.filter_false_of_mem fun j _ => Nat.not_lt_zero _

theorem seen_succ (b : Fin B) : seen (n := n) (b.val + 1) = seen b.val ∪ blk b := by
  ext j
  simp only [seen, blk, Finset.mem_filter, Finset.mem_univ, true_and, Finset.mem_union, Fin.ext_iff]
  omega

theorem seen_disjoint (b : Fin B) : Disjoint (seen (n := n) b.val) (blk b) := by
  rw [Finset.disjoint_left]
  intro j h1 h2
  simp only [seen, blk, Finset.mem_filter, Finset.mem_univ, true_and] at h1 h2
  rw [h2] at h1
  exact lt_irrefl _ h1

theorem seen_all : seen (B := B) (n := n) B = Finset.univ :=
  Finset.filter_true_of_mem fun j _ => j.1.isLt

theorem blk_nonempty (b : Fin B) (hn : 0 < n) : (blk (n := n) b).Nonempty :=
  ⟨(b, ⟨0, hn⟩), Finset.mem_filter.mpr ⟨Finset.mem_univ _, rfl⟩⟩

theorem blk_eq_map (b : Fin B) :
    blk (n := n) b = Finset.univ.map ⟨fun k => (b, k), fun _ _ h => (Prod.ext_iff.mp h).2⟩ := by
  ext j
  simp only [blk, Finset.mem_filter, Finset.mem_univ, true_and, Finset.mem_map,
    Function.Embedding.coeFn_mk]
  constructor
  · intro h
    exact ⟨j.2, Prod.ext h.symm rfl⟩
  · rintro ⟨k, rfl⟩
    rfl

/-- A sum over a block is the sum over the positions inside it. -/
theorem sum_blk {M : Type*} [AddCommMonoid M] (b : Fin B) (f : Fin B × Fin n → M) :
    ∑ j ∈ blk b, f j = ∑ k : Fin n, f (b, k) := by
  rw [blk_eq_map, Finset.sum_map]
  rfl

/-- The running maximum of a block is the supremum over the positions inside it. -/
theorem rmax_blk (b : Fin B) (s : Fin B × Fin n → ℝ) :
    rmax (blk b) s = Finset.univ.sup fun k : Fin n => ((s (b, k) : ℝ) : EReal) := by
  unfold rmax
  rw [blk_eq_map, Finset.sup_map]
  rfl

end Blocks

/-- With nonnegative weights the mass is nonnegative, so adding a positive `ε` keeps a denominator off zero. -/
theorem mass_nonneg (S : Finset ι) (s w : ι → ℝ) (c : ℝ) (hw : ∀ j ∈ S, 0 ≤ w j) : 0 ≤ mass S s w c :=
  Finset.sum_nonneg fun j hj => mul_nonneg (Real.exp_pos _).le (hw j hj)

end OnlineSoftmax

end
-- ==== Proof.KState.lean ====
import proofs.«132113_j39393440039434_1_alg».proof.Proof.Gen.KernelIdeal.Skeleton
import proofs.«132113_j39393440039434_1_alg».proof.Proof.LibOnlineSoftmax
import Idealize.ShloMosaic.Lib.ValueIdx

/-!
The attention body's three carried quantities as pure functions of one grid point's blocks.

At the point (query block, key block `b`) the body reads the query block `q`, the key block `k`, the value
block `v`, the block `cnt` of multiplicities and the carried running maximum `m`, weight sum `l` and value
accumulator `acc` (reset to `-∞`, `0`, `0` at the first key block), and leaves their updates; at the last key
block it writes the output block from the final accumulator and weight sum.  `Inv` says what the three carried
quantities are, row by row, after the key blocks before the `b`-th.
-/

noncomputable section

namespace Cert.KernelIdeal.KState

open Idealize.ShloMosaic Idealize.ShloMosaic.ValueIdx OnlineSoftmax Cert.KernelIdeal Cert.KernelIdeal.Gen

/-- A block of the queries, keys or values. -/
abbrev VQ : Type := Vec Ideal S1024x256 .bf16
/-- A block of the multiplicities. -/
abbrev VC : Type := Vec Ideal S1024x1024 .f32
/-- A column carried per row. -/
abbrev V1 : Type := Vec Ideal S1024x1 .f32
/-- The value accumulator, or the output block. -/
abbrev VA : Type := Vec Ideal S1024x256 .f32

/-- The running maximum after the block. -/
def mNext (q k : VQ) (m : V1) : V1 := k1_pay2 (k1_pay9 q k m)
/-- The weight sum after the block. -/
def lNext (q k : VQ) (cnt : VC) (m l : V1) : V1 := k1_pay12 q k cnt m m l
/-- The value accumulator after the block. -/
def accNext (q k v : VQ) (cnt : VC) (m : V1) (acc : VA) : VA :=
  k1_pay1 (k1_pay7 v) (k1_pay10 q k m m) (k1_pay11 q k cnt m) acc
/-- The output block, from the final accumulator and weight sum. -/
def outOf (acc : VA) (l : V1) : VA := k1_pay3 acc l
/-- The three quantities as reset at the first key block. -/
def m0 : V1 := k1_pay4 (F := Ideal)
def l0 : V1 := k1_pay5 (F := Ideal)
def acc0 : VA := k1_pay6 (F := Ideal)

/-- What the carried quantities hold after the key blocks before the `b`-th: for row `r` with real scores
    `s r` and weights `w r` over the keys `(block, position)` and real values `vv`, the running maximum, the mass
    and the value masses of the keys seen. -/
structure Inv (s w : Fin 1024 → Fin 8 × Fin 1024 → ℝ) (vv : Fin 8 × Fin 1024 → Fin 256 → ℝ) (b : ℕ)
    (m l : V1) (acc : VA) : Prop where
  hm : ∀ r : Fin 1024, m (ix2 r 0) = rmax (seen b) (s r)
  hl : ∀ r : Fin 1024, l (ix2 r 0) = ((mass (seen b) (s r) (w r) (top (seen b) (s r)) : ℝ) : EReal)
  hacc : ∀ (r : Fin 1024) (c : Fin 256), acc (ix2 r c)
    = ((mass (seen b) (s r) (fun j => w r j * vv j c) (top (seen b) (s r)) : ℝ) : EReal)

end Cert.KernelIdeal.KState

end
-- ==== Proof.Consts.lean ====
import Idealize.ShloMosaic.PureOps.Ideal

/-!
The float constants the two programs spell, as the extended reals their patterns denote.
-/

noncomputable section

namespace Cert.Consts

open Idealize.ShloMosaic

/-- `256.0`, the head dimension under the reference's square root. -/
theorem ofBits_256 : Ideal.ofBits .f32 0x43800000#32 = ((256 : ℝ) : EReal) := by
  simp [Ideal.ofBits, Ideal.ieee, -EReal.coe_mul]; norm_num

/-- `1.0`. -/
theorem ofBits_one : Ideal.ofBits .f32 0x3F800000#32 = ((1 : ℝ) : EReal) := by
  simp [Ideal.ofBits, Ideal.ieee, -EReal.coe_mul]; norm_num

/-- `0.0625`, the kernel's folded score scale: exactly `1/16`. -/
theorem ofBits_sixteenth : Ideal.ofBits .f32 0x3D800000#32 = ((1 / 16 : ℝ) : EReal) := by
  simp [Ideal.ofBits, Ideal.ieee, -EReal.coe_mul]; norm_num

/-- The real the pattern of the denominators' guard `1e-9` denotes: a positive dyadic rational. -/
def epsR : ℝ := 9007199 / 2 ^ 53

theorem epsR_pos : 0 < epsR := by unfold epsR; positivity

theorem ofBits_eps : Ideal.ofBits .f32 0x3089705F#32 = ((epsR : ℝ) : EReal) := by
  unfold epsR
  simp [Ideal.ofBits, Ideal.ieee, -EReal.coe_mul]; norm_num

/-- The pattern of `-∞`. -/
theorem ofBits_neg_inf : Ideal.ofBits .f32 0xFF800000#32 = ⊥ := by
  simp [Ideal.ofBits, Ideal.ieee]

/-- The pattern of `+∞`. -/
theorem ofBits_pos_inf : Ideal.ofBits .f32 0x7F800000#32 = ⊤ := by
  simp [Ideal.ofBits, Ideal.ieee]

/-- The reference's scale `1 / sqrt 256` is the kernel's `1/16`. -/
theorem scale_eq : Ideal.div ((1 : ℝ) : EReal) (Ideal.sqrt ((256 : ℝ) : EReal)) = ((1 / 16 : ℝ) : EReal) := by
  have h16 : Real.sqrt 256 = 16 := by
    rw [show (256 : ℝ) = 16 ^ 2 by norm_num]
    exact Real.sqrt_sq (by norm_num)
  rw [Ideal.sqrt_coe, if_neg (by norm_num), h16, Ideal.div_coe (by norm_num), ← EReal.coe_mul]
  norm_num

end Cert.Consts

end
-- ==== Proof.Spec.lean ====
import Idealize.ShloMosaic.PureOps.Ideal
import Idealize.ShloMosaic.Lib.ValueIdx
import proofs.«132113_j39393440039434_1_alg».proof.Proof.LibOnlineSoftmax
import proofs.«132113_j39393440039434_1_alg».proof.Proof.Consts

/-!
What both programs compute, as one function of real argument arrays.

With `f` the features, `cn` the nonnegative multiplicities, `wq wk wv` the three projections: the queries,
keys and values are the rows of `f` against the columns of a projection; the score of query `i` against key
`j` is their inner product over the 256 projected features, times `1/16`; row `i`'s weights are
`exp (score - row maximum) * cn i j`; the result is the weighted sum of the values divided by the sum of the
weights plus the guard `ε`, passed through `x ↦ x` above zero and `x ↦ exp x - 1` elsewhere.
-/

noncomputable section

namespace Cert.Spec

open Idealize.ShloMosaic Idealize.ShloMosaic.ValueIdx OnlineSoftmax

abbrev SF : Shape := ⟨2, ![8192, 512]⟩
abbrev SC : Shape := ⟨2, ![8192, 8192]⟩
abbrev SW : Shape := ⟨2, ![512, 256]⟩
abbrev SO : Shape := ⟨2, ![8192, 256]⟩

/-- Row `i` of the features against column `d` of a projection. -/
def proj (f : SF.Idx → ℝ) (w : SW.Idx → ℝ) (i : Fin 8192) (d : Fin 256) : ℝ :=
  ∑ a : Fin 512, f (ix2 i a) * w (ix2 a d)

/-- The score of query `i` against key `j`. -/
def score (f : SF.Idx → ℝ) (wq wk : SW.Idx → ℝ) (i j : Fin 8192) : ℝ :=
  (∑ d : Fin 256, proj f wq i d * proj f wk j d) * (1 / 16)

/-- Row `i`'s sum of weights (relative to the row's largest score). -/
def den (f : SF.Idx → ℝ) (cn : SC.Idx → ℝ) (wq wk : SW.Idx → ℝ) (i : Fin 8192) : ℝ :=
  mass Finset.univ (score f wq wk i) (fun j => cn (ix2 i j)) (top Finset.univ (score f wq wk i))

/-- Row `i`'s weighted sum of the values' column `c`. -/
def num (f : SF.Idx → ℝ) (cn : SC.Idx → ℝ) (wq wk wv : SW.Idx → ℝ) (i : Fin 8192) (c : Fin 256) : ℝ :=
  mass Finset.univ (score f wq wk i) (fun j => cn (ix2 i j) * proj f wv j c)
    (top Finset.univ (score f wq wk i))

/-- The normalised attention output before the activation. -/
def ratio (f : SF.Idx → ℝ) (cn : SC.Idx → ℝ) (wq wk wv : SW.Idx → ℝ) (i : Fin 8192) (c : Fin 256) : EReal :=
  Ideal.div ((num f cn wq wk wv i c : ℝ) : EReal) (((den f cn wq wk i : ℝ) : EReal) + ((Consts.epsR : ℝ) : EReal))

/-- The activation: the identity above zero, `exp x - 1` elsewhere. -/
def elu (x : EReal) : EReal := if 0 < x then x else Ideal.exp x - 1

/-- The result array. -/
def G (f : SF.Idx → ℝ) (cn : SC.Idx → ℝ) (wq wk wv : SW.Idx → ℝ) : SO.Idx → EReal :=
  fun o => elu (ratio f cn wq wk wv (o 0) (o 1))

theorem G_apply (f : SF.Idx → ℝ) (cn : SC.Idx → ℝ) (wq wk wv : SW.Idx → ℝ) (i : Fin 8192) (c : Fin 256) :
    G f cn wq wk wv (ix2 i c) = elu (ratio f cn wq wk wv i c) := rfl

/-- With nonnegative multiplicities the guarded denominator is positive. -/
theorem den_pos (f : SF.Idx → ℝ) (cn : SC.Idx → ℝ) (wq wk : SW.Idx → ℝ) (hcn : ∀ x, 0 ≤ cn x) (i : Fin 8192) :
    den f cn wq wk i + Consts.epsR ≠ 0 :=
  ne_of_gt (add_pos_of_nonneg_of_pos (mass_nonneg _ _ _ _ fun j _ => hcn _) Consts.epsR_pos)

end Cert.Spec

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.KPayIdx.lean ====
import proofs.«132113_j39393440039434_1_alg».proof.Proof.Gen.KernelIdeal.Skeleton
import proofs.«132113_j39393440039434_1_alg».proof.Proof.LibKeepdims
import proofs.«132113_j39393440039434_1_alg».proof.Proof.LibDotIdx
import Idealize.ShloMosaic.Lib.ValueIdx
import Idealize.ShloMosaic.Lib.Pipeline.Value
import Idealize.ShloMosaic.PureOps.Ideal.Laws

/-!
The attention body's values read at an index.

Each value the body stores or carries is read at explicit coordinates (a row `r`, a key position `j`, a
feature `d` or an output column `c`) as a formula in the extended reals over the blocks it was computed from:
the scores are the row-against-row products times the scale word; the new running maximum is the larger of the
old one and the row's largest score; the rescaling factor and the weights are exponentials relative to it; the
weight sum and the value accumulator are rescaled and extended by the block's sums; the output is the guarded
quotient passed through the two-branch activation.
-/

noncomputable section

namespace Cert.KernelIdeal.KStep

open Idealize.ShloMosaic Idealize.ShloMosaic.ValueIdx Cert.KernelIdeal Cert.KernelIdeal.Gen Cert.SupCon.Ker

/-! ## Reductions along the rows of a matrix -/

/-- The largest entry of each row, folded from minus infinity: a supremum over the columns. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src _ h hφ hacc (ix1 i)).trans ?_
  rw [Ideal.ofBits_def, ofBits_negInf, fold_max_bot]
  exact congrArg (Finset.sup Finset.univ) (funext fun k => congrArg src (lift_rows h i k))

/-- The sum of each row: a sum over the columns. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src _ h hφ hacc (ix1 i)).trans ?_
  exact Finset.sum_congr rfl fun k _ => congrArg src (lift_rows h i k)

/-- An exponential of a vector reads the exponential of the entry. -/
theorem exp_apply {s : Shape} {φ : FTy} (x : FVec Ideal s φ) (i : s.Idx) : exp x i = Ideal.exp (x i) := rfl

/-! ## The identities -/

theorem pay2_eq (x : FVec Ideal S1024x1 .f32) : k1_pay2 x = x := by
  unfold k1_pay2
  exact shapeCast_self _ _

theorem pay7_eq (x : Vec Ideal S1024x256 .bf16) : k1_pay7 x = x := by
  unfold k1_pay7
  exact shapeCast_self _ _

/-! ## The reset values -/

theorem pay4_apply (i : S1024x1.Idx) : k1_pay4 (F := Ideal) i = Ideal.ofBits .f32 0xFF800000#32 := by
  unfold k1_pay4
  rw [shapeCast_self]
  rfl

theorem pay5_apply (i : S1024x1.Idx) : k1_pay5 (F := Ideal) i = Ideal.ofBits .f32 0x00000000#32 := by
  unfold k1_pay5
  rw [shapeCast_self]
  rfl

theorem pay6_apply (i : S1024x256.Idx) : k1_pay6 (F := Ideal) i = Ideal.ofBits .f32 0x00000000#32 := by
  unfold k1_pay6
  rw [shapeCast_self]
  rfl

/-! ## One key block -/

/-- The score of query row `r` against key row `j`: the product of the two rows, times the scale word. -/
theorem pay8_apply (q k : Vec Ideal S1024x256 .bf16) (r j : Fin 1024) :
    k1_pay8 q k (ix2 r j)
      = (∑ d : Fin 256, q (ix2 r d) * k (ix2 j d)) * Ideal.ofBits .f32 0x3D800000#32 := by
  unfold k1_pay8
  rw [mulf_apply, broadcast_apply, shapeCast_self, shapeCast_self]
  exact congrArg (· * Ideal.ofBits .f32 0x3D800000#32) (DotIdx.matmul_rows_zero_apply _ none q k r j)

/-- The new running maximum of row `r`: the larger of the old one and the row's largest score. -/
theorem pay9_apply (q k : Vec Ideal S1024x256 .bf16) (m : Vec Ideal S1024x1 .f32) (r : Fin 1024) :
    k1_pay9 q k m (ix2 r 0)
      = max (m (ix2 r 0)) (Finset.univ.sup fun j : Fin 1024 => k1_pay8 q k (ix2 r j)) := by
  unfold k1_pay9
  rw [maximumf_apply]
  refine congrArg (max (m (ix2 r 0))) ?_
  refine (shapeCast_a_a1_apply _ _ r 0).trans ?_
  exact rowMax_apply _ _ _ _ r

/-- The rescaling factor: the exponential of the old level relative to the new running maximum. -/
theorem pay10_apply (q k : Vec Ideal S1024x256 .bf16) (m m' : Vec Ideal S1024x1 .f32) (i : S1024x1.Idx) :
    k1_pay10 q k m m' i = Ideal.exp (m' i - k1_pay9 q k m i) := rfl

/-- The weight of key `j` in row `r`: the exponential of its score relative to the new running maximum, times
    its multiplicity. -/
theorem pay11_apply (q k : Vec Ideal S1024x256 .bf16) (cnt : Vec Ideal S1024x1024 .f32)
    (m : Vec Ideal S1024x1 .f32) (r j : Fin 1024) :
    k1_pay11 q k cnt m (ix2 r j)
      = Ideal.exp (k1_pay8 q k (ix2 r j) - k1_pay9 q k m (ix2 r 0)) * cnt (ix2 r j) := by
  unfold k1_pay11
  rw [mulf_apply, exp_apply, subf_apply, broadcastTo_a1_ab_apply]

/-- The new weight sum of row `r`: the old one rescaled, plus the block's weights. -/
theorem pay12_apply (q k : Vec Ideal S1024x256 .bf16) (cnt : Vec Ideal S1024x1024 .f32)
    (m m' l : Vec Ideal S1024x1 .f32) (r : Fin 1024) :
    k1_pay12 q k cnt m m' l (ix2 r 0)
      = k1_pay10 q k m m' (ix2 r 0) * l (ix2 r 0) + ∑ j : Fin 1024, k1_pay11 q k cnt m (ix2 r j) := by
  unfold k1_pay12
  rw [shapeCast_self, addf_apply, mulf_apply]
  refine congrArg (k1_pay10 q k m m' (ix2 r 0) * l (ix2 r 0) + ·) ?_
  refine (shapeCast_a_a1_apply _ _ r 0).trans ?_
  exact rowSum_apply _ _ _ _ r

/-- The new value accumulator at `(r, c)`: the old one rescaled, plus the block's weights against the values'
    column `c`. -/
theorem pay1_apply (v : FVec Ideal S1024x256 .bf16) (f : FVec Ideal S1024x1 .f32) (p : FVec Ideal S1024x1024 .f32)
    (acc : Vec Ideal S1024x256 .f32) (r : Fin 1024) (c : Fin 256) :
    k1_pay1 v f p acc (ix2 r c)
      = f (ix2 r 0) * acc (ix2 r c) + ∑ j : Fin 1024, p (ix2 r j) * v (ix2 j c) := by
  unfold k1_pay1
  rw [shapeCast_self, addf_apply, mulf_apply, broadcastTo_a1_ab_apply]
  exact congrArg (f (ix2 r 0) * acc (ix2 r c) + ·) (DotIdx.matmul_plain_zero_apply _ none _ v r c)

/-! ## The output block -/

/-- The output at `(r, c)`: the accumulator over the guarded weight sum, kept above zero and replaced by
    its exponential less one elsewhere. -/
theorem pay3_apply (acc : Vec Ideal S1024x256 .f32) (l : Vec Ideal S1024x1 .f32) (r : Fin 1024) (c : Fin 256) :
    k1_pay3 acc l (ix2 r c)
      = Scalar.select
          (Ideal.cmp .ogt (Ideal.div (acc (ix2 r c)) (l (ix2 r 0) + Ideal.ofBits .f32 0x3089705F#32))
            (Ideal.ofBits .f32 0x00000000#32))
          (Ideal.div (acc (ix2 r c)) (l (ix2 r 0) + Ideal.ofBits .f32 0x3089705F#32))
          (Ideal.exp (Ideal.div (acc (ix2 r c)) (l (ix2 r 0) + Ideal.ofBits .f32 0x3089705F#32))
            - Ideal.ofBits .f32 0x3F800000#32) := by
  unfold k1_pay3
  rw [select_apply, cmpf_apply, subf_apply, exp_apply, divf_apply, broadcastTo_a1_ab_apply]
  rfl

end Cert.KernelIdeal.KStep

end
-- ==== Proof.KStep.lean ====
import proofs.«132113_j39393440039434_1_alg».proof.Proof.KState
import proofs.«132113_j39393440039434_1_alg».proof.Proof.Consts
import proofs.«132113_j39393440039434_1_alg».proof.Proof.Spec
import proofs.«132113_j39393440039434_1_alg».proof.Proof.KPayIdx

/-!
The attention body's carried quantities, block by block: the reset values satisfy the invariant for no key
block seen, one key block's update carries the invariant from the blocks before it to the blocks up to it, and
after the last block the output block is the activation of the quotient of the value mass by the guarded mass.
-/

noncomputable section

namespace Cert.KernelIdeal.KStep

open Idealize.ShloMosaic Idealize.ShloMosaic.ValueIdx OnlineSoftmax Cert.KernelIdeal Cert.KernelIdeal.Gen
  Cert.KernelIdeal.KState

theorem inv_init (s w : Fin 1024 → Fin 8 × Fin 1024 → ℝ) (vv : Fin 8 × Fin 1024 → Fin 256 → ℝ) :
    Inv s w vv 0 m0 l0 acc0 := by
  refine ⟨fun r => ?_, fun r => ?_, fun r c => ?_⟩
  · show k1_pay4 (F := Ideal) (ix2 r 0) = _
    rw [pay4_apply, Cert.Consts.ofBits_neg_inf, seen_zero, rmax_empty]
  · show k1_pay5 (F := Ideal) (ix2 r 0) = _
    rw [pay5_apply, Ideal.ofBits_zero_f32, seen_zero, mass_empty, EReal.coe_zero]
  · show k1_pay6 (F := Ideal) (ix2 r c) = _
    rw [pay6_apply, Ideal.ofBits_zero_f32, seen_zero, mass_empty, EReal.coe_zero]

/-- With real queries and keys the block's scores are the coerced real scores. -/
theorem score_coe (s : Fin 1024 → Fin 8 × Fin 1024 → ℝ) (b : Fin 8) (q k : VQ) (qr kr : Fin 1024 → Fin 256 → ℝ)
    (hq : ∀ (r : Fin 1024) (d : Fin 256), q (ix2 r d) = ((qr r d : ℝ) : EReal))
    (hk : ∀ (j : Fin 1024) (d : Fin 256), k (ix2 j d) = ((kr j d : ℝ) : EReal))
    (hs : ∀ (r j : Fin 1024), s r (b, j) = (∑ d : Fin 256, qr r d * kr j d) * (1 / 16))
    (r j : Fin 1024) : k1_pay8 q k (ix2 r j) = ((s r (b, j) : ℝ) : EReal) := by
  have h1 : (∑ d : Fin 256, q (ix2 r d) * k (ix2 j d)) = ((∑ d : Fin 256, qr r d * kr j d : ℝ) : EReal) := by
    rw [← sum_mul_coe Finset.univ (qr r) (kr j)]
    exact Finset.sum_congr rfl fun d _ => by rw [hq r d, hk j d]
  rw [pay8_apply, h1, Cert.Consts.ofBits_sixteenth, ← EReal.coe_mul, hs r j]

theorem inv_step (s w : Fin 1024 → Fin 8 × Fin 1024 → ℝ) (vv : Fin 8 × Fin 1024 → Fin 256 → ℝ) (b : Fin 8)
    (q k v : VQ) (cnt : VC) (m l : V1) (acc : VA) (qr kr : Fin 1024 → Fin 256 → ℝ)
    (hq : ∀ (r : Fin 1024) (d : Fin 256), q (ix2 r d) = ((qr r d : ℝ) : EReal))
    (hk : ∀ (j : Fin 1024) (d : Fin 256), k (ix2 j d) = ((kr j d : ℝ) : EReal))
    (hs : ∀ (r j : Fin 1024), s r (b, j) = (∑ d : Fin 256, qr r d * kr j d) * (1 / 16))
    (hcnt : ∀ (r j : Fin 1024), cnt (ix2 r j) = ((w r (b, j) : ℝ) : EReal))
    (hv : ∀ (j : Fin 1024) (c : Fin 256), v (ix2 j c) = ((vv (b, j) c : ℝ) : EReal))
    (h : Inv s w vv b.val m l acc) :
    Inv s w vv (b.val + 1) (mNext q k m) (lNext q k cnt m l) (accNext q k v cnt m acc) := by
  have hsc : ∀ r j : Fin 1024, k1_pay8 q k (ix2 r j) = ((s r (b, j) : ℝ) : EReal) :=
    score_coe s b q k qr kr hq hk hs
  -- the new running maximum of a row: the old one against the block's
  have hmx : ∀ r : Fin 1024, k1_pay9 q k m (ix2 r 0)
      = max (rmax (seen b.val) (s r)) (rmax (blk b) (s r)) := by
    intro r
    rw [pay9_apply, h.hm r, rmax_blk]
    exact congrArg (max (rmax (seen b.val) (s r)))
      (congrArg (Finset.sup Finset.univ) (funext fun j => hsc r j))
  -- a weight of the block
  have hwt : ∀ r j : Fin 1024, k1_pay11 q k cnt m (ix2 r j)
      = Ideal.exp (((s r (b, j) : ℝ) : EReal) - max (rmax (seen b.val) (s r)) (rmax (blk b) (s r)))
          * ((w r (b, j) : ℝ) : EReal) := by
    intro r j
    rw [pay11_apply, hsc r j, hmx r, hcnt r j]
  have hT : (blk (n := 1024) b).Nonempty := blk_nonempty b (by norm_num)
  refine ⟨fun r => ?_, fun r => ?_, fun r c => ?_⟩
  · show k1_pay2 (k1_pay9 q k m) (ix2 r 0) = _
    rw [pay2_eq, hmx r, rmax_union, seen_succ]
  · show k1_pay12 q k cnt m m l (ix2 r 0) = _
    rw [pay12_apply, pay10_apply, hmx r, h.hm r, h.hl r, seen_succ]
    refine Eq.trans ?_ (step (seen b.val) (blk b) (seen_disjoint b) hT (s r) (w r))
    refine congrArg (Ideal.exp (rmax (seen b.val) (s r) - max (rmax (seen b.val) (s r)) (rmax (blk b) (s r)))
      * ((mass (seen b.val) (s r) (w r) (top (seen b.val) (s r)) : ℝ) : EReal) + ·) ?_
    rw [sum_blk]
    exact Finset.sum_congr rfl fun j _ => hwt r j
  · show k1_pay1 (k1_pay7 v) (k1_pay10 q k m m) (k1_pay11 q k cnt m) acc (ix2 r c) = _
    rw [pay1_apply, pay10_apply, hmx r, h.hm r, h.hacc r c, pay7_eq, seen_succ]
    refine Eq.trans ?_ (step_val (seen b.val) (blk b) (seen_disjoint b) hT (s r) (w r) (fun j => vv j c))
    refine congrArg (Ideal.exp (rmax (seen b.val) (s r) - max (rmax (seen b.val) (s r)) (rmax (blk b) (s r)))
      * ((mass (seen b.val) (s r) (fun j => w r j * vv j c) (top (seen b.val) (s r)) : ℝ) : EReal) + ·) ?_
    rw [sum_blk]
    exact Finset.sum_congr rfl fun j _ => by rw [hwt r j, hv j c]

theorem out_final (s w : Fin 1024 → Fin 8 × Fin 1024 → ℝ) (vv : Fin 8 × Fin 1024 → Fin 256 → ℝ) (m l : V1) (acc : VA)
    (h : Inv s w vv 8 m l acc) (r : Fin 1024) (c : Fin 256) :
    outOf acc l (ix2 r c) = Cert.Spec.elu (Ideal.div
      ((mass Finset.univ (s r) (fun j => w r j * vv j c) (top Finset.univ (s r)) : ℝ) : EReal)
      (((mass Finset.univ (s r) (w r) (top Finset.univ (s r)) : ℝ) : EReal) + ((Cert.Consts.epsR : ℝ) : EReal))) := by
  have hl := h.hl r
  have ha := h.hacc r c
  rw [seen_all] at hl ha
  show k1_pay3 acc l (ix2 r c) = _
  rw [pay3_apply, ha, hl, Cert.Consts.ofBits_eps, Ideal.ofBits_zero_f32, Cert.Consts.ofBits_one, EReal.coe_one]
  generalize Ideal.div
    ((mass Finset.univ (s r) (fun j => w r j * vv j c) (top Finset.univ (s r)) : ℝ) : EReal)
    (((mass Finset.univ (s r) (w r) (top Finset.univ (s r)) : ℝ) : EReal) + ((Cert.Consts.epsR : ℝ) : EReal)) = x
  unfold Cert.Spec.elu
  by_cases hx : 0 < x
  · have hc : Ideal.cmp .ogt x 0 = 1#1 := by
      show BitVec.ofBool (decide (0 < x)) = 1#1
      rw [decide_eq_true hx]; rfl
    rw [if_pos hx, hc, select_one]
  · have hc : Ideal.cmp .ogt x 0 = 0#1 := by
      show BitVec.ofBool (decide (0 < x)) = 0#1
      rw [decide_eq_false hx]; rfl
    rw [if_neg hx, hc, select_zero]

end Cert.KernelIdeal.KStep

end
-- ==== Proof.KBlk.lean ====
import proofs.«132113_j39393440039434_1_alg».proof.Proof.I_R0
import proofs.«132113_j39393440039434_1_alg».proof.Proof.I_R1Shared
import Idealize.ShloMosaic.Lib.ValueIdx
import Idealize.ShloMosaic.Lib.Pipeline.Value

/-!
Blocks and arrays: where each window's block sits in its array.

The projection region runs over 8 points; at point `t` the feature window and the three output windows hold
rows `1024 t … 1024 t + 1023` of their arrays and the weights window holds the whole array.  The attention
region runs over 64 points, point `t` being the query block `t / 8` against the key block `t % 8`: the query
and output windows hold the rows of block `t / 8`, the key and value windows those of block `t % 8`, and the
multiplicities window rows of block `t / 8` against columns of block `t % 8`.  From these: each input block read at
an index as its array at the shifted index, a function of an output array read through a point's block, and
the points whose blocks cover an output array.
-/

noncomputable section

namespace Cert.KernelIdeal.FrVal

open Cert.KernelIdeal Cert.KernelIdeal.Gen Cert.KernelIdeal.Fr Idealize.ShloMosaic Idealize.ShloMosaic.ValueIdx
open Idealize.ShloMosaic.TcCoe

/-! ## The index maps over the two grids -/

/-- The projection region's block indices: the point itself along the rows, except for the weights. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The attention region's block indices: the query block `t / 8`, the key block `t % 8`. -/
theorem idx1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = t.val % 8
    ∧ win1_4.index t (0 : Fin 2) = t.val / 8 ∧ win1_4.index t (1 : Fin 2) = 0 :=
  (by decide +kernel : ∀ t : Fin grid1.N, _)

theorem lt0 (t : Fin cfg0.N) : t.val < 8 := by have := t.isLt; have : cfg0.N = 8 := N_0; omega
theorem lt1 (t : Fin cfg1.N) : t.val < 64 := by have := t.isLt; have : cfg1.N = 64 := N_1; omega

section Blocks

variable (V : (c : Dev nD) → (b : Ref sig .tc) → Buf (Elt Ideal) ((c : Thread nD τ).loc b))

/-! ## The input blocks read at an index -/

theorem iblk0_feat (c : Dev nD) (t : Fin cfg0.N) (p : Fin 1024) (a : Fin 512) :
    (iblk0 V c 0 t : Vec Ideal S1024x512 .f32) (ix2 p a)
      = (V c main_arg0 : S8192x512.Idx → EReal)
          (ix2 (⟨t.val * 1024 + p.val, by have := lt0 t; omega⟩ : Fin 8192) a) := by
  obtain ⟨e0, e1, -⟩ := idx0 t
  unfold iblk0
  rw [View.read_apply]
  show V c main_arg0 _ = V c main_arg0 _
  refine congrArg (V c main_arg0) (funext fun ax => Fin.ext ?_)
  match ax with
  | ⟨0, _⟩ => show win0_0.index t (0 : Fin 2) * 1024 + 1 * p.val = t.val * 1024 + p.val; rw [e0]; omega
  | ⟨1, _⟩ => show win0_0.index t (1 : Fin 2) * 512 + 1 * a.val = a.val; rw [e1]; omega

theorem iblk0_w (c : Dev nD) (t : Fin cfg0.N) (a : Fin 512) (e : Fin 768) :
    (iblk0 V c 1 t : Vec Ideal S512x768 .f32) (ix2 a e) = (V c main_v0 : S512x768.Idx → EReal) (ix2 a e) := by
  obtain ⟨-, -, e0, e1, -⟩ := idx0 t
  unfold iblk0
  rw [View.read_apply]
  show V c main_v0 _ = V c main_v0 _
  refine congrArg (V c main_v0) (funext fun ax => Fin.ext ?_)
  match ax with
  | ⟨0, _⟩ => show win0_1.index t (0 : Fin 2) * 512 + 1 * a.val = a.val; rw [e0]; omega
  | ⟨1, _⟩ => show win0_1.index t (1 : Fin 2) * 768 + 1 * e.val = e.val; rw [e1]; omega

theorem iblk1_q (c : Dev nD) (t : Fin cfg1.N) (r : Fin 1024) (d : Fin 256) :
    (iblk1 V c 0 t : Vec Ideal S1024x256 .bf16) (ix2 r d)
      = (V c main_v1_0 : S8192x256.Idx → EReal)
          (ix2 (⟨t.val / 8 * 1024 + r.val, by have := lt1 t; omega⟩ : Fin 8192) d) := by
  obtain ⟨e0, e1, -⟩ := idx1 t
  unfold iblk1
  rw [View.read_apply]
  show V c main_v1_0 _ = V c main_v1_0 _
  refine congrArg (V c main_v1_0) (funext fun ax => Fin.ext ?_)
  match ax with
  | ⟨0, _⟩ => show win1_0.index t (0 : Fin 2) * 1024 + 1 * r.val = t.val / 8 * 1024 + r.val; rw [e0]; omega
  | ⟨1, _⟩ => show win1_0.index t (1 : Fin 2) * 256 + 1 * d.val = d.val; rw [e1]; omega

theorem iblk1_k (c : Dev nD) (t : Fin cfg1.N) (j : Fin 1024) (d : Fin 256) :
    (iblk1 V c 1 t : Vec Ideal S1024x256 .bf16) (ix2 j d)
      = (V c main_v1_1 : S8192x256.Idx → EReal)
          (ix2 (⟨t.val % 8 * 1024 + j.val, by omega⟩ : Fin 8192) d) := by
  obtain ⟨-, -, e0, e1, -⟩ := idx1 t
  unfold iblk1
  rw [View.read_apply]
  show V c main_v1_1 _ = V c main_v1_1 _
  refine congrArg (V c main_v1_1) (funext fun ax => Fin.ext ?_)
  match ax with
  | ⟨0, _⟩ => show win1_1.index t (0 : Fin 2) * 1024 + 1 * j.val = t.val % 8 * 1024 + j.val; rw [e0]; omega
  | ⟨1, _⟩ => show win1_1.index t (1 : Fin 2) * 256 + 1 * d.val = d.val; rw [e1]; omega

theorem iblk1_v (c : Dev nD) (t : Fin cfg1.N) (j : Fin 1024) (d : Fin 256) :
    (iblk1 V c 2 t : Vec Ideal S1024x256 .bf16) (ix2 j d)
      = (V c main_v1_2 : S8192x256.Idx → EReal)
          (ix2 (⟨t.val % 8 * 1024 + j.val, by omega⟩ : Fin 8192) d) := by
  obtain ⟨-, -, -, -, e0, e1, -⟩ := idx1 t
  unfold iblk1
  rw [View.read_apply]
  show V c main_v1_2 _ = V c main_v1_2 _
  refine congrArg (V c main_v1_2) (funext fun ax => Fin.ext ?_)
  match ax with
  | ⟨0, _⟩ => show win1_2.index t (0 : Fin 2) * 1024 + 1 * j.val = t.val % 8 * 1024 + j.val; rw [e0]; omega
  | ⟨1, _⟩ => show win1_2.index t (1 : Fin 2) * 256 + 1 * d.val = d.val; rw [e1]; omega

theorem iblk1_cnt (c : Dev nD) (t : Fin cfg1.N) (r j : Fin 1024) :
    (iblk1 V c 3 t : Vec Ideal S1024x1024 .f32) (ix2 r j)
      = (V c main_arg1 : S8192x8192.Idx → EReal)
          (ix2 (⟨t.val / 8 * 1024 + r.val, by have := lt1 t; omega⟩ : Fin 8192)
            (⟨t.val % 8 * 1024 + j.val, by omega⟩ : Fin 8192)) := by
  obtain ⟨-, -, -, -, -, -, e0, e1, -⟩ := idx1 t
  unfold iblk1
  rw [View.read_apply]
  show V c main_arg1 _ = V c main_arg1 _
  refine congrArg (V c main_arg1) (funext fun ax => Fin.ext ?_)
  match ax with
  | ⟨0, _⟩ => show win1_3.index t (0 : Fin 2) * 1024 + 1 * r.val = t.val / 8 * 1024 + r.val; rw [e0]; omega
  | ⟨1, _⟩ => show win1_3.index t (1 : Fin 2) * 1024 + 1 * j.val = t.val % 8 * 1024 + j.val; rw [e1]; omega

end Blocks

/-! ## An output array read through a point's block -/

theorem out_read1 (G : S8192x256.Idx → EReal) (t : Fin cfg1.N) (r : Fin 1024) (cc : Fin 256) :
    ((cfg1.win 4).blk t).view.read (Elt Ideal) G (ix2 r cc)
      = G (ix2 (⟨t.val / 8 * 1024 + r.val, by have := lt1 t; omega⟩ : Fin 8192) cc) := by
  obtain ⟨-, -, -, -, -, -, -, -, e0, e1⟩ := idx1 t
  rw [View.read_apply]
  show G _ = G _
  refine congrArg G (funext fun ax => Fin.ext ?_)
  match ax with
  | ⟨0, _⟩ => show win1_4.index t (0 : Fin 2) * 1024 + 1 * r.val = t.val / 8 * 1024 + r.val; rw [e0]; omega
  | ⟨1, _⟩ => show win1_4.index t (1 : Fin 2) * 256 + 1 * cc.val = cc.val; rw [e1]; omega

theorem read0_2 (G : S8192x256.Idx → EReal) (t : Fin cfg0.N) (p : Fin 1024) (d : Fin 256) :
    ((cfg0.win 2).blk t).view.read (Elt Ideal) G (ix2 p d)
      = G (ix2 (⟨t.val * 1024 + p.val, by have := lt0 t; omega⟩ : Fin 8192) d) := by
  obtain ⟨-, -, -, -, e0, e1, -⟩ := idx0 t
  rw [View.read_apply]
  show G _ = G _
  refine congrArg G (funext fun ax => Fin.ext ?_)
  match ax with
  | ⟨0, _⟩ => show win0_2.index t (0 : Fin 2) * 1024 + 1 * p.val = t.val * 1024 + p.val; rw [e0]; omega
  | ⟨1, _⟩ => show win0_2.index t (1 : Fin 2) * 256 + 1 * d.val = d.val; rw [e1]; omega

theorem read0_3 (G : S8192x256.Idx → EReal) (t : Fin cfg0.N) (p : Fin 1024) (d : Fin 256) :
    ((cfg0.win 3).blk t).view.read (Elt Ideal) G (ix2 p d)
      = G (ix2 (⟨t.val * 1024 + p.val, by have := lt0 t; omega⟩ : Fin 8192) d) := by
  obtain ⟨-, -, -, -, -, -, e0, e1, -⟩ := idx0 t
  rw [View.read_apply]
  show G _ = G _
  refine congrArg G (funext fun ax => Fin.ext ?_)
  match ax with
  | ⟨0, _⟩ => show win0_3.index t (0 : Fin 2) * 1024 + 1 * p.val = t.val * 1024 + p.val; rw [e0]; omega
  | ⟨1, _⟩ => show win0_3.index t (1 : Fin 2) * 256 + 1 * d.val = d.val; rw [e1]; omega

theorem read0_4 (G : S8192x256.Idx → EReal) (t : Fin cfg0.N) (p : Fin 1024) (d : Fin 256) :
    ((cfg0.win 4).blk t).view.read (Elt Ideal) G (ix2 p d)
      = G (ix2 (⟨t.val * 1024 + p.val, by have := lt0 t; omega⟩ : Fin 8192) d) := by
  obtain ⟨-, -, -, -, -, -, -, -, e0, e1⟩ := idx0 t
  rw [View.read_apply]
  show G _ = G _
  refine congrArg G (funext fun ax => Fin.ext ?_)
  match ax with
  | ⟨0, _⟩ => show win0_4.index t (0 : Fin 2) * 1024 + 1 * p.val = t.val * 1024 + p.val; rw [e0]; omega
  | ⟨1, _⟩ => show win0_4.index t (1 : Fin 2) * 256 + 1 * d.val = d.val; rw [e1]; omega

/-! ## The points whose blocks cover an output array -/

/-- Row `i` of the attention output is written back by the last key block's point of query block `i / 1024`. -/
theorem out_cover1 : ∀ i : S8192x256.Idx, ∃ t : Fin cfg1.N,
    (cfg1.win 4).flush t = true ∧ i ∈ ((cfg1.win 4).blk t).view.set := by
  intro i
  have h0 : (i 0).val < 8192 := (i 0).isLt
  have h1 : (i 1).val < 256 := (i 1).isLt
  have hN : cfg1.N = 64 := N_1
  let t : Fin cfg1.N := ⟨(i 0).val / 1024 * 8 + 7, by omega⟩
  have ht : t.val = (i 0).val / 1024 * 8 + 7 := rfl
  obtain ⟨-, -, -, -, -, -, -, -, e0, e1⟩ := idx1 t
  refine ⟨t, (flush1_4 t).mpr (by omega), ?_⟩
  show i ∈ ((View.whole main_v2).slice (win1_4.rect t)).set
  rw [View.set_slice_whole, Rect.mem_set_unit]
  intro a
  match a with
  | ⟨0, _⟩ =>
    show win1_4.index t (0 : Fin 2) * 1024 ≤ (i 0).val ∧ (i 0).val < win1_4.index t (0 : Fin 2) * 1024 + 1024
    rw [e0]; omega
  | ⟨1, _⟩ =>
    show win1_4.index t (1 : Fin 2) * 256 ≤ (i 1).val ∧ (i 1).val < win1_4.index t (1 : Fin 2) * 256 + 256
    rw [e1]; omega

/-- Row `i` of each projection output is written back by point `i / 1024`. -/
theorem cover0_2 : ∀ i : S8192x256.Idx, ∃ t : Fin cfg0.N,
    (cfg0.win 2).flush t = true ∧ i ∈ ((cfg0.win 2).blk t).view.set := by
  intro i
  have h0 : (i 0).val < 8192 := (i 0).isLt
  have h1 : (i 1).val < 256 := (i 1).isLt
  have hN : cfg0.N = 8 := N_0
  let t : Fin cfg0.N := ⟨(i 0).val / 1024, by omega⟩
  have ht : t.val = (i 0).val / 1024 := rfl
  obtain ⟨-, -, -, -, e0, e1, -⟩ := idx0 t
  refine ⟨t, flush0_2 t, ?_⟩
  show i ∈ ((View.whole main_v1_0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e0]; omega
  | ⟨1, _⟩ =>
    show win0_2.index t (1 : Fin 2) * 256 ≤ (i 1).val ∧ (i 1).val < win0_2.index t (1 : Fin 2) * 256 + 256
    rw [e1]; omega

theorem cover0_3 : ∀ i : S8192x256.Idx, ∃ t : Fin cfg0.N,
    (cfg0.win 3).flush t = true ∧ i ∈ ((cfg0.win 3).blk t).view.set := by
  intro i
  have h0 : (i 0).val < 8192 := (i 0).isLt
  have h1 : (i 1).val < 256 := (i 1).isLt
  have hN : cfg0.N = 8 := N_0
  let t : Fin cfg0.N := ⟨(i 0).val / 1024, by omega⟩
  have ht : t.val = (i 0).val / 1024 := rfl
  obtain ⟨-, -, -, -, -, -, e0, e1, -⟩ := idx0 t
  refine ⟨t, flush0_3 t, ?_⟩
  show i ∈ ((View.whole main_v1_1).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 256 ≤ (i 1).val ∧ (i 1).val < win0_3.index t (1 : Fin 2) * 256 + 256
    rw [e1]; omega

theorem cover0_4 : ∀ i : S8192x256.Idx, ∃ t : Fin cfg0.N,
    (cfg0.win 4).flush t = true ∧ i ∈ ((cfg0.win 4).blk t).view.set := by
  intro i
  have h0 : (i 0).val < 8192 := (i 0).isLt
  have h1 : (i 1).val < 256 := (i 1).isLt
  have hN : cfg0.N = 8 := N_0
  let t : Fin cfg0.N := ⟨(i 0).val / 1024, by omega⟩
  have ht : t.val = (i 0).val / 1024 := rfl
  obtain ⟨-, -, -, -, -, -, -, -, e0, e1⟩ := idx0 t
  refine ⟨t, flush0_4 t, ?_⟩
  show i ∈ ((View.whole main_v1_2).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 256 ≤ (i 1).val ∧ (i 1).val < win0_4.index t (1 : Fin 2) * 256 + 256
    rw [e1]; omega

end Cert.KernelIdeal.FrVal

end
-- ==== Proof.LibSoftmaxReindex.lean ====
import proofs.«132113_j39393440039434_1_alg».proof.Proof.LibOnlineSoftmax

/-!
# Reindexing a row along an equivalence

A row of scores and weights indexed by a finite type, read through an equivalence from another finite
type (the keys of a row as pairs of a block and a position inside it, say), has the same mass at every
level and the same largest score: a finite sum and a finite maximum do not depend on how the terms are
named.
-/

noncomputable section

namespace OnlineSoftmax

variable {ι κ : Type*} [Fintype ι] [Fintype κ] [DecidableEq ι] [DecidableEq κ]

/-- The mass over the whole index type is unchanged when the row is read through an equivalence. -/
theorem mass_univ_equiv (e : κ ≃ ι) (s w : ι → ℝ) (c : ℝ) :
    mass Finset.univ (fun k => s (e k)) (fun k => w (e k)) c = mass Finset.univ s w c := by
  unfold mass
  exact Equiv.sum_comp e fun j => Real.exp (s j - c) * w j

/-- The largest score over the whole index type is unchanged when the row is read through an
    equivalence. -/
theorem top_univ_equiv [Nonempty κ] (e : κ ≃ ι) (s : ι → ℝ) :
    top Finset.univ (fun k => s (e k)) = top Finset.univ s := by
  haveI : Nonempty ι := ⟨e (Classical.arbitrary κ)⟩
  unfold top
  rw [dif_pos Finset.univ_nonempty, dif_pos Finset.univ_nonempty]
  apply le_antisymm
  · exact Finset.sup'_le _ _ fun k _ => Finset.le_sup' s (Finset.mem_univ (e k))
  · refine Finset.sup'_le _ _ fun j _ => ?_
    have h := Finset.le_sup' (fun k => s (e k)) (Finset.mem_univ (e.symm j))
    rwa [Equiv.apply_symm_apply] at h

end OnlineSoftmax

end
-- ==== Proof.SpecBlocks.lean ====
import proofs.«132113_j39393440039434_1_alg».proof.Proof.Spec
import proofs.«132113_j39393440039434_1_alg».proof.Proof.LibSoftmaxReindex

/-!
The specification's row read block by block. The 8192 keys of a row are eight blocks of 1024; a key
is named by its block and its position inside it, a query row by its block and position likewise. The
scores, multiplicities and values read through these names have the same masses and the same largest
score as over the plain keys, so the quotient of the value mass by the guarded mass over the pairs is
the specification's entry.
-/

noncomputable section

namespace Cert.Spec

open Idealize.ShloMosaic Idealize.ShloMosaic.ValueIdx OnlineSoftmax

/-- The key at position `j.2` of block `j.1`. -/
def key (j : Fin 8 × Fin 1024) : Fin 8192 := ⟨j.1.val * 1024 + j.2.val, by have := j.1.isLt; have := j.2.isLt; omega⟩

/-- The query row at position `r` of block `qi`. -/
def row (qi : Fin 8) (r : Fin 1024) : Fin 8192 := ⟨qi.val * 1024 + r.val, by have := qi.isLt; have := r.isLt; omega⟩

/-- The scores of the rows of query block `qi` against the keys named by block and position. -/
def sB (f : SF.Idx → ℝ) (wq wk : SW.Idx → ℝ) (qi : Fin 8) : Fin 1024 → Fin 8 × Fin 1024 → ℝ :=
  fun r j => score f wq wk (row qi r) (key j)

/-- The multiplicities of the rows of query block `qi` at the keys named by block and position. -/
def wB (cn : SC.Idx → ℝ) (qi : Fin 8) : Fin 1024 → Fin 8 × Fin 1024 → ℝ := fun r j => cn (ix2 (row qi r) (key j))

/-- The values at the keys named by block and position. -/
def vB (f : SF.Idx → ℝ) (wv : SW.Idx → ℝ) : Fin 8 × Fin 1024 → Fin 256 → ℝ := fun j c => proj f wv (key j) c

/-- Block and position name every key exactly once: the quotient and remainder by 1024. -/
def keyEquiv : Fin 8 × Fin 1024 ≃ Fin 8192 where
  toFun := key
  invFun j := (⟨j.val / 1024, by have := j.isLt; omega⟩, ⟨j.val % 1024, Nat.mod_lt _ (by norm_num)⟩)
  left_inv j := by
    obtain ⟨a, b⟩ := j
    have hb := b.isLt
    exact Prod.ext (Fin.ext (by show (a.val * 1024 + b.val) / 1024 = a.val; omega))
      (Fin.ext (by show (a.val * 1024 + b.val) % 1024 = b.val; omega))
  right_inv j := Fin.ext (by show j.val / 1024 * 1024 + j.val % 1024 = j.val; omega)

/-- The row of query `(qi, r)` over the keys named by block and position gives the specification's entry. -/
theorem G_blocks (f : SF.Idx → ℝ) (cn : SC.Idx → ℝ) (wq wk wv : SW.Idx → ℝ) (qi : Fin 8) (r : Fin 1024) (c : Fin 256) :
    elu (Ideal.div
      ((mass Finset.univ (sB f wq wk qi r) (fun j => wB cn qi r j * vB f wv j c) (top Finset.univ (sB f wq wk qi r)) : ℝ) : EReal)
      (((mass Finset.univ (sB f wq wk qi r) (wB cn qi r) (top Finset.univ (sB f wq wk qi r)) : ℝ) : EReal) + ((Cert.Consts.epsR : ℝ) : EReal)))
    = G f cn wq wk wv (ix2 (row qi r) c) := by
  have ht : top Finset.univ (sB f wq wk qi r) = top Finset.univ (score f wq wk (row qi r)) :=
    top_univ_equiv keyEquiv (score f wq wk (row qi r))
  have hn : ∀ t : ℝ, mass Finset.univ (sB f wq wk qi r) (fun j => wB cn qi r j * vB f wv j c) t
      = mass Finset.univ (score f wq wk (row qi r)) (fun j => cn (ix2 (row qi r) j) * proj f wv j c) t :=
    fun t => mass_univ_equiv keyEquiv (score f wq wk (row qi r)) (fun j => cn (ix2 (row qi r) j) * proj f wv j c) t
  have hd : ∀ t : ℝ, mass Finset.univ (sB f wq wk qi r) (wB cn qi r) t
      = mass Finset.univ (score f wq wk (row qi r)) (fun j => cn (ix2 (row qi r) j)) t :=
    fun t => mass_univ_equiv keyEquiv (score f wq wk (row qi r)) (fun j => cn (ix2 (row qi r) j)) t
  rw [G_apply, ht, hn, hd]
  rfl

end Cert.Spec

end
-- ==== Proof.KR1Val.lean ====
import proofs.«132113_j39393440039434_1_alg».proof.Proof.I_R1Frame
import proofs.«132113_j39393440039434_1_alg».proof.Proof.KPieces
import proofs.«132113_j39393440039434_1_alg».proof.Proof.KState
import proofs.«132113_j39393440039434_1_alg».proof.Proof.KStep
import proofs.«132113_j39393440039434_1_alg».proof.Proof.KBlk
import proofs.«132113_j39393440039434_1_alg».proof.Proof.SpecBlocks

/-!
The attention region's result array. From queries, keys, values and multiplicities that are real at the
region's entry, the three carried quantities after the point (query block, key block) are, row by row,
the running maximum, the mass and the value masses of the key blocks seen so far; at the last key block
the point writes back the activation of the quotient of the value mass by the guarded mass over all the
keys; and the points of the last key block cover the array.
-/

noncomputable section

namespace Cert.KernelIdeal.FrVal

open Cert.KernelIdeal Cert.KernelIdeal.Gen Cert.KernelIdeal.Fr Cert.KernelIdeal.KState Idealize.ShloMosaic
  Idealize.ShloMosaic.ValueIdx Idealize.ShloMosaic.TcCoe OnlineSoftmax

variable (V : (c : Dev nD) → (b : Ref sig .tc) → Buf (Elt Ideal) ((c : Thread nD τ).loc b)) (c : Dev nD)
  (Qr Kr Vr : S8192x256.Idx → ℝ) (cnr : S8192x8192.Idx → ℝ)

/-- The scores of the rows of query block `qi` against the keys named by block and position. -/
def sR (qi : Fin 8) : Fin 1024 → Fin 8 × Fin 1024 → ℝ :=
  fun r j => (∑ d : Fin 256, Qr (ix2 (Cert.Spec.row qi r) d) * Kr (ix2 (Cert.Spec.key j) d)) * (1 / 16)

/-- The multiplicities of the rows of query block `qi` at the keys named by block and position. -/
def wR (qi : Fin 8) : Fin 1024 → Fin 8 × Fin 1024 → ℝ := fun r j => cnr (ix2 (Cert.Spec.row qi r) (Cert.Spec.key j))

/-- The values at the keys named by block and position. -/
def vR : Fin 8 × Fin 1024 → Fin 256 → ℝ := fun j cc => Vr (ix2 (Cert.Spec.key j) cc)

/-- The entry of row `r` of query block `qi`, column `cc`: the activation of the quotient of the value mass by the
    guarded mass over all the keys. -/
def entry (qi : Fin 8) (r : Fin 1024) (cc : Fin 256) : EReal :=
  Cert.Spec.elu (Ideal.div
    ((mass Finset.univ (sR Qr Kr qi r) (fun j => wR cnr qi r j * vR Vr j cc) (top Finset.univ (sR Qr Kr qi r)) : ℝ) : EReal)
    (((mass Finset.univ (sR Qr Kr qi r) (wR cnr qi r) (top Finset.univ (sR Qr Kr qi r)) : ℝ) : EReal) + ((Cert.Consts.epsR : ℝ) : EReal)))

/-- The whole result array: the entry of each row's query block and position. -/
def Gout : S8192x256.Idx → EReal := fun o =>
  entry Qr Kr Vr cnr ⟨(o 0).val / 1024, by have := idx2_lt0 o; omega⟩ ⟨(o 0).val % 1024, Nat.mod_lt _ (by norm_num)⟩ (o 1)

theorem Gout_row (qi : Fin 8) (r : Fin 1024) (cc : Fin 256) :
    Gout Qr Kr Vr cnr (ix2 (Cert.Spec.row qi r) cc) = entry Qr Kr Vr cnr qi r cc := by
  have hr := r.isLt
  have hq : (⟨(Cert.Spec.row qi r).val / 1024, by have := (Cert.Spec.row qi r).isLt; omega⟩ : Fin 8) = qi :=
    Fin.ext (by show (qi.val * 1024 + r.val) / 1024 = qi.val; omega)
  have hp : (⟨(Cert.Spec.row qi r).val % 1024, Nat.mod_lt _ (by norm_num)⟩ : Fin 1024) = r :=
    Fin.ext (by show (qi.val * 1024 + r.val) % 1024 = r.val; omega)
  show entry Qr Kr Vr cnr ⟨(Cert.Spec.row qi r).val / 1024, _⟩ ⟨(Cert.Spec.row qi r).val % 1024, _⟩ cc = _
  rw [hq, hp]

/-! ## One point, over variables -/

/-- The invariant does not depend on how the three quantities are spelt. -/
theorem Inv.congr {s w : Fin 1024 → Fin 8 × Fin 1024 → ℝ} {vv : Fin 8 × Fin 1024 → Fin 256 → ℝ} {b : ℕ}
    {m m' l l' : V1} {acc acc' : VA} (hm : m = m') (hl : l = l') (ha : acc = acc') (h : Inv s w vv b m' l' acc') :
    Inv s w vv b m l acc := by
  subst hm; subst hl; subst ha; exact h

/-- One key block `b` against query block `qi`: from blocks that are the real arrays' blocks, the update carries
    the invariant from the blocks before `b` to the blocks up to it. -/
theorem step_vars (qi b : Fin 8) (q k v : VQ) (cnt : VC) (m l : V1) (acc : VA)
    (hq : ∀ (r : Fin 1024) (d : Fin 256), q (ix2 r d) = ((Qr (ix2 (Cert.Spec.row qi r) d) : ℝ) : EReal))
    (hk : ∀ (j : Fin 1024) (d : Fin 256), k (ix2 j d) = ((Kr (ix2 (Cert.Spec.key (b, j)) d) : ℝ) : EReal))
    (hv : ∀ (j : Fin 1024) (d : Fin 256), v (ix2 j d) = ((Vr (ix2 (Cert.Spec.key (b, j)) d) : ℝ) : EReal))
    (hcnt : ∀ (r j : Fin 1024), cnt (ix2 r j) = ((cnr (ix2 (Cert.Spec.row qi r) (Cert.Spec.key (b, j))) : ℝ) : EReal))
    (h : Inv (sR Qr Kr qi) (wR cnr qi) (vR Vr) b.val m l acc) :
    Inv (sR Qr Kr qi) (wR cnr qi) (vR Vr) (b.val + 1) (mNext q k m) (lNext q k cnt m l) (accNext q k v cnt m acc) :=
  KStep.inv_step (sR Qr Kr qi) (wR cnr qi) (vR Vr) b q k v cnt m l acc
    (fun r d => Qr (ix2 (Cert.Spec.row qi r) d)) (fun j d => Kr (ix2 (Cert.Spec.key (b, j)) d)) hq hk
    (fun _ _ => rfl) hcnt hv h

/-! ## The blocks at a point -/

/-- The query block of a point. -/
def qiOf (t : Fin cfg1.N) : Fin 8 := ⟨t.val / 8, by have := lt1 t; omega⟩
/-- The key block of a point. -/
def bOf (t : Fin cfg1.N) : Fin 8 := ⟨t.val % 8, Nat.mod_lt _ (by norm_num)⟩

/-- A point's four blocks. -/
abbrev bq (t : Fin cfg1.N) : VQ := iblk1 V c 0 t
abbrev bk (t : Fin cfg1.N) : VQ := iblk1 V c 1 t
abbrev bv (t : Fin cfg1.N) : VQ := iblk1 V c 2 t
abbrev bc (t : Fin cfg1.N) : VC := iblk1 V c 3 t

/-- One point's update carries the invariant of its query block from the key blocks before its own to those up
    to it. -/
theorem inv_pt (hQ : (V c main_v1_0 : S8192x256.Idx → EReal) = fun i => ((Qr i : ℝ) : EReal))
    (hK : (V c main_v1_1 : S8192x256.Idx → EReal) = fun i => ((Kr i : ℝ) : EReal))
    (hV : (V c main_v1_2 : S8192x256.Idx → EReal) = fun i => ((Vr i : ℝ) : EReal))
    (hC : (V c main_arg1 : S8192x8192.Idx → EReal) = fun i => ((cnr i : ℝ) : EReal))
    (t : Fin cfg1.N) (m l : V1) (acc : VA)
    (h : Inv (sR Qr Kr (qiOf t)) (wR cnr (qiOf t)) (vR Vr) (t.val % 8) m l acc) :
    Inv (sR Qr Kr (qiOf t)) (wR cnr (qiOf t)) (vR Vr) (t.val % 8 + 1) (mNext (bq V c t) (bk V c t) m)
      (lNext (bq V c t) (bk V c t) (bc V c t) m l) (accNext (bq V c t) (bk V c t) (bv V c t) (bc V c t) m acc) :=
  step_vars Qr Kr Vr cnr (qiOf t) (bOf t) (bq V c t) (bk V c t) (bv V c t) (bc V c t) m l acc
    (fun r d => (iblk1_q V c t r d).trans (congrFun hQ _))
    (fun j d => (iblk1_k V c t j d).trans (congrFun hK _))
    (fun j d => (iblk1_v V c t j d).trans (congrFun hV _))
    (fun r j => (iblk1_cnt V c t r j).trans (congrFun hC _)) h

/-! ## What each control case leaves, in the three quantities' own words -/

theorem ptA_m (t : Fin cfg1.N) (h0 : t.val % 8 = 0) :
    (ptA V c t h0).2.1 = mNext (bq V c t) (bk V c t) m0 := by
  unfold ptA; dsimp only
  exact sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t)
theorem ptA_l (t : Fin cfg1.N) (h0 : t.val % 8 = 0) :
    (ptA V c t h0).2.2.1 = lNext (bq V c t) (bk V c t) (bc V c t) m0 l0 := by
  unfold ptA; dsimp only
  exact sout1_A_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t)
theorem ptA_acc (t : Fin cfg1.N) (h0 : t.val % 8 = 0) :
    (ptA V c t h0).2.2.2 = accNext (bq V c t) (bk V c t) (bv V c t) (bc V c t) m0 acc0 := by
  unfold ptA; dsimp only
  exact sout1_A_2_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t)

theorem ptB_m (t : Fin cfg1.N) (h0 : ¬t.val % 8 = 0) (h1 : ¬t.val % 8 = 7) (prev : Vec Ideal S1024x256 .f32 × Vec Ideal S1024x1 .f32 × Vec Ideal S1024x1 .f32 × Vec Ideal S1024x256 .f32) :
    (ptB V c t h0 h1 prev).2.1 = mNext (bq V c t) (bk V c t) prev.2.1 := by
  unfold ptB; dsimp only
  exact sout1_B_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2
theorem ptB_l (t : Fin cfg1.N) (h0 : ¬t.val % 8 = 0) (h1 : ¬t.val % 8 = 7) (prev : Vec Ideal S1024x256 .f32 × Vec Ideal S1024x1 .f32 × Vec Ideal S1024x1 .f32 × Vec Ideal S1024x256 .f32) :
    (ptB V c t h0 h1 prev).2.2.1 = lNext (bq V c t) (bk V c t) (bc V c t) prev.2.1 prev.2.2.1 := by
  unfold ptB; dsimp only
  exact sout1_B_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2
theorem ptB_acc (t : Fin cfg1.N) (h0 : ¬t.val % 8 = 0) (h1 : ¬t.val % 8 = 7) (prev : Vec Ideal S1024x256 .f32 × Vec Ideal S1024x1 .f32 × Vec Ideal S1024x1 .f32 × Vec Ideal S1024x256 .f32) :
    (ptB V c t h0 h1 prev).2.2.2 = accNext (bq V c t) (bk V c t) (bv V c t) (bc V c t) prev.2.1 prev.2.2.2 := by
  unfold ptB; dsimp only
  exact sout1_B_2_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) prev.2.1 prev.2.2.1 prev.2.2.2

theorem ptC_m (t : Fin cfg1.N) (h0 : ¬t.val % 8 = 0) (h1 : t.val % 8 = 7) (prev : Vec Ideal S1024x256 .f32 × Vec Ideal S1024x1 .f32 × Vec Ideal S1024x1 .f32 × Vec Ideal S1024x256 .f32) :
    (ptC V c t h0 h1 prev).2.1 = mNext (bq V c t) (bk V c t) prev.2.1 := by
  unfold ptC; dsimp only
  exact sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2
theorem ptC_l (t : Fin cfg1.N) (h0 : ¬t.val % 8 = 0) (h1 : t.val % 8 = 7) (prev : Vec Ideal S1024x256 .f32 × Vec Ideal S1024x1 .f32 × Vec Ideal S1024x1 .f32 × Vec Ideal S1024x256 .f32) :
    (ptC V c t h0 h1 prev).2.2.1 = lNext (bq V c t) (bk V c t) (bc V c t) prev.2.1 prev.2.2.1 := by
  unfold ptC; dsimp only
  exact sout1_C_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2
theorem ptC_acc (t : Fin cfg1.N) (h0 : ¬t.val % 8 = 0) (h1 : t.val % 8 = 7) (prev : Vec Ideal S1024x256 .f32 × Vec Ideal S1024x1 .f32 × Vec Ideal S1024x1 .f32 × Vec Ideal S1024x256 .f32) :
    (ptC V c t h0 h1 prev).2.2.2 = accNext (bq V c t) (bk V c t) (bv V c t) (bc V c t) prev.2.1 prev.2.2.2 := by
  unfold ptC; dsimp only
  exact sout1_C_2_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2
/-- The output block of a last-key-block point, from the accumulator and weight sum the same point leaves. -/
theorem ptC_out (t : Fin cfg1.N) (h0 : ¬t.val % 8 = 0) (h1 : t.val % 8 = 7) (prev : Vec Ideal S1024x256 .f32 × Vec Ideal S1024x1 .f32 × Vec Ideal S1024x1 .f32 × Vec Ideal S1024x256 .f32) :
    (ptC V c t h0 h1 prev).1 = outOf (accNext (bq V c t) (bk V c t) (bv V c t) (bc V c t) prev.2.1 prev.2.2.2)
      (lNext (bq V c t) (bk V c t) (bc V c t) prev.2.1 prev.2.2.1) := by
  unfold ptC; dsimp only
  exact out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) prev.2.1 prev.2.2.1 prev.2.2.2

/-! ## The invariant along the grid -/

/-- After the point at position `n` — query block `n / 8`, key block `n % 8` — the three carried quantities are the
    running maximum, the mass and the value masses of key blocks `0 … n % 8` for the rows of query block `n / 8`. -/
theorem inv_at (hQ : (V c main_v1_0 : S8192x256.Idx → EReal) = fun i => ((Qr i : ℝ) : EReal))
    (hK : (V c main_v1_1 : S8192x256.Idx → EReal) = fun i => ((Kr i : ℝ) : EReal))
    (hV : (V c main_v1_2 : S8192x256.Idx → EReal) = fun i => ((Vr i : ℝ) : EReal))
    (hC : (V c main_arg1 : S8192x8192.Idx → EReal) = fun i => ((cnr i : ℝ) : EReal)) :
    ∀ (n : ℕ) (hn : n < cfg1.N),
      Inv (sR Qr Kr (qiOf ⟨n, hn⟩)) (wR cnr (qiOf ⟨n, hn⟩)) (vR Vr) (n % 8 + 1)
        (outsAt1 V c n hn).2.1 (outsAt1 V c n hn).2.2.1 (outsAt1 V c n hn).2.2.2 := by
  intro n
  induction n with
  | zero =>
    intro hn
    have h0 : (⟨0, hn⟩ : Fin cfg1.N).val % 8 = 0 := rfl
    rw [outsAt1_A V c ⟨0, hn⟩ h0]
    exact Inv.congr (ptA_m V c ⟨0, hn⟩ h0) (ptA_l V c ⟨0, hn⟩ h0) (ptA_acc V c ⟨0, hn⟩ h0)
      (inv_pt V c Qr Kr Vr cnr hQ hK hV hC ⟨0, hn⟩ m0 l0 acc0 (KStep.inv_init _ _ _))
  | succ k ih =>
    intro hn
    have hk : k < cfg1.N := Nat.lt_of_succ_lt hn
    by_cases h0 : (k + 1) % 8 = 0
    · rw [outsAt1_A V c ⟨k + 1, hn⟩ h0]
      have hI := inv_pt V c Qr Kr Vr cnr hQ hK hV hC ⟨k + 1, hn⟩ m0 l0 acc0
        (by show Inv _ _ _ ((k + 1) % 8) m0 l0 acc0; rw [h0]; exact KStep.inv_init _ _ _)
      exact Inv.congr (ptA_m V c ⟨k + 1, hn⟩ h0) (ptA_l V c ⟨k + 1, hn⟩ h0) (ptA_acc V c ⟨k + 1, hn⟩ h0) hI
    · have hqi : qiOf ⟨k, hk⟩ = qiOf ⟨k + 1, hn⟩ := Fin.ext (by show k / 8 = (k + 1) / 8; omega)
      have hlev : k % 8 + 1 = (k + 1) % 8 := by omega
      have ihk := ih hk
      rw [hqi, hlev] at ihk
      have hI := inv_pt V c Qr Kr Vr cnr hQ hK hV hC ⟨k + 1, hn⟩ _ _ _ ihk
      by_cases h1 : (k + 1) % 8 = 7
      · rw [outsAt1_C V c ⟨k + 1, hn⟩ h0 h1]
        exact Inv.congr (ptC_m V c ⟨k + 1, hn⟩ h0 h1 (outsAt1 V c k hk)) (ptC_l V c ⟨k + 1, hn⟩ h0 h1 (outsAt1 V c k hk))
          (ptC_acc V c ⟨k + 1, hn⟩ h0 h1 (outsAt1 V c k hk)) hI
      · rw [outsAt1_B V c ⟨k + 1, hn⟩ h0 h1]
        exact Inv.congr (ptB_m V c ⟨k + 1, hn⟩ h0 h1 (outsAt1 V c k hk)) (ptB_l V c ⟨k + 1, hn⟩ h0 h1 (outsAt1 V c k hk))
          (ptB_acc V c ⟨k + 1, hn⟩ h0 h1 (outsAt1 V c k hk)) hI

/-! ## What a point of the last key block writes back -/

theorem flushed_C (hQ : (V c main_v1_0 : S8192x256.Idx → EReal) = fun i => ((Qr i : ℝ) : EReal))
    (hK : (V c main_v1_1 : S8192x256.Idx → EReal) = fun i => ((Kr i : ℝ) : EReal))
    (hV : (V c main_v1_2 : S8192x256.Idx → EReal) = fun i => ((Vr i : ℝ) : EReal))
    (hC : (V c main_arg1 : S8192x8192.Idx → EReal) = fun i => ((cnr i : ℝ) : EReal))
    (t : Fin cfg1.N) (h1 : t.val % 8 = 7) :
    (dat1 (F := Ideal) V c).flushed 4 t = ((cfg1.win 4).blk t).view.read (Elt Ideal) (Gout Qr Kr Vr cnr) := by
  have h0 : ¬t.val % 8 = 0 := by omega
  have hI := inv_at V c Qr Kr Vr cnr hQ hK hV hC t.val t.isLt
  rw [show t.val % 8 + 1 = 8 by omega, outsAt1_C V c t h0 h1, ptC_m, ptC_l, ptC_acc] at hI
  show (cfg1.win 4).cut (grid1.coords t) ((dat1 V c).after 4 t) = _
  rw [after1_4, outsAt1_C V c t h0 h1]
  funext j
  obtain ⟨r, cc, rfl⟩ : ∃ (r : Fin 1024) (cc : Fin 256), j = ix2 r cc := ⟨j 0, j 1, eq_ix2 j⟩
  rw [out_read1]
  show (ptC V c t h0 h1 (outsAt1 V c (t.val - 1) _)).1 (ix2 r cc) = _
  rw [ptC_out]
  exact (KStep.out_final _ _ _ _ _ _ hI r cc).trans (Gout_row Qr Kr Vr cnr (qiOf t) r cc).symm

/-! ## The array after the region -/

/-- The attention region leaves its result array holding, at each row, the row's entry. -/
theorem r1_arr (hQ : (V c main_v1_0 : S8192x256.Idx → EReal) = fun i => ((Qr i : ℝ) : EReal))
    (hK : (V c main_v1_1 : S8192x256.Idx → EReal) = fun i => ((Kr i : ℝ) : EReal))
    (hV : (V c main_v1_2 : S8192x256.Idx → EReal) = fun i => ((Vr i : ℝ) : EReal))
    (hC : (V c main_arg1 : S8192x8192.Idx → EReal) = fun i => ((cnr i : ℝ) : EReal)) :
    (dat1 (F := Ideal) V c).arrAt 4 cfg1.N = Gout Qr Kr Vr cnr :=
  (dat1 (F := Ideal) V c).arrAt_eq_of_cover 4 (Gout Qr Kr Vr cnr)
    (fun t hf => flushed_C V c Qr Kr Vr cnr hQ hK hV hC t ((flush1_4 t).mp hf)) out_cover1

theorem r1_out (hQ : (V c main_v1_0 : S8192x256.Idx → EReal) = fun i => ((Qr i : ℝ) : EReal))
    (hK : (V c main_v1_1 : S8192x256.Idx → EReal) = fun i => ((Kr i : ℝ) : EReal))
    (hV : (V c main_v1_2 : S8192x256.Idx → EReal) = fun i => ((Vr i : ℝ) : EReal))
    (hC : (V c main_arg1 : S8192x8192.Idx → EReal) = fun i => ((cnr i : ℝ) : EReal))
    (qi : Fin 8) (r : Fin 1024) (cc : Fin 256) :
    ((dat1 (F := Ideal) V c).arrAt 4 cfg1.N : S8192x256.Idx → EReal) (ix2 (Cert.Spec.row qi r) cc)
      = Cert.Spec.elu (Ideal.div
          ((mass Finset.univ (sR Qr Kr qi r) (fun j => wR cnr qi r j * vR Vr j cc) (top Finset.univ (sR Qr Kr qi r)) : ℝ) : EReal)
          (((mass Finset.univ (sR Qr Kr qi r) (wR cnr qi r) (top Finset.univ (sR Qr Kr qi r)) : ℝ) : EReal) + ((Cert.Consts.epsR : ℝ) : EReal))) := by
  rw [r1_arr V c Qr Kr Vr cnr hQ hK hV hC]
  exact Gout_row Qr Kr Vr cnr qi r cc

end Cert.KernelIdeal.FrVal

end
-- ==== Proof.ProjIdx.lean ====
import proofs.«132113_j39393440039434_1_alg».proof.Proof.Gen.KernelIdeal.Skeleton
import proofs.«132113_j39393440039434_1_alg».proof.Proof.LibDotIdx
import Idealize.ShloMosaic.Lib.ValueIdx
import Idealize.ShloMosaic.Lib.Pipeline.Value

/-!
The projection body read at an index: each of the three stored blocks is a column range of the product of the
block of feature rows with the concatenated weights.
-/

noncomputable section

namespace Cert.KernelIdeal.KStep

open Idealize.ShloMosaic Idealize.ShloMosaic.ValueIdx Cert.KernelIdeal Cert.KernelIdeal.Gen

/-- The whole product at `(p, e)`: row `p` of the features against column `e` of the concatenated weights. -/
theorem proj_all (x : Vec Ideal S1024x512 .f32) (wc : Vec Ideal S512x768 .f32) (p : Fin 1024) (e : Fin 768) :
    k0_pay1 x wc (ix2 p e) = ∑ a : Fin 512, x (ix2 p a) * wc (ix2 a e) := by
  unfold k0_pay1
  refine (DotIdx.matmul_plain_zero_apply _ none _ _ p e).trans ?_
  refine Finset.sum_congr rfl fun a _ => ?_
  rw [truncf_apply, truncf_apply, shapeCast_self]

theorem proj_q (x : Vec Ideal S1024x512 .f32) (wc : Vec Ideal S512x768 .f32) (p : Fin 1024) (d : Fin 256) :
    k0_pay2 x wc (ix2 p d) = ∑ a : Fin 512, x (ix2 p a) * wc (ix2 a ⟨d.val, by omega⟩) := by
  unfold k0_pay2
  rw [truncf_apply]
  refine (extractStridedSlice_apply _ _ _ (ix2 p d) (ix2 p (⟨d.val, by omega⟩ : Fin 768)) fun a => ?_).trans
    (proj_all x wc p _)
  match a with
  | ⟨0, _⟩ => show p.val = 0 + p.val; omega
  | ⟨1, _⟩ => show d.val = 0 + d.val; omega

theorem proj_k (x : Vec Ideal S1024x512 .f32) (wc : Vec Ideal S512x768 .f32) (p : Fin 1024) (d : Fin 256) :
    k0_pay3 x wc (ix2 p d) = ∑ a : Fin 512, x (ix2 p a) * wc (ix2 a ⟨d.val + 256, by omega⟩) := by
  unfold k0_pay3
  rw [truncf_apply]
  refine (extractStridedSlice_apply _ _ _ (ix2 p d) (ix2 p (⟨d.val + 256, by omega⟩ : Fin 768)) fun a => ?_).trans
    (proj_all x wc p _)
  match a with
  | ⟨0, _⟩ => show p.val = 0 + p.val; omega
  | ⟨1, _⟩ => show d.val + 256 = 256 + d.val; omega

theorem proj_v (x : Vec Ideal S1024x512 .f32) (wc : Vec Ideal S512x768 .f32) (p : Fin 1024) (d : Fin 256) :
    k0_pay4 x wc (ix2 p d) = ∑ a : Fin 512, x (ix2 p a) * wc (ix2 a ⟨d.val + 512, by omega⟩) := by
  unfold k0_pay4
  rw [truncf_apply]
  refine (extractStridedSlice_apply _ _ _ (ix2 p d) (ix2 p (⟨d.val + 512, by omega⟩ : Fin 768)) fun a => ?_).trans
    (proj_all x wc p _)
  match a with
  | ⟨0, _⟩ => show p.val = 0 + p.val; omega
  | ⟨1, _⟩ => show d.val + 512 = 512 + d.val; omega

end Cert.KernelIdeal.KStep

end
-- ==== Proof.KR0Val.lean ====
import proofs.«132113_j39393440039434_1_alg».proof.Proof.I_R0
import proofs.«132113_j39393440039434_1_alg».proof.Proof.KBlk
import proofs.«132113_j39393440039434_1_alg».proof.Proof.ProjIdx
import proofs.«132113_j39393440039434_1_alg».proof.Proof.LibOnlineSoftmax
import Idealize.ShloMosaic.Lib.ValueIdx
import Idealize.ShloMosaic.Lib.Pipeline.Value
import Idealize.ShloMosaic.Lib.StableHlo.Run

/-!
The projection region's three output arrays, and the joint weights.

With real features `x` and real joint weights `wc` in the two arrays the region reads, each point writes back
rows `1024 t … 1024 t + 1023` of a real matrix product: the queries are the features against columns `0 … 255` of
the weights, the keys against columns `256 … 511`, the values against columns `512 … 767`; the eight points'
blocks cover each array.  The joint weights are the three projections laid side by side along the columns.
-/

noncomputable section

namespace Cert.KernelIdeal.FrVal

open Cert.KernelIdeal Cert.KernelIdeal.Gen Cert.KernelIdeal.Fr Idealize.ShloMosaic Idealize.ShloMosaic.ValueIdx
open Idealize.ShloMosaic.TcCoe
open Idealize.ShloMosaic.Pipeline (Dat)

theorem hz : (![0, 0] : Fin 2 → Nat) = fun _ => 0 := funext fun a => by fin_cases a <;> rfl

section Region0

variable (V : (c : Dev nD) → (b : Ref sig .tc) → Buf (Elt Ideal) ((c : Thread nD τ).loc b)) (c : Dev nD)
  (x : S8192x512.Idx → ℝ) (wc : S512x768.Idx → ℝ)
  (hx : (V c main_arg0 : S8192x512.Idx → EReal) = fun i => ((x i : ℝ) : EReal))
  (hw : (V c main_v0 : S512x768.Idx → EReal) = fun i => ((wc i : ℝ) : EReal))

/-- A row of a block against a column of another, both real at the entries met, as a real sum. -/
theorem row_col (X : Vec Ideal S1024x512 .f32) (Y : Vec Ideal S512x768 .f32) (xr : Fin 512 → ℝ) (yr : Fin 512 → ℝ)
    (p : Fin 1024) (e : Fin 768)
    (hX : ∀ a : Fin 512, X (ix2 p a) = ((xr a : ℝ) : EReal)) (hY : ∀ a : Fin 512, Y (ix2 a e) = ((yr a : ℝ) : EReal)) :
    (∑ a : Fin 512, X (ix2 p a) * Y (ix2 a e)) = ((∑ a : Fin 512, xr a * yr a : ℝ) : EReal) := by
  refine Eq.trans ?_ (OnlineSoftmax.sum_mul_coe Finset.univ xr yr)
  exact Finset.sum_congr rfl fun a _ => by rw [hX a, hY a]

include hx hw

/-- The point's feature block is rows of the real features, its weights block the real weights. -/
theorem feat_real (t : Fin cfg0.N) (p : Fin 1024) (a : Fin 512) :
    (iblk0 V c 0 t : Vec Ideal S1024x512 .f32) (ix2 p a)
      = ((x (ix2 (⟨t.val * 1024 + p.val, by have := lt0 t; omega⟩ : Fin 8192) a) : ℝ) : EReal) :=
  (iblk0_feat V c t p a).trans (congrFun hx _)

theorem w_real (t : Fin cfg0.N) (a : Fin 512) (e : Fin 768) :
    (iblk0 V c 1 t : Vec Ideal S512x768 .f32) (ix2 a e) = ((wc (ix2 a e) : ℝ) : EReal) :=
  (iblk0_w V c t a e).trans (congrFun hw _)

/-- What point `t` writes back to the queries' array, at `(p, d)` of its block. -/
theorem flushed0_2 (t : Fin cfg0.N) (p : Fin 1024) (d : Fin 256) :
    ((dat0 (F := Ideal) V c).flushed 2 t : Vec Ideal S1024x256 .bf16) (ix2 p d)
      = ((∑ a : Fin 512, x (ix2 (⟨t.val * 1024 + p.val, by have := lt0 t; omega⟩ : Fin 8192) a)
            * wc (ix2 a (⟨d.val, by omega⟩ : Fin 768)) : ℝ) : EReal) := by
  show (cfg0.win 2).cut (grid0.coords t) ((dat0 V c).after 2 t) (ix2 p d) = _
  rw [after0_2]
  unfold out0_2
  rw [View.canon_unit_zero hz]
  simp only [View.ld_unit_zero (S := S1024x512) hz, View.ld_unit_zero (S := S512x768) hz]
  show k0_pay2 (iblk0 V c 0 t) (iblk0 V c 1 t) (ix2 p d) = _
  exact (KStep.proj_q _ _ p d).trans (row_col _ _ _ _ p _ (fun a => feat_real V c x wc hx hw t p a) (fun a => w_real V c x wc hx hw t a _))

theorem flushed0_3 (t : Fin cfg0.N) (p : Fin 1024) (d : Fin 256) :
    ((dat0 (F := Ideal) V c).flushed 3 t : Vec Ideal S1024x256 .bf16) (ix2 p d)
      = ((∑ a : Fin 512, x (ix2 (⟨t.val * 1024 + p.val, by have := lt0 t; omega⟩ : Fin 8192) a)
            * wc (ix2 a (⟨d.val + 256, by omega⟩ : Fin 768)) : ℝ) : EReal) := by
  show (cfg0.win 3).cut (grid0.coords t) ((dat0 V c).after 3 t) (ix2 p d) = _
  rw [after0_3]
  unfold out0_3
  rw [View.canon_unit_zero hz]
  simp only [View.ld_unit_zero (S := S1024x512) hz, View.ld_unit_zero (S := S512x768) hz]
  show k0_pay3 (iblk0 V c 0 t) (iblk0 V c 1 t) (ix2 p d) = _
  exact (KStep.proj_k _ _ p d).trans (row_col _ _ _ _ p _ (fun a => feat_real V c x wc hx hw t p a) (fun a => w_real V c x wc hx hw t a _))

theorem flushed0_4 (t : Fin cfg0.N) (p : Fin 1024) (d : Fin 256) :
    ((dat0 (F := Ideal) V c).flushed 4 t : Vec Ideal S1024x256 .bf16) (ix2 p d)
      = ((∑ a : Fin 512, x (ix2 (⟨t.val * 1024 + p.val, by have := lt0 t; omega⟩ : Fin 8192) a)
            * wc (ix2 a (⟨d.val + 512, by omega⟩ : Fin 768)) : ℝ) : EReal) := by
  show (cfg0.win 4).cut (grid0.coords t) ((dat0 V c).after 4 t) (ix2 p d) = _
  rw [after0_4]
  unfold out0_4
  rw [View.canon_unit_zero hz]
  simp only [View.ld_unit_zero (S := S1024x512) hz, View.ld_unit_zero (S := S512x768) hz]
  show k0_pay4 (iblk0 V c 0 t) (iblk0 V c 1 t) (ix2 p d) = _
  exact (KStep.proj_v _ _ p d).trans (row_col _ _ _ _ p _ (fun a => feat_real V c x wc hx hw t p a) (fun a => w_real V c x wc hx hw t a _))

/-- The queries' array after the region: the features against columns `0 … 255` of the joint weights. -/
theorem r0_Q : (dat0 (F := Ideal) V c).arrAt 2 cfg0.N
    = fun o : S8192x256.Idx => ((∑ a : Fin 512, x (ix2 (o 0) a)
        * wc (ix2 a ⟨(o 1).val, by have := idx2_lt1 o; omega⟩) : ℝ) : EReal) := by
  refine (dat0 V c).arrAt_eq_of_cover 2 _ (fun t _ => funext fun j => ?_) cover0_2
  obtain ⟨p, d, rfl⟩ : ∃ (p : Fin 1024) (d : Fin 256), j = ix2 p d := ⟨j 0, j 1, eq_ix2 j⟩
  exact (flushed0_2 V c x wc hx hw t p d).trans (read0_2 (fun o : S8192x256.Idx => ((∑ a : Fin 512, x (ix2 (o 0) a)
        * wc (ix2 a ⟨(o 1).val, by have := idx2_lt1 o; omega⟩) : ℝ) : EReal)) t p d).symm

/-- The keys' array: the features against columns `256 … 511`. -/
theorem r0_K : (dat0 (F := Ideal) V c).arrAt 3 cfg0.N
    = fun o : S8192x256.Idx => ((∑ a : Fin 512, x (ix2 (o 0) a)
        * wc (ix2 a ⟨(o 1).val + 256, by have := idx2_lt1 o; omega⟩) : ℝ) : EReal) := by
  refine (dat0 V c).arrAt_eq_of_cover 3 _ (fun t _ => funext fun j => ?_) cover0_3
  obtain ⟨p, d, rfl⟩ : ∃ (p : Fin 1024) (d : Fin 256), j = ix2 p d := ⟨j 0, j 1, eq_ix2 j⟩
  exact (flushed0_3 V c x wc hx hw t p d).trans (read0_3 (fun o : S8192x256.Idx => ((∑ a : Fin 512, x (ix2 (o 0) a)
        * wc (ix2 a ⟨(o 1).val + 256, by have := idx2_lt1 o; omega⟩) : ℝ) : EReal)) t p d).symm

/-- The values' array: the features against columns `512 … 767`. -/
theorem r0_V : (dat0 (F := Ideal) V c).arrAt 4 cfg0.N
    = fun o : S8192x256.Idx => ((∑ a : Fin 512, x (ix2 (o 0) a)
        * wc (ix2 a ⟨(o 1).val + 512, by have := idx2_lt1 o; omega⟩) : ℝ) : EReal) := by
  refine (dat0 V c).arrAt_eq_of_cover 4 _ (fun t _ => funext fun j => ?_) cover0_4
  obtain ⟨p, d, rfl⟩ : ∃ (p : Fin 1024) (d : Fin 256), j = ix2 p d := ⟨j 0, j 1, eq_ix2 j⟩
  exact (flushed0_4 V c x wc hx hw t p d).trans (read0_4 (fun o : S8192x256.Idx => ((∑ a : Fin 512, x (ix2 (o 0) a)
        * wc (ix2 a ⟨(o 1).val + 512, by have := idx2_lt1 o; omega⟩) : ℝ) : EReal)) t p d).symm

end Region0

/-! ## The joint weights -/

/-- The joint weights at `(a, e)`: the first projection for `e < 256`, the second for `256 ≤ e < 512`, the third
    beyond, each at its own column. -/
theorem concat_apply (W0 : Valuation τ sig (Elt Ideal)) (a : Fin 512) (e : Fin 768) :
    (StableHlo.after hostOps0 W0 (Proc.devRef .tc main_v0) : S512x768.Idx → EReal) (ix2 a e)
      = if h : e.val < 256 then (W0 (Proc.devRef .tc main_arg2) : S512x256.Idx → EReal) (ix2 a ⟨e.val, h⟩)
        else if h2 : e.val < 512 then
          (W0 (Proc.devRef .tc main_arg3) : S512x256.Idx → EReal) (ix2 a ⟨e.val - 256, by omega⟩)
        else (W0 (Proc.devRef .tc main_arg4) : S512x256.Idx → EReal) (ix2 a ⟨e.val - 512, by omega⟩) := by
  have he : e.val < 768 := e.isLt
  after_results
  by_cases h : e.val < 256
  · rw [dif_pos h]
    refine concatenate_apply_piece (1 : Fin 2) _ _ (ix2 a e) 0 ?_ S512x256 _ ?_ rfl 0 ?_
      (ix2 a ⟨e.val, h⟩) (fun b hb => ?_) ?_
    · exact Nat.zero_lt_succ _
    · rfl
    · rfl
    · match b with
      | ⟨0, _⟩ => rfl
      | ⟨1, _⟩ => exact absurd rfl hb
    · show 0 + e.val = e.val; omega
  · rw [dif_neg h]
    by_cases h2 : e.val < 512
    · rw [dif_pos h2]
      refine concatenate_apply_piece (1 : Fin 2) _ _ (ix2 a e) 1 ?_ S512x256 _ ?_ rfl 256 ?_
        (ix2 a ⟨e.val - 256, by omega⟩) (fun b hb => ?_) ?_
      · exact Nat.succ_lt_succ (Nat.zero_lt_succ _)
      · rfl
      · rfl
      · match b with
        | ⟨0, _⟩ => rfl
        | ⟨1, _⟩ => exact absurd rfl hb
      · show 256 + (e.val - 256) = e.val; omega
    · rw [dif_neg h2]
      refine concatenate_apply_piece (1 : Fin 2) _ _ (ix2 a e) 2 ?_ S512x256 _ ?_ rfl 512 ?_
        (ix2 a ⟨e.val - 512, by omega⟩) (fun b hb => ?_) ?_
      · exact Nat.succ_lt_succ (Nat.succ_lt_succ (Nat.zero_lt_succ _))
      · rfl
      · rfl
      · match b with
        | ⟨0, _⟩ => rfl
        | ⟨1, _⟩ => exact absurd rfl hb
      · show 512 + (e.val - 512) = e.val; omega

end Cert.KernelIdeal.FrVal

end
-- ==== Proof.KV2.lean ====
/-
  The projection region's three result arrays and the multiplicities, as the attention region finds them, in terms
  of real argument arrays. The joint weight array holds the three weight matrices side by side (columns 0..255 the
  query weights, 256..511 the key weights, 512..767 the value weights); the projection region leaves, in its three
  result arrays, the features times the three column ranges of the joint weights, that is, the features times each
  weight matrix; the multiplicities are untouched before the attention region.
-/
import proofs.«132113_j39393440039434_1_alg».proof.Proof.I_Bounds
import proofs.«132113_j39393440039434_1_alg».proof.Proof.KR0Val
import proofs.«132113_j39393440039434_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.FrVal

open Cert.KernelIdeal Cert.KernelIdeal.Gen Cert.KernelIdeal.Fr Idealize.ShloMosaic Idealize.ShloMosaic.ValueIdx
open Idealize.ShloMosaic.TcCoe
open Idealize.ShloMosaic.Pipeline (Dat)

/-- Entry (a, e) of the three real weight matrices laid side by side along the columns. -/
def wcol (wq wk wv : Cert.Spec.SW.Idx → ℝ) (a : Fin 512) (e : Fin 768) : ℝ :=
  if h : e.val < 256 then wq (ix2 a ⟨e.val, h⟩)
  else if h2 : e.val < 512 then wk (ix2 a ⟨e.val - 256, by omega⟩)
  else wv (ix2 a ⟨e.val - 512, by omega⟩)

/-- The three real weight matrices side by side: columns 0..255 the first, 256..511 the second, 512..767 the third. -/
def wcR (wq wk wv : Cert.Spec.SW.Idx → ℝ) : S512x768.Idx → ℝ := fun i => wcol wq wk wv (i 0) (i 1)

theorem wcR_ix2 (wq wk wv : Cert.Spec.SW.Idx → ℝ) (a : Fin 512) (e : Fin 768) :
    wcR wq wk wv (ix2 a e) = wcol wq wk wv a e := rfl

/-- A column below 256 of the joint weights is the first matrix's column. -/
theorem wcol_q (wq wk wv : Cert.Spec.SW.Idx → ℝ) (a : Fin 512) (d : Fin 256) (h : d.val < 768) :
    wcol wq wk wv a ⟨d.val, h⟩ = wq (ix2 a d) := by
  unfold wcol; rw [dif_pos d.isLt]
/-- Column 256 + d of the joint weights is the second matrix's column d. -/
theorem wcol_k (wq wk wv : Cert.Spec.SW.Idx → ℝ) (a : Fin 512) (d : Fin 256) (h : d.val + 256 < 768) :
    wcol wq wk wv a ⟨d.val + 256, h⟩ = wk (ix2 a d) := by
  have hd := d.isLt
  unfold wcol; rw [dif_neg (by dsimp only; omega), dif_pos (by dsimp only; omega)]
  exact congrArg (fun e => wk (ix2 a e)) (Fin.ext (by dsimp only; omega))
/-- Column 512 + d of the joint weights is the third matrix's column d. -/
theorem wcol_v (wq wk wv : Cert.Spec.SW.Idx → ℝ) (a : Fin 512) (d : Fin 256) (h : d.val + 512 < 768) :
    wcol wq wk wv a ⟨d.val + 512, h⟩ = wv (ix2 a d) := by
  have hd := d.isLt
  unfold wcol; rw [dif_neg (by dsimp only; omega), dif_neg (by dsimp only; omega)]
  exact congrArg (fun e => wv (ix2 a e)) (Fin.ext (by dsimp only; omega))

variable (m : (ℓ : Loc nD τ sig) → Buf (Elt Ideal) ℓ) (ρ : Dev nD → PrngReg) (c : Dev nD)
  (f : Cert.Spec.SF.Idx → ℝ) (cn : Cert.Spec.SC.Idx → ℝ) (wq wk wv : Cert.Spec.SW.Idx → ℝ)

/-- The joint weight array after the weights are laid side by side holds the three real matrices side by side. -/
theorem V1_w (hq : (m ((c.tc : Thread nD τ).loc main_arg2) : S512x256.Idx → EReal) = fun i => ((wq i : ℝ) : EReal))
    (hk : (m ((c.tc : Thread nD τ).loc main_arg3) : S512x256.Idx → EReal) = fun i => ((wk i : ℝ) : EReal))
    (hv : (m ((c.tc : Thread nD τ).loc main_arg4) : S512x256.Idx → EReal) = fun i => ((wv i : ℝ) : EReal)) :
    (V1 m ρ c main_v0 : S512x768.Idx → EReal) = fun i => ((wcR wq wk wv i : ℝ) : EReal) := by
  funext i
  obtain ⟨a, e, rfl⟩ : ∃ a e, i = ix2 a e := ⟨i 0, i 1, eq_ix2 i⟩
  rw [wcR_ix2]
  show (StableHlo.after hostOps0 (W0 m ρ c) (Proc.devRef .tc main_v0) : S512x768.Idx → EReal) (ix2 a e) = _
  rw [concat_apply]
  unfold wcol
  split_ifs with h h2
  · exact congrFun hq _
  · exact congrFun hk _
  · exact congrFun hv _

/-- The features are untouched by laying the weights side by side. -/
theorem V1_feat (hf : (m ((c.tc : Thread nD τ).loc main_arg0) : S8192x512.Idx → EReal) = fun i => ((f i : ℝ) : EReal)) :
    (V1 m ρ c main_arg0 : S8192x512.Idx → EReal) = fun i => ((f i : ℝ) : EReal) :=
  (W1_of m ρ c main_arg0 (by decide)).trans hf

/-- The query array the attention region finds: the features times the query weights. -/
theorem V2_Q (hf : (m ((c.tc : Thread nD τ).loc main_arg0) : S8192x512.Idx → EReal) = fun i => ((f i : ℝ) : EReal))
    (hq : (m ((c.tc : Thread nD τ).loc main_arg2) : S512x256.Idx → EReal) = fun i => ((wq i : ℝ) : EReal))
    (hk : (m ((c.tc : Thread nD τ).loc main_arg3) : S512x256.Idx → EReal) = fun i => ((wk i : ℝ) : EReal))
    (hv : (m ((c.tc : Thread nD τ).loc main_arg4) : S512x256.Idx → EReal) = fun i => ((wv i : ℝ) : EReal)) :
    (V2 m ρ c main_v1_0 : S8192x256.Idx → EReal) = fun i => ((Cert.Spec.proj f wq (i 0) (i 1) : ℝ) : EReal) := by
  refine ((W2_arr m ρ c 2).trans (r0_Q (V1 m ρ) c f (wcR wq wk wv) (V1_feat m ρ c f hf)
    (V1_w m ρ c wq wk wv hq hk hv))).trans ?_
  funext o
  unfold Cert.Spec.proj
  exact congrArg (fun r : ℝ => (r : EReal)) (Finset.sum_congr rfl fun a _ => congrArg (fun z : ℝ => f (ix2 (o 0) a) * z) ((wcR_ix2 wq wk wv a _).trans (wcol_q wq wk wv a (o 1) _)))

/-- The key array the attention region finds: the features times the key weights. -/
theorem V2_K (hf : (m ((c.tc : Thread nD τ).loc main_arg0) : S8192x512.Idx → EReal) = fun i => ((f i : ℝ) : EReal))
    (hq : (m ((c.tc : Thread nD τ).loc main_arg2) : S512x256.Idx → EReal) = fun i => ((wq i : ℝ) : EReal))
    (hk : (m ((c.tc : Thread nD τ).loc main_arg3) : S512x256.Idx → EReal) = fun i => ((wk i : ℝ) : EReal))
    (hv : (m ((c.tc : Thread nD τ).loc main_arg4) : S512x256.Idx → EReal) = fun i => ((wv i : ℝ) : EReal)) :
    (V2 m ρ c main_v1_1 : S8192x256.Idx → EReal) = fun i => ((Cert.Spec.proj f wk (i 0) (i 1) : ℝ) : EReal) := by
  refine ((W2_arr m ρ c 3).trans (r0_K (V1 m ρ) c f (wcR wq wk wv) (V1_feat m ρ c f hf)
    (V1_w m ρ c wq wk wv hq hk hv))).trans ?_
  funext o
  unfold Cert.Spec.proj
  exact congrArg (fun r : ℝ => (r : EReal)) (Finset.sum_congr rfl fun a _ => congrArg (fun z : ℝ => f (ix2 (o 0) a) * z) ((wcR_ix2 wq wk wv a _).trans (wcol_k wq wk wv a (o 1) _)))

/-- The value array the attention region finds: the features times the value weights. -/
theorem V2_V (hf : (m ((c.tc : Thread nD τ).loc main_arg0) : S8192x512.Idx → EReal) = fun i => ((f i : ℝ) : EReal))
    (hq : (m ((c.tc : Thread nD τ).loc main_arg2) : S512x256.Idx → EReal) = fun i => ((wq i : ℝ) : EReal))
    (hk : (m ((c.tc : Thread nD τ).loc main_arg3) : S512x256.Idx → EReal) = fun i => ((wk i : ℝ) : EReal))
    (hv : (m ((c.tc : Thread nD τ).loc main_arg4) : S512x256.Idx → EReal) = fun i => ((wv i : ℝ) : EReal)) :
    (V2 m ρ c main_v1_2 : S8192x256.Idx → EReal) = fun i => ((Cert.Spec.proj f wv (i 0) (i 1) : ℝ) : EReal) := by
  refine ((W2_arr m ρ c 4).trans (r0_V (V1 m ρ) c f (wcR wq wk wv) (V1_feat m ρ c f hf)
    (V1_w m ρ c wq wk wv hq hk hv))).trans ?_
  funext o
  unfold Cert.Spec.proj
  exact congrArg (fun r : ℝ => (r : EReal)) (Finset.sum_congr rfl fun a _ => congrArg (fun z : ℝ => f (ix2 (o 0) a) * z) ((wcR_ix2 wq wk wv a _).trans (wcol_v wq wk wv a (o 1) _)))

/-- The multiplicities are untouched by laying the weights side by side and by the projection region. -/
theorem V2_cnt (hcn : (m ((c.tc : Thread nD τ).loc main_arg1) : S8192x8192.Idx → EReal) = fun i => ((cn i : ℝ) : EReal)) :
    (V2 m ρ c main_arg1 : S8192x8192.Idx → EReal) = fun i => ((cn i : ℝ) : EReal) :=
  ((W2_of_ne m ρ c main_arg1 (by decide)).trans (W1_of m ρ c main_arg1 (by decide))).trans hcn

end Cert.KernelIdeal.FrVal

end
-- ==== Proof.I_Value.lean ====
/-
  The kernel's result array is the specification's. With real argument arrays: the attention region finds the three
  projections and the multiplicities as real matrices, its result array is the blockwise form of the specification
  read at (query block, row), and that is the specification at the row's global index.
-/
import proofs.«132113_j39393440039434_1_alg».proof.Proof.I_Asm
import proofs.«132113_j39393440039434_1_alg».proof.Proof.KR1Val
import proofs.«132113_j39393440039434_1_alg».proof.Proof.KV2
import proofs.«132113_j39393440039434_1_alg».proof.Proof.SpecBlocks

set_option maxRecDepth 16384

noncomputable section

namespace Cert.KernelIdeal.FrVal

open Idealize.ShloMosaic Idealize.ShloMosaic.TcCoe Idealize.ShloMosaic.ValueIdx
open Idealize.SL.Sem
open OnlineSoftmax
open Cert.KernelIdeal Cert.KernelIdeal.Gen Cert.KernelIdeal.Fr

variable (m : (ℓ : Loc nD τ sig) → Buf (Elt Ideal) ℓ) (ρ : Dev nD → PrngReg)

section OneDevice

variable (c : Dev nD) (f : Cert.Spec.SF.Idx → ℝ) (cn : Cert.Spec.SC.Idx → ℝ) (wq wk wv : Cert.Spec.SW.Idx → ℝ)

/-- The queries, keys and values as real matrices over the arrays' own index type. -/
def Qm : S8192x256.Idx → ℝ := fun i => Cert.Spec.proj f wq (i 0) (i 1)
def Km : S8192x256.Idx → ℝ := fun i => Cert.Spec.proj f wk (i 0) (i 1)
def Vm : S8192x256.Idx → ℝ := fun i => Cert.Spec.proj f wv (i 0) (i 1)

/-- With these matrices the blockwise scores, weights and values are the specification's. -/
theorem sR_eq (qi : Fin 8) : sR (Qm f wq) (Km f wk) qi = Cert.Spec.sB f wq wk qi := rfl
theorem wR_eq (qi : Fin 8) : wR cn qi = Cert.Spec.wB cn qi := rfl
theorem vR_eq : vR (Vm f wv) = Cert.Spec.vB f wv := rfl

/-- Every index of the result array is a row of some query block. -/
theorem idx_row (o : S8192x256.Idx) : ∃ (qi : Fin 8) (r : Fin 1024) (cc : Fin 256), o = ix2 (Cert.Spec.row qi r) cc := by
  have h0 : (o 0).val < 8192 := idx2_lt0 o
  have e : (o 0 : Fin 8192) = Cert.Spec.row ⟨(o 0).val / 1024, by omega⟩ ⟨(o 0).val % 1024, Nat.mod_lt _ (by norm_num)⟩ :=
    Fin.ext (by show (o 0).val = (o 0).val / 1024 * 1024 + (o 0).val % 1024; omega)
  exact ⟨_, _, (o 1 : Fin 256), (eq_ix2 o).trans (congrArg (fun a : Fin 8192 => ix2 a (o 1 : Fin 256)) e)⟩

theorem W3_out
    (hf : (m ((c.tc : Thread nD τ).loc main_arg0) : S8192x512.Idx → EReal) = fun i => ((f i : ℝ) : EReal))
    (hcn : (m ((c.tc : Thread nD τ).loc main_arg1) : S8192x8192.Idx → EReal) = fun i => ((cn i : ℝ) : EReal))
    (hq : (m ((c.tc : Thread nD τ).loc main_arg2) : S512x256.Idx → EReal) = fun i => ((wq i : ℝ) : EReal))
    (hk : (m ((c.tc : Thread nD τ).loc main_arg3) : S512x256.Idx → EReal) = fun i => ((wk i : ℝ) : EReal))
    (hv : (m ((c.tc : Thread nD τ).loc main_arg4) : S512x256.Idx → EReal) = fun i => ((wv i : ℝ) : EReal)) :
    (W3 m ρ c (Proc.devRef .tc main_v2) : S8192x256.Idx → EReal) = Cert.Spec.G f cn wq wk wv := by
  funext o
  obtain ⟨qi, r, cc, rfl⟩ := idx_row o
  rw [show (W3 m ρ c (Proc.devRef .tc main_v2) : S8192x256.Idx → EReal) = (dat1 (F := Ideal) (V2 m ρ) c).arrAt 4 cfg1.N from W3_arr m ρ c 4]
  rw [r1_out (V2 m ρ) c (Qm f wq) (Km f wk) (Vm f wv) cn
    (V2_Q m ρ c f wq wk wv hf hq hk hv) (V2_K m ρ c f wq wk wv hf hq hk hv) (V2_V m ρ c f wq wk wv hf hq hk hv)
    (V2_cnt m ρ c cn hcn) qi r cc]
  rw [sR_eq, wR_eq, vR_eq]
  exact Cert.Spec.G_blocks f cn wq wk wv qi r cc

end OneDevice

/-- THE KERNEL'S RUN, READ: with real argument arrays every weakly fair execution ends with the result array at the
    specification of the arguments, and the arguments unchanged. -/
theorem kernel_spec (f : Dev nD → Cert.Spec.SF.Idx → ℝ) (cn : Dev nD → Cert.Spec.SC.Idx → ℝ) (wq wk wv : Dev nD → Cert.Spec.SW.Idx → ℝ)
    (hf : ∀ c : Dev nD, (m ((c.tc : Thread nD τ).loc main_arg0) : S8192x512.Idx → EReal) = fun i => ((f c i : ℝ) : EReal))
    (hcn : ∀ c : Dev nD, (m ((c.tc : Thread nD τ).loc main_arg1) : S8192x8192.Idx → EReal) = fun i => ((cn c i : ℝ) : EReal))
    (hq : ∀ c : Dev nD, (m ((c.tc : Thread nD τ).loc main_arg2) : S512x256.Idx → EReal) = fun i => ((wq c i : ℝ) : EReal))
    (hk : ∀ c : Dev nD, (m ((c.tc : Thread nD τ).loc main_arg3) : S512x256.Idx → EReal) = fun i => ((wk c i : ℝ) : EReal))
    (hv : ∀ c : Dev nD, (m ((c.tc : Thread nD τ).loc main_arg4) : S512x256.Idx → EReal) = fun i => ((wv c i : ℝ) : EReal)) :
    θ_run (defs (F := Ideal)) (onTc (τ := τ) (main (F := Ideal))) ⟨m, fun _ => 0, ρ⟩ (fun r => ∀ c : Dev nD,
      r.2.mem ((c.tc : Thread nD τ).loc main_v2) = Cert.Spec.G (f c) (cn c) (wq c) (wk c) (wv c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v2 (by decide))).trans (W3_out m ρ c (f c) (cn c) (wq c) (wk c) (wv c) (hf c) (hcn c) (hq c) (hk c) (hv c)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.FrVal

end
-- ==== Proof.RefStages.lean ====
import proofs.«132113_j39393440039434_1_alg».proof.Proof.Gen.ReferenceIdeal

/-!
The reference's result as a composition of named stages, each a pure function of the stage before:
the three projections, the scale, the scaled scores, the row maximum, the weights, the guarded row sum,
the quotient, the weighted sum of the values, and the activation. The reference's run is stated over
these names; each stage is read at an index on its own.
-/

noncomputable section

namespace Cert.ReferenceIdeal.RefRun

open Cert.ReferenceIdeal Idealize.ShloMosaic Idealize.SL.Sem
open Facts₀

variable {F : FTy → Type} [FloatOps F]

/-- The features against one projection. -/
def proj (a : (⟨S8192x512, .f32⟩ : BufTy).Contents (Elt F)) (w : (⟨S512x256, .f32⟩ : BufTy).Contents (Elt F)) :
    (⟨S8192x256, .f32⟩ : BufTy).Contents (Elt F) :=
  Host.dotGeneral dot_S8192x512_S512x256_S8192x256_1_0_0_1_n_n none a w

/-- One over the square root of the head dimension. -/
def scale : (⟨S_, .f32⟩ : BufTy).Contents (Elt F) :=
  Host.divf (constant S_ .f32 0x3F800000#32) (Host.sqrt (constant S_ .f32 0x43800000#32))

/-- The scaled scores of every query against every key. -/
def logits (q k : (⟨S8192x256, .f32⟩ : BufTy).Contents (Elt F)) : (⟨S8192x8192, .f32⟩ : BufTy).Contents (Elt F) :=
  mulf (Host.dotGeneral dot_S8192x256_S256x8192_S8192x8192_1_0_0_1_n_n none q
      (transpose S256x8192 [1, 0] k transposes_S8192x256_S256x8192_1_0))
    (broadcastInDim S8192x8192 ![] bcast_S_S8192x8192 scale)

/-- Each row's largest score. -/
def rowmax (L : (⟨S8192x8192, .f32⟩ : BufTy).Contents (Elt F)) : (⟨S8192, .f32⟩ : BufTy).Contents (Elt F) :=
  Host.reduce FloatOps.maximumf L (constant S_ .f32 0xFF800000#32) reducesTo_S8192x8192_S8192_d1 h_S_

/-- The weights: the exponential of a score less its row's maximum, times the multiplicity. -/
def nomi (L cn : (⟨S8192x8192, .f32⟩ : BufTy).Contents (Elt F)) : (⟨S8192x8192, .f32⟩ : BufTy).Contents (Elt F) :=
  mulf (Host.exp (subf L (broadcastInDim S8192x8192 ![0, 1] bcast_S8192x1_S8192x8192_0_1
      (broadcastInDim S8192x1 ![0] bcast_S8192_S8192x1_0 (rowmax L))))) cn

/-- Each row's sum of weights plus the guard, as one column. -/
def deno (N : (⟨S8192x8192, .f32⟩ : BufTy).Contents (Elt F)) : (⟨S8192x1, .f32⟩ : BufTy).Contents (Elt F) :=
  addf (broadcastInDim S8192x1 ![0] bcast_S8192_S8192x1_0
      (Host.reduceAdd N (constant S_ .f32 0x00000000#32) reducesTo_S8192x8192_S8192_d1 h_S_))
    (broadcastInDim S8192x1 ![] bcast_S_S8192x1 (constant S_ .f32 0x3089705F#32))

/-- The normalised weights. -/
def attn (N : (⟨S8192x8192, .f32⟩ : BufTy).Contents (Elt F)) : (⟨S8192x8192, .f32⟩ : BufTy).Contents (Elt F) :=
  Host.divf N (broadcastInDim S8192x8192 ![0, 1] bcast_S8192x1_S8192x8192_0_1 (deno N))

/-- The normalised weights against the values. -/
def ret (A : (⟨S8192x8192, .f32⟩ : BufTy).Contents (Elt F)) (v : (⟨S8192x256, .f32⟩ : BufTy).Contents (Elt F)) :
    (⟨S8192x256, .f32⟩ : BufTy).Contents (Elt F) :=
  Host.dotGeneral dot_S8192x8192_S8192x256_S8192x256_1_0_0_1_n_n none A v

/-- The activation, as the program spells it: above zero the operand, elsewhere one times
    `expm1` of the operand with the positive entries replaced by zero. -/
def act (x : (⟨S8192x256, .f32⟩ : BufTy).Contents (Elt F)) : (⟨S8192x256, .f32⟩ : BufTy).Contents (Elt F) :=
  select (cmpf .ogt x (broadcastInDim S8192x256 ![] bcast_S_S8192x256 (constant S_ .f32 0x00000000#32))) x
    (mulf (broadcastInDim S8192x256 ![] bcast_S_S8192x256 (constant S_ .f32 0x3F800000#32))
      (Host.expm1 (select (cmpf .ogt x (broadcastInDim S8192x256 ![] bcast_S_S8192x256 (constant S_ .f32 0x00000000#32)))
        (broadcastInDim S8192x256 ![] bcast_S_S8192x256 (id (constant S_ .f32 0x00000000#32))) x)))

/-- The reference's result, of its five arguments. -/
def out (a0 : (⟨S8192x512, .f32⟩ : BufTy).Contents (Elt F)) (a1 : (⟨S8192x8192, .f32⟩ : BufTy).Contents (Elt F))
    (a2 a3 a4 : (⟨S512x256, .f32⟩ : BufTy).Contents (Elt F)) : (⟨S8192x256, .f32⟩ : BufTy).Contents (Elt F) :=
  act (ret (attn (nomi (logits (proj a0 a2) (proj a0 a3)) a1)) (proj a0 a4))

end Cert.ReferenceIdeal.RefRun

end
-- ==== Proof.RefRun.lean ====
import proofs.«132113_j39393440039434_1_alg».proof.Proof.Gen.ReferenceIdeal
import proofs.«132113_j39393440039434_1_alg».proof.Proof.RefStages
import Idealize.ShloMosaic.Lib.StableHlo.Run
import Idealize.ShloMosaic.PureOps.Ideal

/-!
The reference's run. Its @main is twenty-seven host operations and one call of the activation, which
itself calls the two selections; with every callee's operations listed at its call site over the call's
own buffers the program is one straight line of forty-two operations. Every weakly fair execution of
it from any memory terminates without a fault, with the result buffer at the composed stages of the
five arguments and the arguments unchanged.
-/

noncomputable section

namespace Cert.ReferenceIdeal.RefRun

open Cert.ReferenceIdeal Idealize.ShloMosaic Idealize.ShloMosaic.TcCoe Idealize.SL.Sem Idealize.ShloMosaic.StableHlo
open Facts₀

variable {F : FTy → Type} [FloatOps F]

/-- @main's operations in order, the calls unfolded: the activation's thirteen around the first
    selection's three (the zero converted to its own type, broadcast, the select) and the second's one. -/
abbrev ops : List (HloOp τ sig (Elt F)) :=
  [ binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_arg0 main_arg3 main_v1 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_arg0 main_arg4 main_v2 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    nullary main_cst (constant S_ .f32 0x43800000#32),
    unary main_cst main_v3 (Host.sqrt : (⟨S_, .f32⟩ : BufTy).Contents (Elt F) → (⟨S_, .f32⟩ : BufTy).Contents (Elt F)),
    nullary main_cst_0 (constant S_ .f32 0x3F800000#32),
    binary main_cst_0 main_v3 main_v4 (Host.divf : (⟨S_, .f32⟩ : BufTy).Contents (Elt F) → (⟨S_, .f32⟩ : BufTy).Contents (Elt F) → (⟨S_, .f32⟩ : BufTy).Contents (Elt F)),
    unary main_v1 main_v5 ((transpose S256x8192 [1, 0] · transposes_S8192x256_S256x8192_1_0) : (⟨S8192x256, .f32⟩ : BufTy).Contents (Elt F) → (⟨S256x8192, .f32⟩ : BufTy).Contents (Elt F)),
    binary main_v0 main_v5 main_v6 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    unary main_v4 main_v7 (broadcastInDim S8192x8192 ![] bcast_S_S8192x8192 : (⟨S_, .f32⟩ : BufTy).Contents (Elt F) → (⟨S8192x8192, .f32⟩ : BufTy).Contents (Elt F)),
    binary main_v6 main_v7 main_v8 (mulf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0xFF800000#32),
    binary main_v8 main_cst_1 main_v9 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v9 main_v10 (broadcastInDim S8192x1 ![0] bcast_S8192_S8192x1_0 : (⟨S8192, .f32⟩ : BufTy).Contents (Elt F) → (⟨S8192x1, .f32⟩ : BufTy).Contents (Elt F)),
    unary main_v10 main_v11 (broadcastInDim S8192x8192 ![0, 1] bcast_S8192x1_S8192x8192_0_1 : (⟨S8192x1, .f32⟩ : BufTy).Contents (Elt F) → (⟨S8192x8192, .f32⟩ : BufTy).Contents (Elt F)),
    binary main_v8 main_v11 main_v12 (subf : (⟨S8192x8192, .f32⟩ : BufTy).Contents (Elt F) → (⟨S8192x8192, .f32⟩ : BufTy).Contents (Elt F) → (⟨S8192x8192, .f32⟩ : BufTy).Contents (Elt F)),
    unary main_v12 main_v13 (Host.exp : (⟨S8192x8192, .f32⟩ : BufTy).Contents (Elt F) → (⟨S8192x8192, .f32⟩ : BufTy).Contents (Elt F)),
    binary main_v13 main_arg1 main_v14 (mulf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    binary main_v14 main_cst_2 main_v15 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    nullary main_cst_3 (constant S_ .f32 0x3089705F#32),
    unary main_cst_3 main_v17 (broadcastInDim S8192x1 ![] bcast_S_S8192x1 : (⟨S_, .f32⟩ : BufTy).Contents (Elt F) → (⟨S8192x1, .f32⟩ : BufTy).Contents (Elt F)),
    binary main_v16 main_v17 main_v18 (addf : (⟨S8192x1, .f32⟩ : BufTy).Contents (Elt F) → (⟨S8192x1, .f32⟩ : BufTy).Contents (Elt F) → (⟨S8192x1, .f32⟩ : BufTy).Contents (Elt F)),
    unary main_v18 main_v19 (broadcastInDim S8192x8192 ![0, 1] bcast_S8192x1_S8192x8192_0_1 : (⟨S8192x1, .f32⟩ : BufTy).Contents (Elt F) → (⟨S8192x8192, .f32⟩ : BufTy).Contents (Elt F)),
    binary main_v14 main_v19 main_v20 (Host.divf : (⟨S8192x8192, .f32⟩ : BufTy).Contents (Elt F) → (⟨S8192x8192, .f32⟩ : BufTy).Contents (Elt F) → (⟨S8192x8192, .f32⟩ : BufTy).Contents (Elt F)),
    binary main_v20 main_v2 main_v21 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.nullary main_call0.cst (constant S_ .f32 0x00000000#32),
    TRef.unary main_call0.cst main_call0.v0 (broadcastInDim S8192x256 ![] bcast_S_S8192x256),
    TRef.binary (.of main_v21) main_call0.v0 main_call0.v1 (cmpf .ogt),
    TRef.nullary main_call0.cst_0 (constant S_ .f32 0x00000000#32),
    TRef.unary main_call0.cst_0 main_call0.v2 (broadcastInDim S8192x256 ![] bcast_S_S8192x256),
    TRef.binary (.of main_v21) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8192x256 ![] bcast_S_S8192x256),
    TRef.ternary main_call0.v3 main_call0.call0.v1 (.of main_v21) main_call0.call0.v2 select,
    TRef.unary main_call0.call0.v2 main_call0.v5 Host.expm1,
    TRef.nullary main_call0.cst_2 (constant S_ .f32 0x3F800000#32),
    TRef.unary main_call0.cst_2 main_call0.v6 (broadcastInDim S8192x256 ![] bcast_S_S8192x256),
    TRef.binary main_call0.v6 main_call0.v5 main_call0.v7 mulf,
    TRef.ternary main_call0.v1 (.of main_v21) main_call0.v7 main_call0.call1.v0 select ]

-- forty-two binds re-associated, the rewrite recursing once per statement
set_option maxRecDepth 2048 in
/-- @main is that straight line: the functions' definitions unfolded at their calls and the records at
    their fields, both sides are one chain of steps once sequencing is re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., nullary_bufs_sub .., unary_bufs_sub .., nullary_bufs_sub ..,
    binary_bufs_sub .., unary_bufs_sub .., binary_bufs_sub .., unary_bufs_sub .., binary_bufs_sub .., nullary_bufs_sub ..,
    binary_bufs_sub .., unary_bufs_sub .., unary_bufs_sub .., binary_bufs_sub .., unary_bufs_sub .., binary_bufs_sub ..,
    nullary_bufs_sub .., binary_bufs_sub .., unary_bufs_sub .., nullary_bufs_sub .., unary_bufs_sub .., binary_bufs_sub ..,
    unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- Every TensorCore buffer after the run is the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffers the argument arrays and the result sit in, at the end of the line. -/
theorem after_v22 (V : Valuation τ sig (Elt F)) :
    after ops V (main_v22 : DevRef τ sig)
      = out (V (main_arg0 : DevRef τ sig)) (V (main_arg1 : DevRef τ sig)) (V (main_arg2 : DevRef τ sig))
          (V (main_arg3 : DevRef τ sig)) (V (main_arg4 : DevRef τ sig)) := by
  after_results_simp
  rfl

theorem after_arg0 (V : Valuation τ sig (Elt F)) : after ops V (main_arg0 : DevRef τ sig) = V (main_arg0 : DevRef τ sig) := by
  after_results_simp
theorem after_arg1 (V : Valuation τ sig (Elt F)) : after ops V (main_arg1 : DevRef τ sig) = V (main_arg1 : DevRef τ sig) := by
  after_results_simp
theorem after_arg2 (V : Valuation τ sig (Elt F)) : after ops V (main_arg2 : DevRef τ sig) = V (main_arg2 : DevRef τ sig) := by
  after_results_simp
theorem after_arg3 (V : Valuation τ sig (Elt F)) : after ops V (main_arg3 : DevRef τ sig) = V (main_arg3 : DevRef τ sig) := by
  after_results_simp
theorem after_arg4 (V : Valuation τ sig (Elt F)) : after ops V (main_arg4 : DevRef τ sig) = V (main_arg4 : DevRef τ sig) := by
  after_results_simp

/-- On every device, for any float values, from any memory with zero counters: every weakly fair
    execution of @main terminates with the result at the composed stages of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v22).trans (after_v22 _),
      (h c main_arg0).trans (after_arg0 _), (h c main_arg1).trans (after_arg1 _), (h c main_arg2).trans (after_arg2 _),
      (h c main_arg3).trans (after_arg3 _), (h c main_arg4).trans (after_arg4 _)⟩)
    (run_main m ρ)

/-- The run with the result dropped: the reference terminates, without a fault, and its five
    argument arrays end unchanged. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => (h c).2) (run (F := Ideal) m ρ)

end Cert.ReferenceIdeal.RefRun

end
-- ==== Proof.RefIdx.lean ====
import proofs.«132113_j39393440039434_1_alg».proof.Proof.RefStages
import proofs.«132113_j39393440039434_1_alg».proof.Proof.Consts
import Idealize.ShloMosaic.Lib.IdealHost
import Idealize.ShloMosaic.Lib.ValueLayout
import Idealize.ShloMosaic.Lib.Pipeline.Value
import Idealize.ShloMosaic.PureOps.Ideal.Laws

/-!
Each stage of the reference read at one index, at the exact values: a product as the sum over its
contracted axis, the row maximum as a supremum, the row sum as a sum, the two keepdims layouts as the
row's entry, the activation as a case split on the sign.
-/

noncomputable section

namespace Cert.ReferenceIdeal.RefIdx

open Cert.ReferenceIdeal Cert.ReferenceIdeal.RefRun Idealize.ShloMosaic Idealize.ShloMosaic.ValueIdx
open scoped BigOperators

/-! ## Products and layouts -/

/-- A host product with one contracted axis, read at a result index: the sum over that axis of the
    operands' products, the operand indices named by the caller. -/
theorem dot_apply {sl sr so : Shape} (D : DotDims sl sr so) (n : ℕ) (hr : D.contr.rank = 1)
    (hs : D.contr.size ⟨0, by omega⟩ = n) (x : FVec Ideal sl .f32) (y : FVec Ideal sr .f32) (o : so.Idx)
    (L : Fin n → sl.Idx) (R : Fin n → sr.Idx)
    (hL : ∀ q, D.lhsIdx o q = L (contrEquiv1 D n hr hs q)) (hR : ∀ q, D.rhsIdx o q = R (contrEquiv1 D n hr hs q)) :
    Host.dotGeneral D none x y o = ∑ k : Fin n, x (L k) * y (R k) := by
  refine (Ideal.dotGeneral_apply D none .single x y o).trans ?_
  rw [← Equiv.sum_comp (contrEquiv1 D n hr hs)]
  exact Finset.sum_congr rfl fun q _ => by rw [hL q, hR q]

/-- A vector of row results as one column reads the row's entry. -/
theorem keep_apply {α : Type} (x : S8192.Idx → α) (h : S8192.BroadcastsInDim S8192x1 ![0]) (i : Fin 8192) (u : Fin 1) :
    broadcastInDim S8192x1 ![0] h x (ix2 i u) = x (ix1 i) :=
  broadcastInDim_apply _ h x _ _ fun a => match a with | ⟨0, _⟩ => rfl

/-- One column spread along the rows reads the row's entry. -/
theorem spread_apply {α : Type} (x : S8192x1.Idx → α) (h : S8192x1.BroadcastsInDim S8192x8192 ![0, 1]) (i j : Fin 8192) :
    broadcastInDim S8192x8192 ![0, 1] h x (ix2 i j) = x (ix2 i (0 : Fin 1)) :=
  broadcastInDim_apply _ h x _ _ fun a => match a with | ⟨0, _⟩ => rfl | ⟨1, _⟩ => rfl

/-- The index of a `[8192, 8192]` array over row result `i` with column `k` put back. -/
theorem lift_row (h : S8192x8192.Reduces [1] S8192) (i : Fin 8192) (k : Fin 8192) : h.lift (ix1 i) k = ix2 i k :=
  funext fun ax => Fin.ext (by
    match ax with
    | ⟨0, _⟩ => rfl
    | ⟨1, _⟩ => rfl)

theorem reduces_rows : S8192x8192.Reduces [1] S8192 := by decide

/-! ## The stages -/

/-- The features against a projection: the sum over the 512 input features. -/
theorem proj_apply (x : FVec Ideal S8192x512 .f32) (w : FVec Ideal S512x256 .f32) (i : Fin 8192) (d : Fin 256) :
    proj (F := Ideal) x w (ix2 i d) = ∑ a : Fin 512, x (ix2 i a) * w (ix2 a d) := by
  unfold proj
  exact dot_apply _ 512 rfl rfl x w _ (fun a => ix2 i a) (fun a => ix2 a d)
    (fun q => funext fun ax => Fin.ext (by match ax with | ⟨0, _⟩ => rfl | ⟨1, _⟩ => rfl))
    (fun q => funext fun ax => Fin.ext (by match ax with | ⟨0, _⟩ => rfl | ⟨1, _⟩ => rfl))

/-- The scale is one sixteenth. -/
theorem scale_eq : (scale (F := Ideal)) ix0 = ((1 / 16 : ℝ) : EReal) := by
  unfold scale
  rw [hostDivf_apply]
  show Ideal.div (Ideal.ofBits .f32 0x3F800000#32) (Ideal.sqrt (Ideal.ofBits .f32 0x43800000#32)) = _
  rw [Cert.Consts.ofBits_one, Cert.Consts.ofBits_256, Cert.Consts.scale_eq]

/-- A scaled score: the sum over the 256 projected features, times the scale. -/
theorem logits_apply (q k : FVec Ideal S8192x256 .f32) (i j : Fin 8192) :
    logits (F := Ideal) q k (ix2 i j) = (∑ d : Fin 256, q (ix2 i d) * k (ix2 j d)) * ((1 / 16 : ℝ) : EReal) := by
  unfold logits
  rw [mulf_apply, broadcastInDim_scalar_apply, scale_eq]
  congr 1
  refine (dot_apply _ 256 rfl rfl q _ _ (fun d => ix2 i d) (fun d => ix2 d j)
    (fun q => funext fun ax => Fin.ext (by match ax with | ⟨0, _⟩ => rfl | ⟨1, _⟩ => rfl))
    (fun q => funext fun ax => Fin.ext (by match ax with | ⟨0, _⟩ => rfl | ⟨1, _⟩ => rfl))).trans ?_
  exact Finset.sum_congr rfl fun d _ => by rw [transpose_ix2_apply]

/-- A row's maximum is the supremum of the row. -/
theorem rowmax_apply (L : FVec Ideal S8192x8192 .f32) (i : Fin 8192) :
    rowmax (F := Ideal) L (ix1 i) = Finset.univ.sup fun j : Fin 8192 => L (ix2 i j) := by
  unfold rowmax
  refine (Host.reduce_eq_fold_single _ L _ _ reduces_rows _ (ix1 i)).trans ?_
  show (Finset.univ : Finset (Fin 8192)).fold max (Ideal.ofBits .f32 0xFF800000#32) (L ∘ reduces_rows.lift (ix1 i)) = _
  rw [Cert.Consts.ofBits_neg_inf]
  show (Finset.univ : Finset (Fin 8192)).sup (L ∘ reduces_rows.lift (ix1 i)) = _
  exact congrArg _ (funext fun k => congrArg L (lift_row _ i k))

/-- A weight: the exponential of the score less the row's maximum, times the multiplicity. -/
theorem nomi_apply (L cn : FVec Ideal S8192x8192 .f32) (i j : Fin 8192) :
    nomi (F := Ideal) L cn (ix2 i j) = Ideal.exp (L (ix2 i j) - rowmax (F := Ideal) L (ix1 i)) * cn (ix2 i j) := by
  unfold nomi
  rw [mulf_apply]
  show Ideal.exp (subf L _ (ix2 i j)) * _ = _
  rw [subf_apply, spread_apply, keep_apply]

/-- The guarded row sum. -/
theorem deno_apply (N : FVec Ideal S8192x8192 .f32) (i : Fin 8192) (u : Fin 1) :
    deno (F := Ideal) N (ix2 i u) = (∑ j : Fin 8192, N (ix2 i j)) + ((Cert.Consts.epsR : ℝ) : EReal) := by
  unfold deno
  rw [addf_apply, keep_apply, broadcastInDim_scalar_apply, constant_apply, Cert.Consts.ofBits_eps, hostReduceAdd_apply,
    Ideal.hostReduceAdd_single _ reduces_rows, constant_apply, Ideal.ofBits_zero_f32, zero_add]
  congr 1
  exact Finset.sum_congr rfl fun k _ => congrArg N (lift_row _ i k)

/-- A normalised weight. -/
theorem attn_apply (N : FVec Ideal S8192x8192 .f32) (i j : Fin 8192) :
    attn (F := Ideal) N (ix2 i j) = Ideal.div (N (ix2 i j)) (deno (F := Ideal) N (ix2 i (0 : Fin 1))) := by
  unfold attn
  rw [hostDivf_apply, spread_apply]

/-- The weights against the values: the sum over the 8192 keys. -/
theorem ret_apply (A : FVec Ideal S8192x8192 .f32) (v : FVec Ideal S8192x256 .f32) (i : Fin 8192) (c : Fin 256) :
    ret (F := Ideal) A v (ix2 i c) = ∑ j : Fin 8192, A (ix2 i j) * v (ix2 j c) := by
  unfold ret
  exact dot_apply _ 8192 rfl rfl A v _ (fun j => ix2 i j) (fun j => ix2 j c)
    (fun q => funext fun ax => Fin.ext (by match ax with | ⟨0, _⟩ => rfl | ⟨1, _⟩ => rfl))
    (fun q => funext fun ax => Fin.ext (by match ax with | ⟨0, _⟩ => rfl | ⟨1, _⟩ => rfl))

end Cert.ReferenceIdeal.RefIdx

end
-- ==== Proof.RefAct.lean ====
import proofs.«132113_j39393440039434_1_alg».proof.Proof.RefStages
import proofs.«132113_j39393440039434_1_alg».proof.Proof.Spec
import Idealize.ShloMosaic.Lib.IdealHost
import Idealize.ShloMosaic.PureOps.Ideal.Laws

/-!
The activation as the reference spells it — a selection on the sign, the negative branch one times
`expm1` of the operand with the positive entries replaced by zero — is, at every extended real, the
identity above zero and `exp x - 1` elsewhere.
-/

noncomputable section

namespace Cert.ReferenceIdeal.RefIdx

open Cert.ReferenceIdeal Cert.ReferenceIdeal.RefRun Idealize.ShloMosaic Idealize.ShloMosaic.ValueIdx

theorem hostExpm1_apply {s : Shape} (v : FVec Ideal s .f32) (o : s.Idx) : Host.expm1 v o = Ideal.exp (v o) - 1 := rfl

/-- The comparison "above zero" as a bit. -/
theorem gt_zero_bit (a : EReal) :
    FloatOps.cmpf (F := Ideal) (φ := .f32) .ogt a (0 : EReal) = if 0 < a then 1#1 else 0#1 := by
  rw [Ideal.cmpf_def]
  unfold Ideal.cmp
  by_cases h : 0 < a <;> simp [h]

theorem act_apply (x : FVec Ideal S8192x256 .f32) (o : S8192x256.Idx) : act (F := Ideal) x o = Cert.Spec.elu (x o) := by
  unfold act
  simp only [select_apply, cmpf_apply, mulf_apply, hostExpm1_apply, id]
  rw [broadcastInDim_scalar_apply, broadcastInDim_scalar_apply, constant_apply, constant_apply,
    Ideal.ofBits_zero_f32, Cert.Consts.ofBits_one, gt_zero_bit]
  show _ = (if 0 < x o then x o else Ideal.exp (x o) - 1)
  by_cases h : 0 < x o
  · rw [if_pos h, if_pos h, select_one]
  · rw [if_neg h, if_neg h, select_zero, select_zero, EReal.coe_one, one_mul]

end Cert.ReferenceIdeal.RefIdx

end
-- ==== Proof.RefValue.lean ====
import proofs.«132113_j39393440039434_1_alg».proof.Proof.RefRun
import proofs.«132113_j39393440039434_1_alg».proof.Proof.RefIdx
import proofs.«132113_j39393440039434_1_alg».proof.Proof.RefAct
import proofs.«132113_j39393440039434_1_alg».proof.Proof.Spec

/-!
The reference computes the specification. From real argument arrays the three projections are real, the
scaled scores are the specification's scores, the row maximum is the running maximum over the whole
row, and the normalised weights contracted with the values are the two-pass row: the quotient of the
value mass by the guarded mass. The activation then agrees with the specification's at every extended
real.
-/

noncomputable section

namespace Cert.ReferenceIdeal.RefValue

open Idealize.ShloMosaic Idealize.ShloMosaic.TcCoe Idealize.SL.Sem Cert.ReferenceIdeal
open Idealize.ShloMosaic.ValueIdx Cert.ReferenceIdeal.RefRun Cert.ReferenceIdeal.RefIdx OnlineSoftmax

/-- A projection of real arrays is real: the specification's. -/
theorem proj_coe (f : Cert.Spec.SF.Idx → ℝ) (w : Cert.Spec.SW.Idx → ℝ) (i : Fin 8192) (d : Fin 256) :
    proj (F := Ideal) (fun x => ((f x : ℝ) : EReal)) (fun x => ((w x : ℝ) : EReal)) (ix2 i d)
      = ((Cert.Spec.proj f w i d : ℝ) : EReal) := by
  rw [proj_apply]
  exact sum_mul_coe Finset.univ (fun a => f (ix2 i a)) (fun a => w (ix2 a d))

/-- The scaled scores of real arrays are the specification's scores. -/
theorem logits_coe (f : Cert.Spec.SF.Idx → ℝ) (wq wk : Cert.Spec.SW.Idx → ℝ) (i j : Fin 8192) :
    logits (F := Ideal) (proj (fun x => ((f x : ℝ) : EReal)) (fun x => ((wq x : ℝ) : EReal)))
        (proj (fun x => ((f x : ℝ) : EReal)) (fun x => ((wk x : ℝ) : EReal))) (ix2 i j)
      = ((Cert.Spec.score f wq wk i j : ℝ) : EReal) := by
  rw [logits_apply]
  simp only [proj_coe]
  rw [sum_mul_coe, ← EReal.coe_mul]
  rfl

/-- The reference's result, of real arguments with nonnegative multiplicities, is the specification. -/
theorem out_eq (f : Cert.Spec.SF.Idx → ℝ) (cn : Cert.Spec.SC.Idx → ℝ) (wq wk wv : Cert.Spec.SW.Idx → ℝ)
    (hpos : ∀ x, 0 ≤ cn x) :
    out (F := Ideal) (fun x => ((f x : ℝ) : EReal)) (fun x => ((cn x : ℝ) : EReal)) (fun x => ((wq x : ℝ) : EReal))
        (fun x => ((wk x : ℝ) : EReal)) (fun x => ((wv x : ℝ) : EReal))
      = Cert.Spec.G f cn wq wk wv := by
  funext o
  obtain ⟨i, c, rfl⟩ : ∃ (i : Fin 8192) (c : Fin 256), o = ix2 i c := ⟨o 0, o 1, eq_ix2 o⟩
  rw [Cert.Spec.G_apply]
  unfold out
  rw [act_apply]
  congr 1
  rw [ret_apply]
  simp only [attn_apply, deno_apply, nomi_apply, rowmax_apply, logits_coe, proj_coe]
  exact two_pass_row Finset.univ Finset.univ_nonempty (Cert.Spec.score f wq wk i) (fun j => cn (ix2 i j))
    (fun j => Cert.Spec.proj f wv j c) Cert.Consts.epsR (Cert.Spec.den_pos f cn wq wk hpos i)

/-- From a memory whose five argument arrays are real, the multiplicities nonnegative, the reference
    terminates without a fault with its result the specification and its arguments unchanged. -/
theorem run_spec (m : (ℓ : Loc nD τ sig) → Buf (Elt Ideal) ℓ) (ρ : Dev nD → PrngReg)
    (f : Dev nD → Cert.Spec.SF.Idx → ℝ) (cn : Dev nD → Cert.Spec.SC.Idx → ℝ) (wq wk wv : Dev nD → Cert.Spec.SW.Idx → ℝ)
    (hf : ∀ c : Dev nD, m ((c.tc : Thread nD τ).loc main_arg0) = fun i => ((f c i : ℝ) : EReal))
    (hcn : ∀ c : Dev nD, m ((c.tc : Thread nD τ).loc main_arg1) = fun i => ((cn c i : ℝ) : EReal))
    (hq : ∀ c : Dev nD, m ((c.tc : Thread nD τ).loc main_arg2) = fun i => ((wq c i : ℝ) : EReal))
    (hk : ∀ c : Dev nD, m ((c.tc : Thread nD τ).loc main_arg3) = fun i => ((wk c i : ℝ) : EReal))
    (hv : ∀ c : Dev nD, m ((c.tc : Thread nD τ).loc main_arg4) = fun i => ((wv c i : ℝ) : EReal))
    (hpos : ∀ (c : Dev nD) (x : Cert.Spec.SC.Idx), 0 ≤ cn c x) :
    θ_run (defs (F := Ideal)) (onTc (τ := τ) (main (F := Ideal))) ⟨m, fun _ => 0, ρ⟩ (fun r => ∀ c : Dev nD,
      r.2.mem ((c.tc : Thread nD τ).loc main_v22) = Cert.Spec.G (f c) (cn c) (wq c) (wk c) (wv c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono
    (fun _ h c => ⟨(h c).1.trans (by
        rw [hf c, hcn c, hq c, hk c, hv c]
        exact out_eq (f c) (cn c) (wq c) (wk c) (wv c) (hpos c)), (h c).2⟩)
    (RefRun.run (F := Ideal) m ρ)

end Cert.ReferenceIdeal.RefValue

end
-- ==== Proof.PreFacts.lean ====
/-
  The precondition read back at the exact instance. The printed predicate tests, for each of the five
  argument arrays, that every entry x has max x (-x) below the pattern 0x7F800000 (which denotes +∞),
  and for the second array also that every entry is at least the pattern of zero; each test is reduced
  by "and" over all axes from the word 1, and the six results are joined by "and". When the joined word
  is 1, every test word is 1; on the extended reals, max x (-x) < ⊤ says x is neither ⊤ nor ⊥, that is,
  x is the coercion of a real number, and 0 ≤ x then says that real number is nonnegative.
-/
import proofs.«132113_j39393440039434_1_alg».proof.Pre_finite_inputs
import Idealize.ShloMosaic.PureOps.Ideal
import Idealize.ShloMosaic.PureOps.Ideal.Laws
import Idealize.ShloMosaic.Lib.ValueIdx
import Idealize.ShloMosaic.Lib.IdealHost
import Idealize.ShloMosaic.Lib.ReduceAll

noncomputable section

namespace Cert.PreFacts

open Idealize.ShloMosaic
open Cert.Pre_finite_inputs

/-- The shape of a scalar has exactly one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The f32 pattern with all exponent bits set and no fraction bits denotes +∞. -/
theorem ofBits_inf_f32 : Ideal.ofBits .f32 0x7F800000#32 = (⊤ : EReal) := by
  simp [Ideal.ofBits, Ideal.ieee]

/-- An extended real x with max x (-x) < ⊤ is a real number: ⊤ fails at once, and -⊥ = ⊤. -/
theorem real_of_abs_lt_top (x : EReal) (h : max x (-x) < ⊤) : ∃ r : ℝ, x = ((r : ℝ) : EReal) := by
  induction x using EReal.rec with
  | bot => exact absurd h (by simp)
  | coe r => exact ⟨r, rfl⟩
  | top => exact absurd h (by simp)

/-- One entry's finiteness test: the comparison word is 1 only when the entry is a real number. -/
theorem finite_elt (x : EReal)
    (h : Ideal.cmp .olt (max x (-x)) (Ideal.ofBits .f32 0x7F800000#32) = 1#1) :
    ∃ r : ℝ, x = ((r : ℝ) : EReal) := by
  rw [ofBits_inf_f32] at h
  unfold Ideal.cmp at h
  rw [ofBool_eq_one] at h
  exact real_of_abs_lt_top x (of_decide_eq_true h)

/-- One entry's sign test: the comparison word is 1 only when the entry is at least zero. -/
theorem nonneg_elt (x : EReal)
    (h : Ideal.cmp .oge x (Ideal.ofBits .f32 0x00000000#32) = 1#1) : 0 ≤ x := by
  rw [Ideal.ofBits_zero_f32] at h
  unfold Ideal.cmp at h
  rw [ofBool_eq_one] at h
  exact of_decide_eq_true h

variable {s : Shape} {axes : List (Fin s.rank)}

/-- The finiteness test of a whole array, reduced by "and" over all axes: if the reduced word is 1,
    every entry of the array is a real number. -/
theorem all_finite (hb : S_.BroadcastsInDim s (![] : Fin 0 → Fin s.rank)) (hr : s.ReducesTo axes S_) (hu : 0 < S_.numel)
    (a : FVec Ideal s .f32) (init : IVec S_ 1)
    (e : Host.reduce IntOp.andi
          (cmpf .olt (Host.absf a) (broadcastInDim s ![] hb (constant (F := Ideal) S_ .f32 0x7F800000#32)))
          init hr hu ValueIdx.ix0 = 1#1)
    (i : s.Idx) : ∃ r : ℝ, a i = ((r : ℝ) : EReal) := by
  have h1 := Host.reduce_andi_all _ _ hr hu _ e i
  rw [ValueIdx.cmpf_apply, ValueIdx.broadcastInDim_scalar_apply, ValueIdx.constant_apply] at h1
  exact finite_elt (a i) h1

/-- The sign test of a whole array, reduced by "and" over all axes: if the reduced word is 1,
    every entry of the array is at least zero. -/
theorem all_nonneg (hb : S_.BroadcastsInDim s (![] : Fin 0 → Fin s.rank)) (hr : s.ReducesTo axes S_) (hu : 0 < S_.numel)
    (a : FVec Ideal s .f32) (init : IVec S_ 1)
    (e : Host.reduce IntOp.andi
          (cmpf .oge a (broadcastInDim s ![] hb (constant (F := Ideal) S_ .f32 0x00000000#32)))
          init hr hu ValueIdx.ix0 = 1#1)
    (i : s.Idx) : 0 ≤ a i := by
  have h1 := Host.reduce_andi_all _ _ hr hu _ e i
  rw [ValueIdx.cmpf_apply, ValueIdx.broadcastInDim_scalar_apply, ValueIdx.constant_apply] at h1
  exact nonneg_elt (a i) h1

variable [Facts]

/-- THE PRECONDITION DECODED: when the printed predicate of the five arrays is all ones, every entry of
    every array is a real number, and every entry of the second array is a nonnegative real number. -/
theorem decode (a0 : FVec Ideal S8192x512 .f32) (a1 : FVec Ideal S8192x8192 .f32)
    (a2 a3 a4 : FVec Ideal S512x256 .f32)
    (h : (Cert.Pre_finite_inputs.fn (F := Ideal) a0 a1 a2 a3 a4) = (fun _ => 1#1)) :
    (∀ i, ∃ r : ℝ, a0 i = ((r : ℝ) : EReal)) ∧ (∀ i, ∃ r : ℝ, a1 i = ((r : ℝ) : EReal) ∧ 0 ≤ r)
    ∧ (∀ i, ∃ r : ℝ, a2 i = ((r : ℝ) : EReal)) ∧ (∀ i, ∃ r : ℝ, a3 i = ((r : ℝ) : EReal))
    ∧ (∀ i, ∃ r : ℝ, a4 i = ((r : ℝ) : EReal)) := by
  have e := congrFun h ValueIdx.ix0
  dsimp only [fn, fn_part1, andi] at e
  simp only [IntOp.andi_eq_one] at e
  obtain ⟨⟨⟨⟨⟨e0, e1⟩, e2⟩, e3⟩, e4⟩, e5⟩ := e
  refine ⟨all_finite _ _ _ a0 _ e0, fun i => ?_, all_finite _ _ _ a2 _ e2, all_finite _ _ _ a3 _ e3,
    all_finite _ _ _ a4 _ e4⟩
  obtain ⟨r, hr⟩ := all_finite _ _ _ a1 _ e1 i
  have hn := all_nonneg _ _ _ a1 _ e5 i
  rw [hr] at hn
  exact ⟨r, hr, EReal.coe_nonneg.1 hn⟩

end Cert.PreFacts

end
-- ==== Proof.PreMem.lean ====
/-
  The precondition read back over the idealized kernel's launch memory: on every device, each of the five
  argument arrays holds only real numbers, and the second holds only nonnegative real numbers.
-/
import proofs.«132113_j39393440039434_1_alg».proof.Defs
import proofs.«132113_j39393440039434_1_alg».proof.Proof.Gen.Pre_finite_inputs
import proofs.«132113_j39393440039434_1_alg».proof.Proof.PreFacts

noncomputable section

namespace Cert.PreFacts

open Idealize.ShloMosaic Idealize.SL.Sem

/-- The precondition of the idealized kernel, decoded at a device: the five argument buffers of the
    launch memory are the five arrays the printed predicate tests. -/
theorem decode_mem (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S8192x512.Idx, ∃ r : ℝ, m ((c.tc : Thread Cert.KernelIdeal.nD Cert.KernelIdeal.τ).loc Cert.KernelIdeal.main_arg0) i = ((r : ℝ) : EReal))
    ∧ (∀ i : Cert.KernelIdeal.S8192x8192.Idx, ∃ r : ℝ, m ((c.tc : Thread Cert.KernelIdeal.nD Cert.KernelIdeal.τ).loc Cert.KernelIdeal.main_arg1) i = ((r : ℝ) : EReal) ∧ 0 ≤ r)
    ∧ (∀ i : Cert.KernelIdeal.S512x256.Idx, ∃ r : ℝ, m ((c.tc : Thread Cert.KernelIdeal.nD Cert.KernelIdeal.τ).loc Cert.KernelIdeal.main_arg2) i = ((r : ℝ) : EReal))
    ∧ (∀ i : Cert.KernelIdeal.S512x256.Idx, ∃ r : ℝ, m ((c.tc : Thread Cert.KernelIdeal.nD Cert.KernelIdeal.τ).loc Cert.KernelIdeal.main_arg3) i = ((r : ℝ) : EReal))
    ∧ (∀ i : Cert.KernelIdeal.S512x256.Idx, ∃ r : ℝ, m ((c.tc : Thread Cert.KernelIdeal.nD Cert.KernelIdeal.τ).loc Cert.KernelIdeal.main_arg4) i = ((r : ℝ) : EReal)) :=
  decode _ _ _ _ _ (h c)

end Cert.PreFacts

end
-- ==== Proof.lean ====
/-
  The claim. The kernel projects the features onto queries, keys and values with three weight matrices laid side
  by side, then, query block by query block, walks the key blocks keeping a running maximum of the scores, the sum of
  the weights exp (score - maximum) * multiplicity and the weighted sum of the values, rescaling both sums whenever the
  maximum grows, and at the last key block writes the weighted sum divided by the weight sum plus a small guard,
  passed through x ↦ x above zero and x ↦ exp x - 1 elsewhere. The reference takes each row's maximum first,
  normalises every weight by the row's guarded sum, and contracts with the values afterwards. On the extended reals,
  with finite arguments and nonnegative multiplicities (so that the guarded sum is positive), both are one function
  of the arguments: after the last key block the running sums are the row's sums relative to the row's maximum, and a
  quotient by a common nonzero real may be taken before or after the contraction. The three programs' runs each
  terminate, fault nowhere and leave their arguments unchanged; the kernel's idealization rewrote nothing.
-/
import proofs.«132113_j39393440039434_1_alg».proof.Defs
import proofs.«132113_j39393440039434_1_alg».proof.Proof.Gen.Kernel
import proofs.«132113_j39393440039434_1_alg».proof.Proof.Gen.KernelIdeal
import proofs.«132113_j39393440039434_1_alg».proof.Proof.Gen.ReferenceIdeal
import proofs.«132113_j39393440039434_1_alg».proof.Proof.Gen.Pre_finite_inputs
import proofs.«132113_j39393440039434_1_alg».proof.Proof.B_Asm
import proofs.«132113_j39393440039434_1_alg».proof.Proof.I_Asm
import proofs.«132113_j39393440039434_1_alg».proof.Proof.I_Value
import proofs.«132113_j39393440039434_1_alg».proof.Proof.RefValue
import proofs.«132113_j39393440039434_1_alg».proof.Proof.PreMem

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame_ref m ρ

/-- From memories that agree on finite arguments with nonnegative multiplicities, the kernel's result array and the
    reference's are the same function of the (real) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hd := fun c => Cert.PreFacts.decode_mem m hpre c
  choose f hf using fun c => (hd c).1
  choose cn hcn using fun c => (hd c).2.1
  choose wq hq using fun c => (hd c).2.2.1
  choose wk hk using fun c => (hd c).2.2.2.1
  choose wv hv using fun c => (hd c).2.2.2.2
  refine ⟨fun c => Cert.Spec.G (f c) (cn c) (wq c) (wk c) (wv c), ?_, ?_⟩
  · exact Cert.KernelIdeal.FrVal.kernel_spec m ρ f cn wq wk wv (fun c => funext (hf c)) (fun c => funext fun i => (hcn c i).1)
      (fun c => funext (hq c)) (fun c => funext (hk c)) (fun c => funext (hv c))
  · exact Cert.ReferenceIdeal.RefValue.run_spec m' ρ' f cn wq wk wv
      (fun c => (hagree c).1.trans (funext (hf c))) (fun c => (hagree c).2.1.trans (funext fun i => (hcn c i).1))
      (fun c => (hagree c).2.2.1.trans (funext (hq c))) (fun c => (hagree c).2.2.2.1.trans (funext (hk c)))
      (fun c => (hagree c).2.2.2.2.trans (funext (hv c))) (fun c x => (hcn c x).2)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
